-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) (main_arg1 : IVec S512 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S512x256 : Shape := ⟨2, ![512, 256]⟩
abbrev S512 : Shape := ⟨1, ![512]⟩
abbrev S512x512 : Shape := ⟨2, ![512, 512]⟩
abbrev S256x512 : Shape := ⟨2, ![256, 512]⟩
abbrev S512x1 : Shape := ⟨2, ![512, 1]⟩
abbrev S1x512 : Shape := ⟨2, ![1, 512]⟩
abbrev S_ : Shape := ⟨0, ![]⟩
abbrev S512x512x1 : Shape := ⟨3, ![512, 512, 1]⟩
abbrev S512x1x512 : Shape := ⟨3, ![512, 1, 512]⟩
abbrev S8x512x1 : Shape := ⟨3, ![8, 512, 1]⟩
abbrev S8x1x128 : Shape := ⟨3, ![8, 1, 128]⟩
abbrev S8x512 : Shape := ⟨2, ![8, 512]⟩
abbrev S8x512x128 : Shape := ⟨3, ![8, 512, 128]⟩

abbrev nBuf : Space → Nat
  | .hbm => 59
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S512x512, .i1⟩
  | .hbm, ⟨15, _⟩ => ⟨S512x512, .i1⟩
  | .hbm, ⟨16, _⟩ => ⟨S512x512, .i1⟩
  | .hbm, ⟨17, _⟩ => ⟨S512x512, .f32⟩
  | .hbm, ⟨18, _⟩ => ⟨S_, .i1⟩
  | .hbm, ⟨19, _⟩ => ⟨S512, .i1⟩
  | .hbm, ⟨20, _⟩ => ⟨S512x512x1, .f32⟩
  | .hbm, ⟨21, _⟩ => ⟨S512x1x512, .f32⟩
  | .hbm, ⟨22, _⟩ => ⟨S512x1x512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .i1⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .i1⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x1, .i1⟩
  | .hbm, ⟨39, _⟩ => ⟨S512x512, .i1⟩
  | .hbm, ⟨40, _⟩ => ⟨S512x512, .i1⟩
  | .hbm, ⟨41, _⟩ => ⟨S_, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S512x256, .f32⟩
  | .local _ .vmem, ⟨1, _⟩ => ⟨S512x512, .f32⟩
  | .local _ .vmem, ⟨2, _⟩ => ⟨S8x512x1, .f32⟩
  | .local _ .vmem, ⟨3, _⟩ => ⟨S8x512x1, .f32⟩
  | .local _ .vmem, ⟨4, _⟩ => ⟨S8x1x128, .f32⟩
  | .local _ .vmem, ⟨5, _⟩ => ⟨S8x1x128, .f32⟩
  | .local _ .vmem, ⟨6, _⟩ => ⟨S8x1x128, .f32⟩
  | .local _ .vmem, ⟨7, _⟩ => ⟨S8x1x128, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_call1_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_cst_6 : Ref sig .tc := ⟨.hbm, 47, rfl⟩
abbrev main_call3_v0 : Ref sig .tc := ⟨.hbm, 48, rfl⟩
abbrev main_call3_v1 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_call4_v0 : Ref sig .tc := ⟨.hbm, 57, rfl⟩
abbrev main_v37 : Ref sig .tc := ⟨.hbm, 58, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![64, 4], ![false, false]⟩

def k1_cond1 (i : grid1.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_12 : BitVec 32 := 0#32
  let v33 : BitVec 1 := Scalar.cmpi .ne v32 c0_i32_12
  v33

def k1_cond2 (i : grid1.Coords) : BitVec 1 :=
  let arg1 : BitVec 32 := BitVec.ofNat 32 (i 1).val
  let c0_i32_13 : BitVec 32 := 0#32
  let v34 : BitVec 1 := Scalar.cmpi .ne arg1 c0_i32_13
  let v35 : BitVec 32 := Scalar.extui v34
  let c0_i32_14 : BitVec 32 := 0#32
  let v36 : BitVec 1 := Scalar.cmpi .ne v35 c0_i32_14
  v36

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512_S1x512 : S512.ShapeCasts S1x512
  bcast_S_S512x512 : S_.BroadcastsInDim S512x512 (![] : Fin 0 → Fin S512x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  reducesTo_S512x512_S512_d1 : S512x512.ReducesTo [1] S512
  h_S_ : 0 < S_.numel
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  inb_S8x512x1_S8x512x1_0_0_0 : ∀ a, (![0, 0, 0] : Fin 3 → Nat) a + S8x512x1.size a ≤ S8x512x1.size a
  h_S8x512x1 : 0 < S8x512x1.numel
  shapeCasts_S8x512x1_S8x512x1 : S8x512x1.ShapeCasts S8x512x1
  inb_S8x1x128_S8x1x128_0_0_0 : ∀ a, (![0, 0, 0] : Fin 3 → Nat) a + S8x1x128.size a ≤ S8x1x128.size a
  h_S8x1x128 : 0 < S8x1x128.numel
  shapeCasts_S8x1x128_S8x1x128 : S8x1x128.ShapeCasts S8x1x128
  broadcasts_S8x1x128_S8x512x128 : S8x1x128.Broadcasts S8x512x128
  broadcasts_S8x512x1_S8x512x128 : S8x512x1.Broadcasts S8x512x128
  natLt_1_32 : 1 < 32
  reduces_S8x512x128_S8x512 : S8x512x128.Reduces [2] S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  bcast_S512_S512x1_0 : S512.BroadcastsInDim S512x1 (![0] : Fin 1 → Fin S512x1.rank)
  reducesTo_S512x512_S_d0_1 : S512x512.ReducesTo [0, 1] S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x1.size a ≤ S512x512x1.size a
  hwx1_0 : ∀ i : grid1.Coords, EltTy.bits .f32 = 32 ∨ (Rect.block (s := S512x512x1) S8x512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1x128.size a ≤ S512x1x512.size a
  hwx1_1 : ∀ i : grid1.Coords, EltTy.bits .f32 = 32 ∨ (Rect.block (s := S512x1x512) S8x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1x128.size a ≤ S512x1x512.size a
  hwx1_2 : ∀ i : grid1.Coords, EltTy.bits .f32 = 32 ∨ (Rect.block (s := S512x1x512) S8x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512.size a ≤ S512x512.size a
  hwx1_3 : ∀ i : grid1.Coords, EltTy.bits .f32 = 32 ∨ (Rect.block (s := S512x512) S8x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x512.size a ≤ S512x512.size a
  hwx1_4 : ∀ i : grid1.Coords, EltTy.bits .f32 = 32 ∨ (Rect.block (s := S512x512) S8x512.size (cc1_transform_4 i) (hinb1_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v16) S8x512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S8x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S8x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S8x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond1 i == 1#1) && !(k1_cond2 i == 1#1) | 4 => fun i => !(k1_cond1 i == 1#1) && !(k1_cond2 i == 1#1) | ⟨_ + 5, h⟩ => absurd h (Nat.not_lt.2 (Nat.le_add_left _ _))

class Facts : Prop extends Facts₀ where

variable [Facts]
-- ==== ReferenceIdeal.lean ====
abbrev S512x256 : Shape := ⟨2, ![512, 256]⟩
abbrev S512 : Shape := ⟨1, ![512]⟩
abbrev S512x1x256 : Shape := ⟨3, ![512, 1, 256]⟩
abbrev S1x512x256 : Shape := ⟨3, ![1, 512, 256]⟩
abbrev S512x512x256 : Shape := ⟨3, ![512, 512, 256]⟩
abbrev S_ : Shape := ⟨0, ![]⟩
abbrev S512x512 : Shape := ⟨2, ![512, 512]⟩
abbrev S512x1 : Shape := ⟨2, ![512, 1]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 130
  | .vmem => 0
  | .smem => 0
  | _ => 0

abbrev hbmTy0_0 (i : Nat) : BufTy := match i % 128 with
  | 0 => ⟨S512x256, .f32⟩
  | 1 => ⟨S512, .i32⟩
  | 2 => ⟨S512x1x256, .f32⟩
  | 3 => ⟨S1x512x256, .f32⟩
  | 4 => ⟨S512x512x256, .f32⟩
  | 5 => ⟨S512x512x256, .f32⟩
  | 6 => ⟨S512x512x256, .f32⟩
  | 7 => ⟨S512x512x256, .f32⟩
  | 8 => ⟨S_, .f32⟩
  | 9 => ⟨S512x512, .f32⟩
  | 10 => ⟨S_, .f32⟩
  | 11 => ⟨S512x512, .f32⟩
  | 12 => ⟨S512x512, .i1⟩
  | 13 => ⟨S_, .f32⟩
  | 14 => ⟨S512x512, .f32⟩
  | 15 => ⟨S512x512, .i1⟩
  | 16 => ⟨S_, .f32⟩
  | 17 => ⟨S_, .f32⟩
  | 18 => ⟨S512x512, .f32⟩
  | 19 => ⟨S512x512, .f32⟩
  | 20 => ⟨S512x512, .f32⟩
  | 21 => ⟨S_, .f32⟩
  | 22 => ⟨S_, .f32⟩
  | 23 => ⟨S512x512, .f32⟩
  | 24 => ⟨S512x512, .f32⟩
  | 25 => ⟨S512x512, .i32⟩
  | 26 => ⟨S512x512, .i32⟩
  | 27 => ⟨S_, .i32⟩
  | 28 => ⟨S512x512, .i32⟩
  | 29 => ⟨S512x512, .i32⟩
  | 30 => ⟨S512x512, .i1⟩
  | 31 => ⟨S512x1, .i32⟩
  | 32 => ⟨S1x512, .i32⟩
  | 33 => ⟨S512x512, .i32⟩
  | 34 => ⟨S512x512, .i32⟩
  | 35 => ⟨S512x512, .i1⟩
  | 36 => ⟨S512x512, .i1⟩
  | 37 => ⟨S512x512, .i1⟩
  | 38 => ⟨S512x512, .i1⟩
  | 39 => ⟨S_, .i1⟩
  | 40 => ⟨S512, .i1⟩
  | 41 => ⟨S_, .f32⟩
  | 42 => ⟨S_, .f32⟩
  | 43 => ⟨S512x512, .f32⟩
  | 44 => ⟨S512x512, .f32⟩
  | 45 => ⟨S_, .f32⟩
  | 46 => ⟨S512, .f32⟩
  | 47 => ⟨S512x512x1, .f32⟩
  | 48 => ⟨S512x1x512, .f32⟩
  | 49 => ⟨S512x1x512, .i1⟩
  | 50 => ⟨S_, .f32⟩
  | 51 => ⟨S512x512x1, .f32⟩
  | 52 => ⟨S512x512x1, .f32⟩
  | 53 => ⟨S512x512x512, .f32⟩
  | 54 => ⟨S512x512x512, .f32⟩
  | 55 => ⟨S512x512x512, .i1⟩
  | 56 => ⟨S512x512x512, .i1⟩
  | 57 => ⟨S512x512x512, .i1⟩
  | 58 => ⟨S512x512x512, .f32⟩
  | 59 => ⟨S512x512x512, .f32⟩
  | 60 => ⟨S512x512x512, .i1⟩
  | 61 => ⟨S512x512x512, .i1⟩
  | 62 => ⟨S512x512x512, .i32⟩
  | 63 => ⟨S_, .i32⟩
  | 64 => ⟨S512x512, .i32⟩
  | 65 => ⟨S512x512x512, .f32⟩
  | 66 => ⟨S512x512x512, .f32⟩
  | 67 => ⟨S512x512x512, .f32⟩
  | 68 => ⟨S_, .f32⟩
  | 69 => ⟨S512x512x512, .f32⟩
  | 70 => ⟨S512x512x512, .f32⟩
  | 71 => ⟨S_, .f32⟩
  | 72 => ⟨S512x512x512, .f32⟩
  | 73 => ⟨S512x512x512, .f32⟩
  | 74 => ⟨S_, .f32⟩
  | 75 => ⟨S_, .f32⟩
  | 76 => ⟨S512x512x512, .f32⟩
  | 77 => ⟨S512x512x512, .f32⟩
  | 78 => ⟨S_, .f32⟩
  | 79 => ⟨S512x512, .f32⟩
  | 80 => ⟨S512x1, .f32⟩
  | 81 => ⟨S512x512, .f32⟩
  | 82 => ⟨S512x512, .f32⟩
  | 83 => ⟨S_, .f32⟩
  | 84 => ⟨S512x512, .f32⟩
  | 85 => ⟨S512x512, .f32⟩
  | 86 => ⟨S_, .f32⟩
  | 87 => ⟨S512x512, .f32⟩
  | 88 => ⟨S512x512, .f32⟩
  | 89 => ⟨S_, .i32⟩
  | 90 => ⟨S512x512, .i32⟩
  | 91 => ⟨S512x512, .i1⟩
  | 92 => ⟨S_, .f32⟩
  | 93 => ⟨S512x512, .f32⟩
  | 94 => ⟨S512x512, .i1⟩
  | 95 => ⟨S_, .f32⟩
  | 96 => ⟨S_, .f32⟩
  | 97 => ⟨S512x512, .f32⟩
  | 98 => ⟨S512x512, .f32⟩
  | 99 => ⟨S512x512, .f32⟩
  | 100 => ⟨S_, .i32⟩
  | 101 => ⟨S512x512, .i32⟩
  | 102 => ⟨S512x512, .i1⟩
  | 103 => ⟨S_, .f32⟩
  | 104 => ⟨S512x512, .f32⟩
  | 105 => ⟨S512x512, .i1⟩
  | 106 => ⟨S512x512, .i32⟩
  | 107 => ⟨S512x512, .i32⟩
  | 108 => ⟨S512x1, .i1⟩
  | 109 => ⟨S512x512, .i1⟩
  | 110 => ⟨S512x512, .i1⟩
  | 111 => ⟨S_, .f32⟩
  | 112 => ⟨S_, .f32⟩
  | 113 => ⟨S512x512, .f32⟩
  | 114 => ⟨S512x512, .f32⟩
  | 115 => ⟨S_, .f32⟩
  | 116 => ⟨S_, .f32⟩
  | 117 => ⟨S_, .i32⟩
  | 118 => ⟨S_, .i32⟩
  | 119 => ⟨S512x512, .i32⟩
  | 120 => ⟨S512x512, .i32⟩
  | 121 => ⟨S_, .i32⟩
  | 122 => ⟨S_, .i32⟩
  | 123 => ⟨S_, .i32⟩
  | 124 => ⟨S_, .i1⟩
  | 125 => ⟨S_, .f32⟩
  | 126 => ⟨S_, .f32⟩
  | 127 => ⟨S_, .f32⟩
  | _ => ⟨S512x256, .f32⟩

abbrev hbmTy0_1 (i : Nat) : BufTy := match i % 128 with
  | 0 => ⟨S_, .f32⟩
  | 1 => ⟨S_, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_call3_cst : Ref sig .tc := ⟨.hbm, 71, rfl⟩
abbrev main_call3_v0 : Ref sig .tc := ⟨.hbm, 72, rfl⟩
abbrev main_v51 : Ref sig .tc := ⟨.hbm, 73, rfl⟩
abbrev main_cst_10 : Ref sig .tc := ⟨.hbm, 74, rfl⟩
abbrev main_call4_v0 : Ref sig .tc := ⟨.hbm, 75, rfl⟩
abbrev main_call4_v1 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_call5_cst : Ref sig .tc := ⟨.hbm, 86, rfl⟩
abbrev main_call5_v0 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_call6_v0 : Ref sig .tc := ⟨.hbm, 96, rfl⟩
abbrev main_call6_v1 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_cst_17 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_18 : Ref sig .tc := ⟨.hbm, 111, rfl⟩
abbrev main_call9_v0 : Ref sig .tc := ⟨.hbm, 112, rfl⟩
abbrev main_call9_v1 : Ref sig .tc := ⟨.hbm, 113, rfl⟩
abbrev main_v75 : Ref sig .tc := ⟨.hbm, 114, rfl⟩
abbrev main_cst_19 : Ref sig .tc := ⟨.hbm, 115, rfl⟩
abbrev main_v76 : Ref sig .tc := ⟨.hbm, 116, rfl⟩
abbrev main_c_20 : Ref sig .tc := ⟨.hbm, 117, rfl⟩
abbrev main_call10_v0 : Ref sig .tc := ⟨.hbm, 118, rfl⟩
abbrev main_call10_v1 : Ref sig .tc := ⟨.hbm, 119, rfl⟩
abbrev main_v77 : Ref sig .tc := ⟨.hbm, 120, rfl⟩
abbrev main_c_21 : Ref sig .tc := ⟨.hbm, 121, rfl⟩
abbrev main_v78 : Ref sig .tc := ⟨.hbm, 122, rfl⟩
abbrev main_c_22 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_23 : Ref sig .tc := ⟨.hbm, 127, rfl⟩
abbrev main_call11_v0 : Ref sig .tc := ⟨.hbm, 128, rfl⟩
abbrev main_v82 : Ref sig .tc := ⟨.hbm, 129, rfl⟩

abbrev nD : Nat := 1
abbrev τ : Topo := Topo.v7x

variable {F : FTy → Type} [FloatOps F]

class Facts₀ : Prop where
  bcast_S512x256_S512x1x256_0_2 : S512x256.BroadcastsInDim S512x1x256 (![0, 2] : Fin 2 → Fin S512x1x256.rank)
  bcast_S512x256_S1x512x256_1_2 : S512x256.BroadcastsInDim S1x512x256 (![1, 2] : Fin 2 → Fin S1x512x256.rank)
  bcast_S512x1x256_S512x512x256_0_1_2 : S512x1x256.BroadcastsInDim S512x512x256 (![0, 1, 2] : Fin 3 → Fin S512x512x256.rank)
  bcast_S1x512x256_S512x512x256_0_1_2 : S1x512x256.BroadcastsInDim S512x512x256 (![0, 1, 2] : Fin 3 → Fin S512x512x256.rank)
  reducesTo_S512x512x256_S512x512_d2 : S512x512x256.ReducesTo [2] S512x512
  h_S_ : 0 < S_.numel
  bcast_S_S512x512 : S_.BroadcastsInDim S512x512 (![] : Fin 0 → Fin S512x512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  reducesTo_S512x512_S512_d1 : S512x512.ReducesTo [1] S512
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S_S512x512x1 : S_.BroadcastsInDim S512x512x1 (![] : Fin 0 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  natLt_1_32 : 1 < 32
  reducesTo_S512x512x512_S512x512_d2 : S512x512x512.ReducesTo [2] S512x512
  bcast_S_S512x512x512 : S_.BroadcastsInDim S512x512x512 (![] : Fin 0 → Fin S512x512x512.rank)
  reducesTo_S512x512_S_d0_1 : S512x512.ReducesTo [0, 1] S_

variable [Facts₀]

class Facts : Prop extends Facts₀ where

variable [Facts]
-- ==== Proof.K.Region0.lean ====
import proofs.«108628_j44933947851025_1_alg».proof.Proof.Gen.Kernel.Launch
import proofs.«108628_j44933947851025_1_alg».proof.Proof.Gen.Kernel.Skeleton
import proofs.«108628_j44933947851025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pairwise-distance call, on its one-point grid

The call has two windows, both whole arrays: window 0 is the 512x256 embedding matrix (read), window 1 the
512x512 distance matrix (written). Its body reads the embedding block once, computes the distance matrix from it
(the payload `k0_pay1`: row norms, the Gram matrix, the clamped square root), and overwrites the whole output
block with it. For the frame nothing about the payload matters beyond its being a function of the block read, so
it is kept folded throughout; what matters is that the read rectangle is the whole input block and the written
rectangle the whole output block.

Everything is stated at a parameter `V`, the contents of the TensorCore's buffers when the region is entered. -/

-- deciding that one 512x512 rectangle tiles a 512x512 buffer walks both long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-! ## Blocks and rectangles -/

/-- The block of window `w` at grid point `t`, cut out of the window's array at its entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body reads: all of the 512x256 input block. -/
abbrev r0_0 : Rect S512x256 := Rect.unit (s := S512x256) ![0, 0] S512x256.size inb_S512x256_S512x256_0_0

/-- What the body writes: all of the 512x512 output block. -/
abbrev r0_1 : Rect S512x512 := Rect.unit (s := S512x512) ![0, 0] S512x512.size inb_S512x512_S512x512_0_0

/-- The output block once the body has run on input block `x0`: a single piece, the distance payload of `x0`
    laid over the full rectangle. -/
def out0_1 (x0 : Vec F S512x256 .f32) : Vec F S512x512 .f32 :=
  View.canon [⟨r0_1, k0_pay1 (View.ld x0 r0_0)⟩]

/-- The one written rectangle has the extents of the buffer, so every index of the buffer lies in it. -/
theorem cover0_1 (p : Vec F S512x512 .f32) (y : S512x512.Idx) :
    ∃ pc ∈ ([⟨r0_1, p⟩] : List (View.Piece (Elt F) S512x512 .f32)), y ∈ pc.1.set :=
  View.cover_of_tiled [⟨r0_1, p⟩] S512x512.size (by rfl) y

/-! ## The body on arbitrary whole buffers -/

set_option maxHeartbeats 1000000 in
/-- Run on a whole 512x256 buffer holding `x0` and a whole 512x512 buffer holding anything, the body ends with the
    first buffer unchanged and the second at `out0_1 x0`. (Before storing, the body also loads the second buffer;
    the loaded value is dead, so whatever the buffer held is irrelevant.) Stated in continuation form. -/
theorem sound_kernel0 (c : Dev nD) (E : Set ℕ) (i : grid0.Coords)
    (a : Memref sig .tc .vmem S512x256 .f32) (ha : a.IsWhole) (b : Memref sig .tc .vmem S512x512 .f32) (hb : b.IsWhole)
    (x0 : Vec F S512x256 .f32) (K : PUnit → sProp 𝕄) :
    iprop(owns (c : Thread nD τ) a fullShare x0 ∗ (∃ d, owns (c : Thread nD τ) b fullShare d)
        ∗ (iprop(owns (c : Thread nD τ) a fullShare x0 ∗ owns (c : Thread nD τ) b fullShare (out0_1 x0)) -∗ K ⟨⟩))
      ⊢ wp frame (wpE (defs₀ (F := F)) Variants.none c none) E (cc0__dist_kernel i a ha b hb) K := by
  simp only [cc0__dist_kernel_eq_skeleton]; unfold cc0__dist_kernel_skel
  unfold owns
  iintro ⟨⟨%fa, %hfa, Ha⟩, ⟨%d, %fb, -, Hb⟩, Hk⟩
  subst hfa
  -- the two loads, then the store
  sl_exec
  sl_step
  iapply Hk
  isplitl [Ha]
  · iexists fa; isplitr; · ipureintro; rfl
    iexact Ha
  iexists _; isplitr
  swap; · iexact Hb
  ipureintro
  -- one store over a rectangle covering the buffer: reading back gives the piece list's canonical form
  exact View.read_writes_eq_canon _ _ _ (cover0_1 _)

/-! ## The proof data of the pipeline -/

/-- On core `c`: both arrays at their entry contents; after the body the input buffer still holds its block and the
    output buffer holds `out0_1` of that block; the invariant is the rest of the scoped memory and the generator
    register, which the body never touches; every share is full and nothing is owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = out0_1 (iblk0 V c 0 t) := by dsimp only [dat0]

/-- The input window is fetched at every point of the grid (there is only one), and its block is not cut, so when
    the body is called the input buffer holds exactly the block, whatever it held before the fetch. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-! ## The body obligation -/

/-- The body as the pipeline calls it at point `t`: from the invariant, the core's debt, the input buffer at its
    block and the output buffer at anything, to the same invariant and debt, the input buffer at its block and the
    output buffer at `out0_1` of it. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t))) := by
  unfold bodyAt0
  simp only [before0_0]
  -- neither the invariant nor the debt depends on the point
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (sound_kernel0 c Set.univ (grid0.coords t) _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The obligation in the library's form: its two big separating conjunctions over the windows are the two-window
    products above. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Defs.lean ====
import proofs.«108628_j44933947851025_1_alg».proof.Proof.Gen.Kernel.Launch
import proofs.«108628_j44933947851025_1_alg».proof.Proof.Gen.Kernel.Skeleton
import proofs.«108628_j44933947851025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the accumulating kernel): what its windows hold, point by point

The grid is 64 × 4; point `t` is `(t / 4, t % 4)`. Along the inner axis the two output blocks are
accumulators: at `t % 4 = 0` the body overwrites them with the partial sums of the point, at every other
point it adds the point's partial sums to what the blocks held. Everything is stated at a parameter `V`,
the contents of the core's buffers when the region is entered. -/

section Region1

variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body accesses: each the whole of its buffer -/

abbrev r1_0 : Rect S8x512x1 := Rect.unit (s := S8x512x1) ![0, 0, 0] S8x512x1.size inb_S8x512x1_S8x512x1_0_0_0
abbrev r1_1 : Rect S8x1x128 := Rect.unit (s := S8x1x128) ![0, 0, 0] S8x1x128.size inb_S8x1x128_S8x1x128_0_0_0
abbrev r1_o : Rect S8x512 := Rect.unit (s := S8x512) ![0, 0] S8x512.size inb_S8x512_S8x512_0_0

/-! ## What the body leaves in the two output blocks -/

/-- At a point with `k = 0`: the first output block is the point's partial count, -/
def out1_A_3 (x0 : Vec F S8x512x1 .f32) (x1 x2 : Vec F S8x1x128 .f32) : Vec F S8x512 .f32 :=
  View.canon [⟨r1_o, k1_pay4 (View.ld x0 r1_0) (View.ld x1 r1_1) (View.ld x2 r1_1)⟩]

/-- and the second the point's partial hinge sum. -/
def out1_A_4 (x0 : Vec F S8x512x1 .f32) (x1 x2 : Vec F S8x1x128 .f32) : Vec F S8x512 .f32 :=
  View.canon [⟨r1_o, k1_pay5 (View.ld x0 r1_0) (View.ld x1 r1_1) (View.ld x2 r1_1)⟩]

/-- At a point with `k ≠ 0`: what the first block held, `xo`, plus the point's partial count, -/
def out1_B_3 (x0 : Vec F S8x512x1 .f32) (x1 x2 : Vec F S8x1x128 .f32) (xo : Vec F S8x512 .f32) : Vec F S8x512 .f32 :=
  View.canon [⟨r1_o, k1_pay6 (View.ld x0 r1_0) (View.ld x1 r1_1) (View.ld x2 r1_1) (View.ld xo r1_o)⟩]

/-- and what the second held plus the point's partial hinge sum. -/
def out1_B_4 (x0 : Vec F S8x512x1 .f32) (x1 x2 : Vec F S8x1x128 .f32) (xo : Vec F S8x512 .f32) : Vec F S8x512 .f32 :=
  View.canon [⟨r1_o, k1_pay7 (View.ld x0 r1_0) (View.ld x1 r1_1) (View.ld x2 r1_1) (View.ld xo r1_o)⟩]

/-- One store through the whole-buffer rectangle covers the buffer. -/
theorem cover1_o (p : Vec F S8x512 .f32) (y : S8x512.Idx) :
    ∃ pc ∈ ([⟨r1_o, p⟩] : List (View.Piece (Elt F) S8x512 .f32)), y ∈ pc.1.set :=
  View.cover_of_tiled [⟨r1_o, p⟩] S8x512.size (by rfl) y

/-! ## The accumulation -/

/-- The two output blocks after the body at position `n` of the grid: restarted from the point's partial
    sums where `n % 4 = 0`, otherwise the partial sums added to what position `n - 1` left (the blocks are
    not written back in between). -/
def outsAt1 (c : Dev nD) : (n : ℕ) → n < cfg1.N → Vec F S8x512 .f32 × Vec F S8x512 .f32
  | 0, hn =>
    (out1_A_3 (iblk1 V c 0 ⟨0, hn⟩) (iblk1 V c 1 ⟨0, hn⟩) (iblk1 V c 2 ⟨0, hn⟩),
     out1_A_4 (iblk1 V c 0 ⟨0, hn⟩) (iblk1 V c 1 ⟨0, hn⟩) (iblk1 V c 2 ⟨0, hn⟩))
  | n + 1, hn =>
    if (n + 1) % 4 = 0 then
      (out1_A_3 (iblk1 V c 0 ⟨n + 1, hn⟩) (iblk1 V c 1 ⟨n + 1, hn⟩) (iblk1 V c 2 ⟨n + 1, hn⟩),
       out1_A_4 (iblk1 V c 0 ⟨n + 1, hn⟩) (iblk1 V c 1 ⟨n + 1, hn⟩) (iblk1 V c 2 ⟨n + 1, hn⟩))
    else
      (out1_B_3 (iblk1 V c 0 ⟨n + 1, hn⟩) (iblk1 V c 1 ⟨n + 1, hn⟩) (iblk1 V c 2 ⟨n + 1, hn⟩) (outsAt1 c n (Nat.lt_of_succ_lt hn)).1,
       out1_B_4 (iblk1 V c 0 ⟨n + 1, hn⟩) (iblk1 V c 1 ⟨n + 1, hn⟩) (iblk1 V c 2 ⟨n + 1, hn⟩) (outsAt1 c n (Nat.lt_of_succ_lt hn)).2)

/-- At a point with `t % 4 = 0` the blocks hold the point's partial sums. -/
theorem outsAt1_A (c : Dev nD) (t : Fin cfg1.N) (h : t.val % 4 = 0) :
    outsAt1 V c t.val t.isLt =
      (out1_A_3 (iblk1 V c 0 t) (iblk1 V c 1 t) (iblk1 V c 2 t), out1_A_4 (iblk1 V c 0 t) (iblk1 V c 1 t) (iblk1 V c 2 t)) := by
  obtain ⟨n, hn⟩ := t
  cases n with
  | zero => rfl
  | succ n => exact (if_pos h).trans rfl

/-- At any other point, the partial sums added to what the point before left. -/
theorem outsAt1_B (c : Dev nD) (t : Fin cfg1.N) (h : ¬ t.val % 4 = 0) :
    outsAt1 V c t.val t.isLt =
      (out1_B_3 (iblk1 V c 0 t) (iblk1 V c 1 t) (iblk1 V c 2 t) (outsAt1 V c (t.val - 1) (Nat.lt_of_le_of_lt (Nat.sub_le _ _) t.isLt)).1,
       out1_B_4 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The pipeline's proof data -/

/-- Region 1's proof data on core `c`: the arrays as the region finds them; after the body at point `t` each
    input's buffer still at its block, the two outputs' at `outsAt1`; full shares, nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

end Region1

end Cert.Kernel.Hand

end
-- ==== Proof.K.Region1Runs.lean ====
import proofs.«108628_j44933947851025_1_alg».proof.Proof.K.Region1Defs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: the body's triple in its two control cases

The body reads its three input blocks, forms the point's two partial sums, and then either overwrites the
two output blocks with them (first guard, `k = 0`) or adds them to what the blocks hold (second guard,
`k ≠ 0`). Exactly one guard holds at a point. Each case is a triple over whole staging memrefs: the inputs
come back as they were, the outputs at the closed forms `out1_A_·` / `out1_B_·`. -/

set_option maxHeartbeats 1000000 in
/-- First guard taken, second not: the output blocks, whatever they held, end at the point's partial sums. -/
theorem sound_kernel1_A (c : Dev nD) (E : Set ℕ) (i : grid1.Coords)
    (arg2 : Memref sig .tc .vmem S8x512x1 .f32) (harg2 : arg2.IsWhole)
    (arg3 : Memref sig .tc .vmem S8x1x128 .f32) (harg3 : arg3.IsWhole)
    (arg4 : Memref sig .tc .vmem S8x1x128 .f32) (harg4 : arg4.IsWhole)
    (arg5 : Memref sig .tc .vmem S8x512 .f32) (harg5 : arg5.IsWhole)
    (arg6 : Memref sig .tc .vmem S8x512 .f32) (harg6 : arg6.IsWhole)
    (hc1 : k1_cond1 i = 1#1) (hc2 : ¬ k1_cond2 i = 1#1)
    (x0 : Vec F S8x512x1 .f32) (x1 x2 : Vec F S8x1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_A_3 x0 x1 x2) ∗ owns (c : Thread nD τ) arg6 fullShare (out1_A_4 x0 x1 x2)) -∗ K ⟨⟩))
      ⊢ wp frame (wpE (defs₀ (F := F)) Variants.none c none) E (cc1__mine_kernel i arg2 harg2 arg3 harg3 arg4 harg4 arg5 harg5 arg6 harg6) K := by
  simp only [cc1__mine_kernel_eq_skeleton]; unfold cc1__mine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_o _)
  iexists _; isplitr
  swap; · iexact H4
  ipureintro
  exact View.read_writes_eq_canon _ _ _ (cover1_o _)

set_option maxHeartbeats 1000000 in
/-- Second guard taken, first not: the output blocks, held at `xo3`, `xo4`, end at those plus the point's
    partial sums. -/
theorem sound_kernel1_B (c : Dev nD) (E : Set ℕ) (i : grid1.Coords)
    (arg2 : Memref sig .tc .vmem S8x512x1 .f32) (harg2 : arg2.IsWhole)
    (arg3 : Memref sig .tc .vmem S8x1x128 .f32) (harg3 : arg3.IsWhole)
    (arg4 : Memref sig .tc .vmem S8x1x128 .f32) (harg4 : arg4.IsWhole)
    (arg5 : Memref sig .tc .vmem S8x512 .f32) (harg5 : arg5.IsWhole)
    (arg6 : Memref sig .tc .vmem S8x512 .f32) (harg6 : arg6.IsWhole)
    (hc1 : ¬ k1_cond1 i = 1#1) (hc2 : k1_cond2 i = 1#1)
    (x0 : Vec F S8x512x1 .f32) (x1 x2 : Vec F S8x1x128 .f32) (xo3 xo4 : Vec F S8x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo3 ∗ owns (c : Thread nD τ) arg6 fullShare xo4
        ∗ (iprop(owns (c : Thread nD τ) arg2 fullShare x0 ∗ owns (c : Thread nD τ) arg3 fullShare x1 ∗ owns (c : Thread nD τ) arg4 fullShare x2
            ∗ owns (c : Thread nD τ) arg5 fullShare (out1_B_3 x0 x1 x2 xo3) ∗ owns (c : Thread nD τ) arg6 fullShare (out1_B_4 x0 x1 x2 xo4)) -∗ K ⟨⟩))
      ⊢ wp frame (wpE (defs₀ (F := F)) Variants.none c none) E (cc1__mine_kernel i arg2 harg2 arg3 harg3 arg4 harg4 arg5 harg5 arg6 harg6) K := by
  simp only [cc1__mine_kernel_eq_skeleton]; unfold cc1__mine_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_o _)
  iexists _; isplitr
  swap; · iexact H4
  ipureintro
  exact View.read_writes_eq_canon _ _ _ (cover1_o _)

end Cert.Kernel.Hand

end
-- ==== Proof.K.Region1.lean ====
import proofs.«108628_j44933947851025_1_alg».proof.Proof.K.Region1Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: what the body finds in each window's buffer, and the body obligation -/

/-! ## The guards in closed form -/

/-- The first guard (`k = 0`) holds exactly at the points `t % 4 = 0`, -/
theorem hcond1_1 : ∀ t : Fin cfg1.N, k1_cond1 (grid1.coords t) = 1#1 ↔ t.val % 4 = 0 :=
  (by decide +kernel : ∀ t : Fin grid1.N, k1_cond1 (grid1.coords t) = 1#1 ↔ t.val % 4 = 0)

/-- the second (`k ≠ 0`) exactly at the others. -/
theorem hcond1_2 : ∀ t : Fin cfg1.N, k1_cond2 (grid1.coords t) = 1#1 ↔ ¬ t.val % 4 = 0 :=
  (by decide +kernel : ∀ t : Fin grid1.N, k1_cond2 (grid1.coords t) = 1#1 ↔ ¬ t.val % 4 = 0)

/-- One of the two guards holds at any coordinates (they test `k = 0` and `k ≠ 0`), so the body stores into
    both output blocks everywhere: no coordinates are idle for window 3, -/
theorem live1_3 : ∀ i : grid1.Coords, cfg1.idle 3 i = false := by
  intro i
  show (!(k1_cond1 i == 1#1) && !(k1_cond2 i == 1#1)) = false
  unfold k1_cond1 k1_cond2
  generalize i 1 = j
  revert j
  decide

/-- nor for window 4. -/
theorem live1_4 : ∀ i : grid1.Coords, cfg1.idle 4 i = false := live1_3

section Region1

variable (V : (c : Dev nD) → (b : Ref sig .tc) → Buf (Elt F) ((c : Thread nD τ).loc b))

/-! ## What the body finds -/

/-- Input window 0's current staging buffer holds the window's block at every point, fetched there or not
    (where it is not fetched the block index has not moved, and the body left the block in place). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds the window's block at every point, fetched there or not
    (where it is not fetched the block index has not moved, and the body left the block in place). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds the window's block at every point, fetched there or not
    (where it is not fetched the block index has not moved, and the body left the block in place). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Away from `t % 4 = 0` output window 3's current staging buffer holds what the body left at the point
    before: the point is not the first, the block was not written back in between (that happens only after
    `t % 4 = 3`), the window is live everywhere and uncut. -/
theorem before1_3_B (c : Dev nD) (t : Fin cfg1.N) (h0 : ¬ t.val % 4 = 0) (d) :
    (dat1 V c).before 3 t d = (outsAt1 V c (t.val - 1) (Nat.lt_of_le_of_lt (Nat.sub_le _ _) t.isLt)).1 := by
  rw [Dat.before_out_kept _ 3 rfl t (by omega)
    (Bool.eq_false_iff.mpr fun hf => by have := (flush1_3 _).mp hf; dsimp only at this; omega)
    live1_3 (fun _ _ => rfl)]
  exact after1_3 V c _

/-- Away from `t % 4 = 0` output window 4's current staging buffer holds what the body left at the point
    before: the point is not the first, the block was not written back in between (that happens only after
    `t % 4 = 3`), the window is live everywhere and uncut. -/
theorem before1_4_B (c : Dev nD) (t : Fin cfg1.N) (h0 : ¬ t.val % 4 = 0) (d) :
    (dat1 V c).before 4 t d = (outsAt1 V c (t.val - 1) (Nat.lt_of_le_of_lt (Nat.sub_le _ _) t.isLt)).2 := by
  rw [Dat.before_out_kept _ 4 rfl t (by omega)
    (Bool.eq_false_iff.mpr fun hf => by have := (flush1_4 _).mp hf; dsimp only at this; omega)
    live1_4 (fun _ _ => rfl)]
  exact after1_4 V c _

/-! ## The body obligation, at a generic point -/

/-- What the body is called with at point `t`: the invariant, what the core owes, each window's current
    staging buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point. The inputs' buffers hold their blocks. At `t % 4 = 0` the first guard holds and the
    second fails: the outputs, whatever they hold, are overwritten. Elsewhere the second holds and the first
    fails, and the outputs hold what the point before left: the body adds to it. The invariant and what the core
    owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 4 = 0
  · rw [outsAt1_A V c t h0]
    iintro ⟨HΦ, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ ((hcond1_1 t).mpr h0) (fun h => (hcond1_2 t).mp h h0)
      (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt1_B V c t h0]
    simp only [before1_3_B V c t h0, before1_4_B V c t h0]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ (fun h => h0 ((hcond1_1 t).mp h)) ((hcond1_2 t).mpr h0)
      (iblk1 V c 0 t) (iblk1 V c 1 t) (iblk1 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point: its big products over the five windows written
    out, the outputs' idleness tests decided (`live1_3`, `live1_4`). -/
theorem body_obligation1 (c : Dev nD) : BodyObligation (dat1 (F := F) V c) (defs₀ (F := F)) Variants.none () Set.univ := fun t => by
  rw [bigSep_W1, bigSep_W1]
  -- windows 3 and 4 state one and the same idleness test: the rewrite decides both
  rw [show cfg1.idle 3 (cfg1.grid.coords t) = false from live1_3 _]
  exact sound_body1 V c t

end Region1

end Cert.Kernel.Hand

end
-- ==== Proof.K.Run.lean ====
import proofs.«108628_j44933947851025_1_alg».proof.Proof.Gen.Kernel.Regions
import proofs.«108628_j44933947851025_1_alg».proof.Proof.K.Region0
import proofs.«108628_j44933947851025_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main over its two kernel regions and eleven host stretches

Between two items of @main every core holds each unscoped buffer whole at a known valuation. The valuations are the
generated ones (`Gen.V0` … `Gen.V13`), read at CONCRETE region outputs `outsK`: region 0 leaves in `main_v0` the
write-backs of its one output window folded over the launch contents, region 1 leaves in `main_v19_0` / `main_v19_1`
the write-backs of its two output windows folded over the contents the first host stretch leaves. With the outputs
closed terms of the launch memory, the last valuation names the result buffer `main_v37` as a function of the launch
memory alone, which is what the value proof reads. -/

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

/-! ## The run, given the regions' records, with the result buffer named -/

set_option backward.isDefEq.respectTransparency.types false in
/-- The conditional run. Given, per region, a segment record entered from the valuation before it and left at the one
    after it, beside rest states the launch makes on every core and that end owing nothing: every weakly fair execution
    of @main from memory `m` with zero counters terminates, and every final memory holds in `main_v37` what the last
    valuation names there and each argument as launched. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (Gen.V2 m outs c) ∗ E 1 c) ⊢ R1.pre c)
    (hpost1 : ∀ c : Dev nD, R1.post c ⊢ iprop(StableHlo.held (c : Thread nD τ) (Pipeline.ucRefs τ sig) (Gen.V3 m outs c) ∗ E 2 c)) :
    θ_run defs (onTc (τ := τ) (main (F := F))) ⟨m, fun _ => 0, ρ⟩ (fun r => ∀ c : Dev nD,
      r.2.mem ((c.tc : Thread nD τ).loc main_v37) = Gen.V13 m outs c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V13 m outs c))
    (hch := fun c => ⟨hpre0 c, hpost0 c, hpre1 c, hpost1 c, .rfl, .rfl, .rfl, .rfl, .rfl, .rfl, .rfl, .rfl, .rfl, sep_mono .rfl (hE2 c)⟩)
    (hinit := ?_) (QY := fun c s => s.mem ((c.tc : Thread nD τ).loc main_v37) = Gen.V13 m outs c main_v37
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (Gen.V13 m outs c) s') $$ [Hh HSI]
    · isplitl [Hh] <;> iassumption
    icases Hr with ⟨%h, HSI⟩
    imodintro
    isplitr
    · ipureintro
      exact ⟨h (Proc.devRef .tc main_v37) (Finset.mem_filter.mpr ⟨StableHlo.devRef_mem_tcRefs main_v37, by decide⟩),
        (h (Proc.devRef .tc main_arg0) (Finset.mem_filter.mpr ⟨StableHlo.devRef_mem_tcRefs main_arg0, by decide⟩)).trans (Gen.V13_main_arg0 m outs c),
        (h (Proc.devRef .tc main_arg1) (Finset.mem_filter.mpr ⟨StableHlo.devRef_mem_tcRefs main_arg1, by decide⟩)).trans (Gen.V13_main_arg1 m outs c)⟩
    · iexact HSI

/-! ## The contents the regions leave, as closed terms of the launch memory -/

/-- Two updates of a valuation at distinct points, read at the first. -/
theorem upd_upd_left {α : Type} [DecidableEq α] {β : α → Type} (f : (a : α) → β a) (a b : α) (h : a ≠ b) (x : β a) (y : β b) :
    Function.update (Function.update f a x) b y a = x := by
  rw [Function.update_of_ne h, Function.update_self]

variable (m : (ℓ : Loc nD τ sig) → Buf (Elt F) ℓ)

/-- The launch contents read at the TensorCore's references: what region 0 is entered from. -/
abbrev E0 : (c : Dev nD) → (b : Ref sig .tc) → Buf (Elt F) ((c : Thread nD τ).loc b) := fun c b => Gen.V0 m c b

/-- After region 0: the launch contents with `main_v0` at the output window's write-backs folded over them. -/
def out1 (c : Dev nD) : Valuation τ sig (Elt F) :=
  Function.update (Gen.V0 m c) main_v0 ((dat0 (E0 m) c).arrAt 1 cfg0.N)

/-- Region outputs that are right after region 0 only: enough to name the contents region 1 is entered from. -/
def outs1 : Gen.Outs (F := F) := fun _ r c => out1 m c r

/-- The contents region 1 is entered from, over `outs1`. -/
abbrev E2' : (c : Dev nD) → (b : Ref sig .tc) → Buf (Elt F) ((c : Thread nD τ).loc b) := fun c b => Gen.V2 m (outs1 m) c b

/-- After region 1: those contents with `main_v19_0`, `main_v19_1` at the two output windows' write-backs. -/
def out3 (c : Dev nD) : Valuation τ sig (Elt F) :=
  Function.update (Function.update (Gen.V2 m (outs1 m) c) main_v19_0 ((dat1 (E2' m) c).arrAt 3 cfg1.N))
    main_v19_1 ((dat1 (E2' m) c).arrAt 4 cfg1.N)

/-- THE REGION OUTPUTS: after region 0 the valuation `out1`, after region 1 the valuation `out3`. -/
def outsK : Gen.Outs (F := F)
  | 1 => fun r c => out1 m c r
  | _ => fun r c => out3 m c r

theorem outsK_one (r : Ref sig .tc) (c : Dev nD) : outsK m 1 r c = out1 m c r := rfl
theorem outsK_three (r : Ref sig .tc) (c : Dev nD) : outsK m 3 r c = out3 m c r := rfl

/-- The contents between the items, read at the TensorCore's references. -/
abbrev E1 : (c : Dev nD) → (b : Ref sig .tc) → Buf (Elt F) ((c : Thread nD τ).loc b) := fun c b => Gen.V1 m (outsK m) c b
abbrev E2 : (c : Dev nD) → (b : Ref sig .tc) → Buf (Elt F) ((c : Thread nD τ).loc b) := fun c b => Gen.V2 m (outsK m) c b
abbrev E3 : (c : Dev nD) → (b : Ref sig .tc) → Buf (Elt F) ((c : Thread nD τ).loc b) := fun c b => Gen.V3 m (outsK m) c b

theorem ne_v19 : (Proc.devRef .tc main_v19_0 : DevRef τ sig) ≠ Proc.devRef .tc main_v19_1 := StableHlo.devRef_ne_of_ne (by decide)

theorem out1_v0 (c : Dev nD) : out1 m c main_v0 = (dat0 (E0 m) c).arrAt 1 cfg0.N := Function.update_self ..
theorem out3_0 (c : Dev nD) : out3 m c main_v19_0 = (dat1 (E2' m) c).arrAt 3 cfg1.N := upd_upd_left _ _ _ ne_v19 _ _
theorem out3_1 (c : Dev nD) : out3 m c main_v19_1 = (dat1 (E2' m) c).arrAt 4 cfg1.N := Function.update_self ..

/-- Region 0's output: the one output window's write-backs folded over the launch contents. -/
theorem V1_main_v0 (c : Dev nD) : Gen.V1 m (outsK m) c main_v0 = (dat0 (E0 m) c).arrAt 1 cfg0.N :=
  (Function.update_self ..).trans ((outsK_one m main_v0 c).trans (out1_v0 m c))

theorem V1_eq (c : Dev nD) : Gen.V1 m (outsK m) c = Gen.V1 m (outs1 m) c :=
  congrArg (Function.update (Gen.V0 m c) (Proc.devRef .tc main_v0)) (outsK_one m main_v0 c)

theorem V2_eq (c : Dev nD) : Gen.V2 m (outsK m) c = Gen.V2 m (outs1 m) c :=
  congrArg (StableHlo.after hostOps1) (V1_eq m c)

theorem E2_eq : E2 m = E2' m := by
  funext c b; exact congrFun (V2_eq m c) _

/-- Region 1's outputs: each output window's write-backs folded over the contents the first host stretch leaves. -/
theorem V3_main_v19_0 (c : Dev nD) : Gen.V3 m (outsK m) c main_v19_0 = (dat1 (E2 m) c).arrAt 3 cfg1.N :=
  (upd_upd_left _ _ _ ne_v19 _ _).trans ((outsK_three m main_v19_0 c).trans ((out3_0 m c).trans (by rw [E2_eq])))
theorem V3_main_v19_1 (c : Dev nD) : Gen.V3 m (outsK m) c main_v19_1 = (dat1 (E2 m) c).arrAt 4 cfg1.N :=
  (Function.update_self ..).trans ((outsK_three m main_v19_1 c).trans ((out3_1 m c).trans (by rw [E2_eq])))

/-! ## Each region's arrays at its exit, and every other buffer as entered -/

theorem hF0 (c : Dev nD) : ∀ w : Fin 2, (dat0 (E0 m) c).arrAt w cfg0.N = E1 m c (Pipeline.arrRef spec0 w)
  | ⟨0, _⟩ => ((dat0 (E0 m) c).arrAt_in 0 rfl _).trans ((A_eq0 (E0 m) c 0).trans (Gen.V1_of m (outsK m) c main_arg0 (by decide)).symm)
  | ⟨1, _⟩ => (V1_main_v0 m c).symm

theorem hrest0 (c : Dev nD) : ∀ b, b ∉ Finset.univ.image (Pipeline.arrRef spec0) → E1 m c b = E0 m c b :=
  fun b hb => Gen.V1_of m (outsK m) c b fun hm =>
    hb (Finset.mem_image.mpr ⟨1, Finset.mem_univ _, (List.mem_singleton.mp hm).symm⟩)

theorem hF1 (c : Dev nD) : ∀ w : Fin 5, (dat1 (E2 m) c).arrAt w cfg1.N = E3 m c (Pipeline.arrRef spec1 w)
  | ⟨0, _⟩ => ((dat1 (E2 m) c).arrAt_in 0 rfl _).trans ((A_eq1 (E2 m) c 0).trans (Gen.V3_of m (outsK m) c main_v16 (by decide)).symm)
  | ⟨1, _⟩ => ((dat1 (E2 m) c).arrAt_in 1 rfl _).trans ((A_eq1 (E2 m) c 1).trans (Gen.V3_of m (outsK m) c main_v17 (by decide)).symm)
  | ⟨2, _⟩ => ((dat1 (E2 m) c).arrAt_in 2 rfl _).trans ((A_eq1 (E2 m) c 2).trans (Gen.V3_of m (outsK m) c main_v18 (by decide)).symm)
  | ⟨3, _⟩ => (V3_main_v19_0 m c).symm
  | ⟨4, _⟩ => (V3_main_v19_1 m c).symm

theorem hrest1 (c : Dev nD) : ∀ b, b ∉ Finset.univ.image (Pipeline.arrRef spec1) → E3 m c b = E2 m c b :=
  fun b hb => Gen.V3_of m (outsK m) c b fun hm => by
    rcases List.mem_cons.mp hm with h | h
    · exact hb (Finset.mem_image.mpr ⟨3, Finset.mem_univ _, h.symm⟩)
    · exact hb (Finset.mem_image.mpr ⟨4, Finset.mem_univ _, (List.mem_singleton.mp h).symm⟩)

/-! ## The proof data family and what rides beside the buffers -/

/-- Both pipelines' proof data, each at the contents its region is entered from. -/
def pdats : (p : Fin 2) → (c : Dev nD) → Dat τ (Elt F) Unit ℕ (Pipeline.UD sig nD τ) ℕ (cfgs p) c
  | ⟨0, _⟩ => fun c => dat0 (E0 m) c
  | ⟨1, _⟩ => fun c => dat1 (E2 m) c

/-- No core owes another anything: no level is assigned. -/
abbrev L : GSem nD τ sig → Finset Unit := fun _ => ∅
abbrev lv : GSem nD τ sig → Unit → ℕ := fun _ _ => 0

/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the launch contents, left at those with
    `main_v0` at the output window's write-backs. Its two arrays split out of the unscoped buffers and put back at
    the exit contents; the generator register into the region invariant and out; nothing owed; no semaphore of the
    kernel's own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outsK m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents the first host stretch leaves,
    left at those with `main_v19_0`, `main_v19_1` at the two output windows' write-backs. Its five arrays split out
    of the unscoped buffers and put back at the exit contents; the generator register into the region invariant and
    out; nothing owed; no semaphore of the kernel's own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Gen.V2 m (outsK m) c) ∗ R c)
  post c := iprop(StableHlo.held (c : Thread nD τ) (Pipeline.ucRefs τ sig) (Gen.V3 m (outsK m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates, nothing faulting,
    and every final memory holds in `main_v37` what the last valuation names there at the concrete region outputs,
    and each argument as launched. -/
theorem run (ρ : Dev nD → PrngReg) : θ_run defs (onTc (τ := τ) (main (F := F))) ⟨m, fun _ => 0, ρ⟩ (fun r => ∀ c : Dev nD,
      r.2.mem ((c.tc : Thread nD τ).loc main_v37) = Gen.V13 m (outsK m) c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m embL () Variants.none L lv (fun _ _ => rfl) ρ (outsK m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

/-- THE FRAME: every weakly fair execution of @main terminates, nothing faulting, and every final memory holds each
    argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Hand

end
-- ==== Proof.KI.Region0.lean ====
import proofs.«108628_j44933947851025_1_alg».proof.Proof.Gen.KernelIdeal.Launch
import proofs.«108628_j44933947851025_1_alg».proof.Proof.Gen.KernelIdeal.Skeleton
import proofs.«108628_j44933947851025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pairwise-distance call, on its one-point grid

The call has two windows, both whole arrays: window 0 is the 512x256 embedding matrix (read), window 1 the
512x512 distance matrix (written). Its body reads the embedding block once, computes the distance matrix from it
(the payload `k0_pay1`: row norms, the Gram matrix, the clamped square root), and overwrites the whole output
block with it. For the frame nothing about the payload matters beyond its being a function of the block read, so
it is kept folded throughout; what matters is that the read rectangle is the whole input block and the written
rectangle the whole output block.

Everything is stated at a parameter `V`, the contents of the TensorCore's buffers when the region is entered. -/

-- deciding that one 512x512 rectangle tiles a 512x512 buffer walks both long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-! ## Blocks and rectangles -/

/-- The block of window `w` at grid point `t`, cut out of the window's array at its entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body reads: all of the 512x256 input block. -/
abbrev r0_0 : Rect S512x256 := Rect.unit (s := S512x256) ![0, 0] S512x256.size inb_S512x256_S512x256_0_0

/-- What the body writes: all of the 512x512 output block. -/
abbrev r0_1 : Rect S512x512 := Rect.unit (s := S512x512) ![0, 0] S512x512.size inb_S512x512_S512x512_0_0

/-- The output block once the body has run on input block `x0`: a single piece, the distance payload of `x0`
    laid over the full rectangle. -/
def out0_1 (x0 : Vec F S512x256 .f32) : Vec F S512x512 .f32 :=
  View.canon [⟨r0_1, k0_pay1 (View.ld x0 r0_0)⟩]

/-- The one written rectangle has the extents of the buffer, so every index of the buffer lies in it. -/
theorem cover0_1 (p : Vec F S512x512 .f32) (y : S512x512.Idx) :
    ∃ pc ∈ ([⟨r0_1, p⟩] : List (View.Piece (Elt F) S512x512 .f32)), y ∈ pc.1.set :=
  View.cover_of_tiled [⟨r0_1, p⟩] S512x512.size (by rfl) y

/-! ## The body on arbitrary whole buffers -/

set_option maxHeartbeats 1000000 in
/-- Run on a whole 512x256 buffer holding `x0` and a whole 512x512 buffer holding anything, the body ends with the
    first buffer unchanged and the second at `out0_1 x0`. (Before storing, the body also loads the second buffer;
    the loaded value is dead, so whatever the buffer held is irrelevant.) Stated in continuation form. -/
theorem sound_kernel0 (c : Dev nD) (E : Set ℕ) (i : grid0.Coords)
    (a : Memref sig .tc .vmem S512x256 .f32) (ha : a.IsWhole) (b : Memref sig .tc .vmem S512x512 .f32) (hb : b.IsWhole)
    (x0 : Vec F S512x256 .f32) (K : PUnit → sProp 𝕄) :
    iprop(owns (c : Thread nD τ) a fullShare x0 ∗ (∃ d, owns (c : Thread nD τ) b fullShare d)
        ∗ (iprop(owns (c : Thread nD τ) a fullShare x0 ∗ owns (c : Thread nD τ) b fullShare (out0_1 x0)) -∗ K ⟨⟩))
      ⊢ wp frame (wpE (defs₀ (F := F)) Variants.none c none) E (cc0__dist_kernel i a ha b hb) K := by
  simp only [cc0__dist_kernel_eq_skeleton]; unfold cc0__dist_kernel_skel
  unfold owns
  iintro ⟨⟨%fa, %hfa, Ha⟩, ⟨%d, %fb, -, Hb⟩, Hk⟩
  subst hfa
  -- the two loads, then the store
  sl_exec
  sl_step
  iapply Hk
  isplitl [Ha]
  · iexists fa; isplitr; · ipureintro; rfl
    iexact Ha
  iexists _; isplitr
  swap; · iexact Hb
  ipureintro
  -- one store over a rectangle covering the buffer: reading back gives the piece list's canonical form
  exact View.read_writes_eq_canon _ _ _ (cover0_1 _)

/-! ## The proof data of the pipeline -/

/-- On core `c`: both arrays at their entry contents; after the body the input buffer still holds its block and the
    output buffer holds `out0_1` of that block; the invariant is the rest of the scoped memory and the generator
    register, which the body never touches; every share is full and nothing is owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = out0_1 (iblk0 V c 0 t) := by dsimp only [dat0]

/-- The input window is fetched at every point of the grid (there is only one), and its block is not cut, so when
    the body is called the input buffer holds exactly the block, whatever it held before the fetch. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-! ## The body obligation -/

/-- The body as the pipeline calls it at point `t`: from the invariant, the core's debt, the input buffer at its
    block and the output buffer at anything, to the same invariant and debt, the input buffer at its block and the
    output buffer at `out0_1` of it. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t))) := by
  unfold bodyAt0
  simp only [before0_0]
  -- neither the invariant nor the debt depends on the point
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (sound_kernel0 c Set.univ (grid0.coords t) _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The obligation in the library's form: its two big separating conjunctions over the windows are the two-window
    products above. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Defs.lean ====
import proofs.«108628_j44933947851025_1_alg».proof.Proof.Gen.KernelIdeal.Launch
import proofs.«108628_j44933947851025_1_alg».proof.Proof.Gen.KernelIdeal.Skeleton
import proofs.«108628_j44933947851025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the accumulating kernel): what its windows hold, point by point

The grid is 64 × 4; point `t` is `(t / 4, t % 4)`. Along the inner axis the two output blocks are
accumulators: at `t % 4 = 0` the body overwrites them with the partial sums of the point, at every other
point it adds the point's partial sums to what the blocks held. Everything is stated at a parameter `V`,
the contents of the core's buffers when the region is entered. -/

section Region1

variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body accesses: each the whole of its buffer -/

abbrev r1_0 : Rect S8x512x1 := Rect.unit (s := S8x512x1) ![0, 0, 0] S8x512x1.size inb_S8x512x1_S8x512x1_0_0_0
abbrev r1_1 : Rect S8x1x128 := Rect.unit (s := S8x1x128) ![0, 0, 0] S8x1x128.size inb_S8x1x128_S8x1x128_0_0_0
abbrev r1_o : Rect S8x512 := Rect.unit (s := S8x512) ![0, 0] S8x512.size inb_S8x512_S8x512_0_0

/-! ## What the body leaves in the two output blocks -/

/-- At a point with `k = 0`: the first output block is the point's partial count, -/
def out1_A_3 (x0 : Vec F S8x512x1 .f32) (x1 x2 : Vec F S8x1x128 .f32) : Vec F S8x512 .f32 :=
  View.canon [⟨r1_o, k1_pay4 (View.ld x0 r1_0) (View.ld x1 r1_1) (View.ld x2 r1_1)⟩]

/-- and the second the point's partial hinge sum. -/
def out1_A_4 (x0 : Vec F S8x512x1 .f32) (x1 x2 : Vec F S8x1x128 .f32) : Vec F S8x512 .f32 :=
  View.canon [⟨r1_o, k1_pay5 (View.ld x0 r1_0) (View.ld x1 r1_1) (View.ld x2 r1_1)⟩]

/-- At a point with `k ≠ 0`: what the first block held, `xo`, plus the point's partial count, -/
def out1_B_3 (x0 : Vec F S8x512x1 .f32) (x1 x2 : Vec F S8x1x128 .f32) (xo : Vec F S8x512 .f32) : Vec F S8x512 .f32 :=
  View.canon [⟨r1_o, k1_pay6 (View.ld x0 r1_0) (View.ld x1 r1_1) (View.ld x2 r1_1) (View.ld xo r1_o)⟩]

/-- and what the second held plus the point's partial hinge sum. -/
def out1_B_4 (x0 : Vec F S8x512x1 .f32) (x1 x2 : Vec F S8x1x128 .f32) (xo : Vec F S8x512 .f32) : Vec F S8x512 .f32 :=
  View.canon [⟨r1_o, k1_pay7 (View.ld x0 r1_0) (View.ld x1 r1_1) (View.ld x2 r1_1) (View.ld xo r1_o)⟩]

/-- One store through the whole-buffer rectangle covers the buffer. -/
theorem cover1_o (p : Vec F S8x512 .f32) (y : S8x512.Idx) :
    ∃ pc ∈ ([⟨r1_o, p⟩] : List (View.Piece (Elt F) S8x512 .f32)), y ∈ pc.1.set :=
  View.cover_of_tiled [⟨r1_o, p⟩] S8x512.size (by rfl) y

/-! ## The accumulation -/

/-- The two output blocks after the body at position `n` of the grid: restarted from the point's partial
    sums where `n % 4 = 0`, otherwise the partial sums added to what position `n - 1` left (the blocks are
    not written back in between). -/
def outsAt1 (c : Dev nD) : (n : ℕ) → n < cfg1.N → Vec F S8x512 .f32 × Vec F S8x512 .f32
  | 0, hn =>
    (out1_A_3 (iblk1 V c 0 ⟨0, hn⟩) (iblk1 V c 1 ⟨0, hn⟩) (iblk1 V c 2 ⟨0, hn⟩),
     out1_A_4 (iblk1 V c 0 ⟨0, hn⟩) (iblk1 V c 1 ⟨0, hn⟩) (iblk1 V c 2 ⟨0, hn⟩))
  | n + 1, hn =>
    if (n + 1) % 4 = 0 then
      (out1_A_3 (iblk1 V c 0 ⟨n + 1, hn⟩) (iblk1 V c 1 ⟨n + 1, hn⟩) (iblk1 V c 2 ⟨n + 1, hn⟩),
       out1_A_4 (iblk1 V c 0 ⟨n + 1, hn⟩) (iblk1 V c 1 ⟨n + 1, hn⟩) (iblk1 V c 2 ⟨n + 1, hn⟩))
    else
      (out1_B_3 (iblk1 V c 0 ⟨n + 1, hn⟩) (iblk1 V c 1 ⟨n + 1, hn⟩) (iblk1 V c 2 ⟨n + 1, hn⟩) (outsAt1 c n (Nat.lt_of_succ_lt hn)).1,
       out1_B_4 (iblk1 V c 0 ⟨n + 1, hn⟩) (iblk1 V c 1 ⟨n + 1, hn⟩) (iblk1 V c 2 ⟨n + 1, hn⟩) (outsAt1 c n (Nat.lt_of_succ_lt hn)).2)

/-- At a point with `t % 4 = 0` the blocks hold the point's partial sums. -/
theorem outsAt1_A (c : Dev nD) (t : Fin cfg1.N) (h : t.val % 4 = 0) :
    outsAt1 V c t.val t.isLt =
      (out1_A_3 (iblk1 V c 0 t) (iblk1 V c 1 t) (iblk1 V c 2 t), out1_A_4 (iblk1 V c 0 t) (iblk1 V c 1 t) (iblk1 V c 2 t)) := by
  obtain ⟨n, hn⟩ := t
  cases n with
  | zero => rfl
  | succ n => exact (if_pos h).trans rfl

/-- At any other point, the partial sums added to what the point before left. -/
theorem outsAt1_B (c : Dev nD) (t : Fin cfg1.N) (h : ¬ t.val % 4 = 0) :
    outsAt1 V c t.val t.isLt =
      (out1_B_3 (iblk1 V c 0 t) (iblk1 V c 1 t) (iblk1 V c 2 t) (outsAt1 V c (t.val - 1) (Nat.lt_of_le_of_lt (Nat.sub_le _ _) t.isLt)).1,
       out1_B_4 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The pipeline's proof data -/

/-- Region 1's proof data on core `c`: the arrays as the region finds them; after the body at point `t` each
    input's buffer still at its block, the two outputs' at `outsAt1`; full shares, nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

end Region1

end Cert.KernelIdeal.Hand

end
-- ==== Proof.KI.Region1Runs.lean ====
import proofs.«108628_j44933947851025_1_alg».proof.Proof.KI.Region1Defs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: the body's triple in its two control cases

The body reads its three input blocks, forms the point's two partial sums, and then either overwrites the
two output blocks with them (first guard, `k = 0`) or adds them to what the blocks hold (second guard,
`k ≠ 0`). Exactly one guard holds at a point. Each case is a triple over whole staging memrefs: the inputs
come back as they were, the outputs at the closed forms `out1_A_·` / `out1_B_·`. -/

set_option maxHeartbeats 1000000 in
/-- First guard taken, second not: the output blocks, whatever they held, end at the point's partial sums. -/
theorem sound_kernel1_A (c : Dev nD) (E : Set ℕ) (i : grid1.Coords)
    (arg2 : Memref sig .tc .vmem S8x512x1 .f32) (harg2 : arg2.IsWhole)
    (arg3 : Memref sig .tc .vmem S8x1x128 .f32) (harg3 : arg3.IsWhole)
    (arg4 : Memref sig .tc .vmem S8x1x128 .f32) (harg4 : arg4.IsWhole)
    (arg5 : Memref sig .tc .vmem S8x512 .f32) (harg5 : arg5.IsWhole)
    (arg6 : Memref sig .tc .vmem S8x512 .f32) (harg6 : arg6.IsWhole)
    (hc1 : k1_cond1 i = 1#1) (hc2 : ¬ k1_cond2 i = 1#1)
    (x0 : Vec F S8x512x1 .f32) (x1 x2 : Vec F S8x1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_A_3 x0 x1 x2) ∗ owns (c : Thread nD τ) arg6 fullShare (out1_A_4 x0 x1 x2)) -∗ K ⟨⟩))
      ⊢ wp frame (wpE (defs₀ (F := F)) Variants.none c none) E (cc1__mine_kernel i arg2 harg2 arg3 harg3 arg4 harg4 arg5 harg5 arg6 harg6) K := by
  simp only [cc1__mine_kernel_eq_skeleton]; unfold cc1__mine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_o _)
  iexists _; isplitr
  swap; · iexact H4
  ipureintro
  exact View.read_writes_eq_canon _ _ _ (cover1_o _)

set_option maxHeartbeats 1000000 in
/-- Second guard taken, first not: the output blocks, held at `xo3`, `xo4`, end at those plus the point's
    partial sums. -/
theorem sound_kernel1_B (c : Dev nD) (E : Set ℕ) (i : grid1.Coords)
    (arg2 : Memref sig .tc .vmem S8x512x1 .f32) (harg2 : arg2.IsWhole)
    (arg3 : Memref sig .tc .vmem S8x1x128 .f32) (harg3 : arg3.IsWhole)
    (arg4 : Memref sig .tc .vmem S8x1x128 .f32) (harg4 : arg4.IsWhole)
    (arg5 : Memref sig .tc .vmem S8x512 .f32) (harg5 : arg5.IsWhole)
    (arg6 : Memref sig .tc .vmem S8x512 .f32) (harg6 : arg6.IsWhole)
    (hc1 : ¬ k1_cond1 i = 1#1) (hc2 : k1_cond2 i = 1#1)
    (x0 : Vec F S8x512x1 .f32) (x1 x2 : Vec F S8x1x128 .f32) (xo3 xo4 : Vec F S8x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo3 ∗ owns (c : Thread nD τ) arg6 fullShare xo4
        ∗ (iprop(owns (c : Thread nD τ) arg2 fullShare x0 ∗ owns (c : Thread nD τ) arg3 fullShare x1 ∗ owns (c : Thread nD τ) arg4 fullShare x2
            ∗ owns (c : Thread nD τ) arg5 fullShare (out1_B_3 x0 x1 x2 xo3) ∗ owns (c : Thread nD τ) arg6 fullShare (out1_B_4 x0 x1 x2 xo4)) -∗ K ⟨⟩))
      ⊢ wp frame (wpE (defs₀ (F := F)) Variants.none c none) E (cc1__mine_kernel i arg2 harg2 arg3 harg3 arg4 harg4 arg5 harg5 arg6 harg6) K := by
  simp only [cc1__mine_kernel_eq_skeleton]; unfold cc1__mine_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_o _)
  iexists _; isplitr
  swap; · iexact H4
  ipureintro
  exact View.read_writes_eq_canon _ _ _ (cover1_o _)

end Cert.KernelIdeal.Hand

end
-- ==== Proof.KI.Region1.lean ====
import proofs.«108628_j44933947851025_1_alg».proof.Proof.KI.Region1Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: what the body finds in each window's buffer, and the body obligation -/

/-! ## The guards in closed form -/

/-- The first guard (`k = 0`) holds exactly at the points `t % 4 = 0`, -/
theorem hcond1_1 : ∀ t : Fin cfg1.N, k1_cond1 (grid1.coords t) = 1#1 ↔ t.val % 4 = 0 :=
  (by decide +kernel : ∀ t : Fin grid1.N, k1_cond1 (grid1.coords t) = 1#1 ↔ t.val % 4 = 0)

/-- the second (`k ≠ 0`) exactly at the others. -/
theorem hcond1_2 : ∀ t : Fin cfg1.N, k1_cond2 (grid1.coords t) = 1#1 ↔ ¬ t.val % 4 = 0 :=
  (by decide +kernel : ∀ t : Fin grid1.N, k1_cond2 (grid1.coords t) = 1#1 ↔ ¬ t.val % 4 = 0)

/-- One of the two guards holds at any coordinates (they test `k = 0` and `k ≠ 0`), so the body stores into
    both output blocks everywhere: no coordinates are idle for window 3, -/
theorem live1_3 : ∀ i : grid1.Coords, cfg1.idle 3 i = false := by
  intro i
  show (!(k1_cond1 i == 1#1) && !(k1_cond2 i == 1#1)) = false
  unfold k1_cond1 k1_cond2
  generalize i 1 = j
  revert j
  decide

/-- nor for window 4. -/
theorem live1_4 : ∀ i : grid1.Coords, cfg1.idle 4 i = false := live1_3

section Region1

variable (V : (c : Dev nD) → (b : Ref sig .tc) → Buf (Elt F) ((c : Thread nD τ).loc b))

/-! ## What the body finds -/

/-- Input window 0's current staging buffer holds the window's block at every point, fetched there or not
    (where it is not fetched the block index has not moved, and the body left the block in place). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds the window's block at every point, fetched there or not
    (where it is not fetched the block index has not moved, and the body left the block in place). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds the window's block at every point, fetched there or not
    (where it is not fetched the block index has not moved, and the body left the block in place). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Away from `t % 4 = 0` output window 3's current staging buffer holds what the body left at the point
    before: the point is not the first, the block was not written back in between (that happens only after
    `t % 4 = 3`), the window is live everywhere and uncut. -/
theorem before1_3_B (c : Dev nD) (t : Fin cfg1.N) (h0 : ¬ t.val % 4 = 0) (d) :
    (dat1 V c).before 3 t d = (outsAt1 V c (t.val - 1) (Nat.lt_of_le_of_lt (Nat.sub_le _ _) t.isLt)).1 := by
  rw [Dat.before_out_kept _ 3 rfl t (by omega)
    (Bool.eq_false_iff.mpr fun hf => by have := (flush1_3 _).mp hf; dsimp only at this; omega)
    live1_3 (fun _ _ => rfl)]
  exact after1_3 V c _

/-- Away from `t % 4 = 0` output window 4's current staging buffer holds what the body left at the point
    before: the point is not the first, the block was not written back in between (that happens only after
    `t % 4 = 3`), the window is live everywhere and uncut. -/
theorem before1_4_B (c : Dev nD) (t : Fin cfg1.N) (h0 : ¬ t.val % 4 = 0) (d) :
    (dat1 V c).before 4 t d = (outsAt1 V c (t.val - 1) (Nat.lt_of_le_of_lt (Nat.sub_le _ _) t.isLt)).2 := by
  rw [Dat.before_out_kept _ 4 rfl t (by omega)
    (Bool.eq_false_iff.mpr fun hf => by have := (flush1_4 _).mp hf; dsimp only at this; omega)
    live1_4 (fun _ _ => rfl)]
  exact after1_4 V c _

/-! ## The body obligation, at a generic point -/

/-- What the body is called with at point `t`: the invariant, what the core owes, each window's current
    staging buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point. The inputs' buffers hold their blocks. At `t % 4 = 0` the first guard holds and the
    second fails: the outputs, whatever they hold, are overwritten. Elsewhere the second holds and the first
    fails, and the outputs hold what the point before left: the body adds to it. The invariant and what the core
    owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 4 = 0
  · rw [outsAt1_A V c t h0]
    iintro ⟨HΦ, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ ((hcond1_1 t).mpr h0) (fun h => (hcond1_2 t).mp h h0)
      (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt1_B V c t h0]
    simp only [before1_3_B V c t h0, before1_4_B V c t h0]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ (fun h => h0 ((hcond1_1 t).mp h)) ((hcond1_2 t).mpr h0)
      (iblk1 V c 0 t) (iblk1 V c 1 t) (iblk1 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point: its big products over the five windows written
    out, the outputs' idleness tests decided (`live1_3`, `live1_4`). -/
theorem body_obligation1 (c : Dev nD) : BodyObligation (dat1 (F := F) V c) (defs₀ (F := F)) Variants.none () Set.univ := fun t => by
  rw [bigSep_W1, bigSep_W1]
  -- windows 3 and 4 state one and the same idleness test: the rewrite decides both
  rw [show cfg1.idle 3 (cfg1.grid.coords t) = false from live1_3 _]
  exact sound_body1 V c t

end Region1

end Cert.KernelIdeal.Hand

end
-- ==== Proof.KI.Run.lean ====
import proofs.«108628_j44933947851025_1_alg».proof.Proof.Gen.KernelIdeal.Regions
import proofs.«108628_j44933947851025_1_alg».proof.Proof.KI.Region0
import proofs.«108628_j44933947851025_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main over its two kernel regions and eleven host stretches

Between two items of @main every core holds each unscoped buffer whole at a known valuation. The valuations are the
generated ones (`Gen.V0` … `Gen.V13`), read at CONCRETE region outputs `outsK`: region 0 leaves in `main_v0` the
write-backs of its one output window folded over the launch contents, region 1 leaves in `main_v19_0` / `main_v19_1`
the write-backs of its two output windows folded over the contents the first host stretch leaves. With the outputs
closed terms of the launch memory, the last valuation names the result buffer `main_v37` as a function of the launch
memory alone, which is what the value proof reads. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

/-! ## The run, given the regions' records, with the result buffer named -/

set_option backward.isDefEq.respectTransparency.types false in
/-- The conditional run. Given, per region, a segment record entered from the valuation before it and left at the one
    after it, beside rest states the launch makes on every core and that end owing nothing: every weakly fair execution
    of @main from memory `m` with zero counters terminates, and every final memory holds in `main_v37` what the last
    valuation names there and each argument as launched. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (Gen.V2 m outs c) ∗ E 1 c) ⊢ R1.pre c)
    (hpost1 : ∀ c : Dev nD, R1.post c ⊢ iprop(StableHlo.held (c : Thread nD τ) (Pipeline.ucRefs τ sig) (Gen.V3 m outs c) ∗ E 2 c)) :
    θ_run defs (onTc (τ := τ) (main (F := F))) ⟨m, fun _ => 0, ρ⟩ (fun r => ∀ c : Dev nD,
      r.2.mem ((c.tc : Thread nD τ).loc main_v37) = Gen.V13 m outs c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V13 m outs c))
    (hch := fun c => ⟨hpre0 c, hpost0 c, hpre1 c, hpost1 c, .rfl, .rfl, .rfl, .rfl, .rfl, .rfl, .rfl, .rfl, .rfl, sep_mono .rfl (hE2 c)⟩)
    (hinit := ?_) (QY := fun c s => s.mem ((c.tc : Thread nD τ).loc main_v37) = Gen.V13 m outs c main_v37
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (Gen.V13 m outs c) s') $$ [Hh HSI]
    · isplitl [Hh] <;> iassumption
    icases Hr with ⟨%h, HSI⟩
    imodintro
    isplitr
    · ipureintro
      exact ⟨h (Proc.devRef .tc main_v37) (Finset.mem_filter.mpr ⟨StableHlo.devRef_mem_tcRefs main_v37, by decide⟩),
        (h (Proc.devRef .tc main_arg0) (Finset.mem_filter.mpr ⟨StableHlo.devRef_mem_tcRefs main_arg0, by decide⟩)).trans (Gen.V13_main_arg0 m outs c),
        (h (Proc.devRef .tc main_arg1) (Finset.mem_filter.mpr ⟨StableHlo.devRef_mem_tcRefs main_arg1, by decide⟩)).trans (Gen.V13_main_arg1 m outs c)⟩
    · iexact HSI

/-! ## The contents the regions leave, as closed terms of the launch memory -/

/-- Two updates of a valuation at distinct points, read at the first. -/
theorem upd_upd_left {α : Type} [DecidableEq α] {β : α → Type} (f : (a : α) → β a) (a b : α) (h : a ≠ b) (x : β a) (y : β b) :
    Function.update (Function.update f a x) b y a = x := by
  rw [Function.update_of_ne h, Function.update_self]

variable (m : (ℓ : Loc nD τ sig) → Buf (Elt F) ℓ)

/-- The launch contents read at the TensorCore's references: what region 0 is entered from. -/
abbrev E0 : (c : Dev nD) → (b : Ref sig .tc) → Buf (Elt F) ((c : Thread nD τ).loc b) := fun c b => Gen.V0 m c b

/-- After region 0: the launch contents with `main_v0` at the output window's write-backs folded over them. -/
def out1 (c : Dev nD) : Valuation τ sig (Elt F) :=
  Function.update (Gen.V0 m c) main_v0 ((dat0 (E0 m) c).arrAt 1 cfg0.N)

/-- Region outputs that are right after region 0 only: enough to name the contents region 1 is entered from. -/
def outs1 : Gen.Outs (F := F) := fun _ r c => out1 m c r

/-- The contents region 1 is entered from, over `outs1`. -/
abbrev E2' : (c : Dev nD) → (b : Ref sig .tc) → Buf (Elt F) ((c : Thread nD τ).loc b) := fun c b => Gen.V2 m (outs1 m) c b

/-- After region 1: those contents with `main_v19_0`, `main_v19_1` at the two output windows' write-backs. -/
def out3 (c : Dev nD) : Valuation τ sig (Elt F) :=
  Function.update (Function.update (Gen.V2 m (outs1 m) c) main_v19_0 ((dat1 (E2' m) c).arrAt 3 cfg1.N))
    main_v19_1 ((dat1 (E2' m) c).arrAt 4 cfg1.N)

/-- THE REGION OUTPUTS: after region 0 the valuation `out1`, after region 1 the valuation `out3`. -/
def outsK : Gen.Outs (F := F)
  | 1 => fun r c => out1 m c r
  | _ => fun r c => out3 m c r

theorem outsK_one (r : Ref sig .tc) (c : Dev nD) : outsK m 1 r c = out1 m c r := rfl
theorem outsK_three (r : Ref sig .tc) (c : Dev nD) : outsK m 3 r c = out3 m c r := rfl

/-- The contents between the items, read at the TensorCore's references. -/
abbrev E1 : (c : Dev nD) → (b : Ref sig .tc) → Buf (Elt F) ((c : Thread nD τ).loc b) := fun c b => Gen.V1 m (outsK m) c b
abbrev E2 : (c : Dev nD) → (b : Ref sig .tc) → Buf (Elt F) ((c : Thread nD τ).loc b) := fun c b => Gen.V2 m (outsK m) c b
abbrev E3 : (c : Dev nD) → (b : Ref sig .tc) → Buf (Elt F) ((c : Thread nD τ).loc b) := fun c b => Gen.V3 m (outsK m) c b

theorem ne_v19 : (Proc.devRef .tc main_v19_0 : DevRef τ sig) ≠ Proc.devRef .tc main_v19_1 := StableHlo.devRef_ne_of_ne (by decide)

theorem out1_v0 (c : Dev nD) : out1 m c main_v0 = (dat0 (E0 m) c).arrAt 1 cfg0.N := Function.update_self ..
theorem out3_0 (c : Dev nD) : out3 m c main_v19_0 = (dat1 (E2' m) c).arrAt 3 cfg1.N := upd_upd_left _ _ _ ne_v19 _ _
theorem out3_1 (c : Dev nD) : out3 m c main_v19_1 = (dat1 (E2' m) c).arrAt 4 cfg1.N := Function.update_self ..

/-- Region 0's output: the one output window's write-backs folded over the launch contents. -/
theorem V1_main_v0 (c : Dev nD) : Gen.V1 m (outsK m) c main_v0 = (dat0 (E0 m) c).arrAt 1 cfg0.N :=
  (Function.update_self ..).trans ((outsK_one m main_v0 c).trans (out1_v0 m c))

theorem V1_eq (c : Dev nD) : Gen.V1 m (outsK m) c = Gen.V1 m (outs1 m) c :=
  congrArg (Function.update (Gen.V0 m c) (Proc.devRef .tc main_v0)) (outsK_one m main_v0 c)

theorem V2_eq (c : Dev nD) : Gen.V2 m (outsK m) c = Gen.V2 m (outs1 m) c :=
  congrArg (StableHlo.after hostOps1) (V1_eq m c)

theorem E2_eq : E2 m = E2' m := by
  funext c b; exact congrFun (V2_eq m c) _

/-- Region 1's outputs: each output window's write-backs folded over the contents the first host stretch leaves. -/
theorem V3_main_v19_0 (c : Dev nD) : Gen.V3 m (outsK m) c main_v19_0 = (dat1 (E2 m) c).arrAt 3 cfg1.N :=
  (upd_upd_left _ _ _ ne_v19 _ _).trans ((outsK_three m main_v19_0 c).trans ((out3_0 m c).trans (by rw [E2_eq])))
theorem V3_main_v19_1 (c : Dev nD) : Gen.V3 m (outsK m) c main_v19_1 = (dat1 (E2 m) c).arrAt 4 cfg1.N :=
  (Function.update_self ..).trans ((outsK_three m main_v19_1 c).trans ((out3_1 m c).trans (by rw [E2_eq])))

/-! ## Each region's arrays at its exit, and every other buffer as entered -/

theorem hF0 (c : Dev nD) : ∀ w : Fin 2, (dat0 (E0 m) c).arrAt w cfg0.N = E1 m c (Pipeline.arrRef spec0 w)
  | ⟨0, _⟩ => ((dat0 (E0 m) c).arrAt_in 0 rfl _).trans ((A_eq0 (E0 m) c 0).trans (Gen.V1_of m (outsK m) c main_arg0 (by decide)).symm)
  | ⟨1, _⟩ => (V1_main_v0 m c).symm

theorem hrest0 (c : Dev nD) : ∀ b, b ∉ Finset.univ.image (Pipeline.arrRef spec0) → E1 m c b = E0 m c b :=
  fun b hb => Gen.V1_of m (outsK m) c b fun hm =>
    hb (Finset.mem_image.mpr ⟨1, Finset.mem_univ _, (List.mem_singleton.mp hm).symm⟩)

theorem hF1 (c : Dev nD) : ∀ w : Fin 5, (dat1 (E2 m) c).arrAt w cfg1.N = E3 m c (Pipeline.arrRef spec1 w)
  | ⟨0, _⟩ => ((dat1 (E2 m) c).arrAt_in 0 rfl _).trans ((A_eq1 (E2 m) c 0).trans (Gen.V3_of m (outsK m) c main_v16 (by decide)).symm)
  | ⟨1, _⟩ => ((dat1 (E2 m) c).arrAt_in 1 rfl _).trans ((A_eq1 (E2 m) c 1).trans (Gen.V3_of m (outsK m) c main_v17 (by decide)).symm)
  | ⟨2, _⟩ => ((dat1 (E2 m) c).arrAt_in 2 rfl _).trans ((A_eq1 (E2 m) c 2).trans (Gen.V3_of m (outsK m) c main_v18 (by decide)).symm)
  | ⟨3, _⟩ => (V3_main_v19_0 m c).symm
  | ⟨4, _⟩ => (V3_main_v19_1 m c).symm

theorem hrest1 (c : Dev nD) : ∀ b, b ∉ Finset.univ.image (Pipeline.arrRef spec1) → E3 m c b = E2 m c b :=
  fun b hb => Gen.V3_of m (outsK m) c b fun hm => by
    rcases List.mem_cons.mp hm with h | h
    · exact hb (Finset.mem_image.mpr ⟨3, Finset.mem_univ _, h.symm⟩)
    · exact hb (Finset.mem_image.mpr ⟨4, Finset.mem_univ _, (List.mem_singleton.mp h).symm⟩)

/-! ## The proof data family and what rides beside the buffers -/

/-- Both pipelines' proof data, each at the contents its region is entered from. -/
def pdats : (p : Fin 2) → (c : Dev nD) → Dat τ (Elt F) Unit ℕ (Pipeline.UD sig nD τ) ℕ (cfgs p) c
  | ⟨0, _⟩ => fun c => dat0 (E0 m) c
  | ⟨1, _⟩ => fun c => dat1 (E2 m) c

/-- No core owes another anything: no level is assigned. -/
abbrev L : GSem nD τ sig → Finset Unit := fun _ => ∅
abbrev lv : GSem nD τ sig → Unit → ℕ := fun _ _ => 0

/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the launch contents, left at those with
    `main_v0` at the output window's write-backs. Its two arrays split out of the unscoped buffers and put back at
    the exit contents; the generator register into the region invariant and out; nothing owed; no semaphore of the
    kernel's own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outsK m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents the first host stretch leaves,
    left at those with `main_v19_0`, `main_v19_1` at the two output windows' write-backs. Its five arrays split out
    of the unscoped buffers and put back at the exit contents; the generator register into the region invariant and
    out; nothing owed; no semaphore of the kernel's own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Gen.V2 m (outsK m) c) ∗ R c)
  post c := iprop(StableHlo.held (c : Thread nD τ) (Pipeline.ucRefs τ sig) (Gen.V3 m (outsK m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates, nothing faulting,
    and every final memory holds in `main_v37` what the last valuation names there at the concrete region outputs,
    and each argument as launched. -/
theorem run (ρ : Dev nD → PrngReg) : θ_run defs (onTc (τ := τ) (main (F := F))) ⟨m, fun _ => 0, ρ⟩ (fun r => ∀ c : Dev nD,
      r.2.mem ((c.tc : Thread nD τ).loc main_v37) = Gen.V13 m (outsK m) c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m embL () Variants.none L lv (fun _ _ => rfl) ρ (outsK m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

/-- THE FRAME: every weakly fair execution of @main terminates, nothing faulting, and every final memory holds each
    argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Hand

end
-- ==== Proof.Ref.RunS1.lean ====
/-
  The first sixty-six operations of the reference program, read in three stretches. For any contents `W` of the
  device's buffers, the contents after a stretch are, at each buffer a later stretch reads, the stage of that buffer
  as a function of the program's two arguments, provided the buffers the stretch itself reads held their stages
  before it; and a buffer the stretch does not write keeps its contents.
-/
import proofs.«108628_j44933947851025_1_alg».proof.Proof.Ref.Read
import Idealize.ShloMosaic.Lib.StableHlo.Run
import Idealize.ShloMosaic.Lib.Pipeline.Frame

noncomputable section

namespace Cert.ReferenceIdeal.ValueS

open Cert.ReferenceIdeal Cert.ReferenceIdeal.Gen Idealize.ShloMosaic Idealize.ShloMosaic.TcCoe Idealize.SL.Sem Idealize.ShloMosaic.StableHlo

variable {F : FTy → Type} [FloatOps F]

/-- Operations 1 to 23: the squared distances by coordinate differences and the zero-safe root. -/
abbrev opsA1 : List (HloOp τ sig (Elt F)) :=
  [
    unary main_arg0 main_v0 (broadcastInDim S512x1x256 ![0, 2] bcast_S512x256_S512x1x256_0_2 : (⟨S512x256, .f32⟩ : BufTy).Contents (Elt F) → (⟨S512x1x256, .f32⟩ : BufTy).Contents (Elt F)),
    unary main_arg0 main_v1 (broadcastInDim S1x512x256 ![1, 2] bcast_S512x256_S1x512x256_1_2 : (⟨S512x256, .f32⟩ : BufTy).Contents (Elt F) → (⟨S1x512x256, .f32⟩ : BufTy).Contents (Elt F)),
    unary main_v0 main_v2 (broadcastInDim S512x512x256 ![0, 1, 2] bcast_S512x1x256_S512x512x256_0_1_2 : (⟨S512x1x256, .f32⟩ : BufTy).Contents (Elt F) → (⟨S512x512x256, .f32⟩ : BufTy).Contents (Elt F)),
    unary main_v1 main_v3 (broadcastInDim S512x512x256 ![0, 1, 2] bcast_S1x512x256_S512x512x256_0_1_2 : (⟨S1x512x256, .f32⟩ : BufTy).Contents (Elt F) → (⟨S512x512x256, .f32⟩ : BufTy).Contents (Elt F)),
    binary main_v2 main_v3 main_v4 (subf : (⟨S512x512x256, .f32⟩ : BufTy).Contents (Elt F) → (⟨S512x512x256, .f32⟩ : BufTy).Contents (Elt F) → (⟨S512x512x256, .f32⟩ : BufTy).Contents (Elt F)),
    binary main_v4 main_v4 main_v5 (mulf : (⟨S512x512x256, .f32⟩ : BufTy).Contents (Elt F) → (⟨S512x512x256, .f32⟩ : BufTy).Contents (Elt F) → (⟨S512x512x256, .f32⟩ : BufTy).Contents (Elt F)),
    nullary main_cst (constant S_ .f32 0x00000000#32),
    binary main_v5 main_cst main_v6 ((fun x v => Host.reduceAdd x v reducesTo_S512x512x256_S512x512_d2 h_S_) : (⟨S512x512x256, .f32⟩ : BufTy).Contents (Elt F) → (⟨S_, .f32⟩ : BufTy).Contents (Elt F) → (⟨S512x512, .f32⟩ : BufTy).Contents (Elt F)),
    nullary main_cst_0 (constant S_ .f32 0x00000000#32),
    unary main_cst_0 main_v7 (broadcastInDim S512x512 ![] bcast_S_S512x512 : (⟨S_, .f32⟩ : BufTy).Contents (Elt F) → (⟨S512x512, .f32⟩ : BufTy).Contents (Elt F)),
    binary main_v6 main_v7 main_v8 (cmpf .ole : (⟨S512x512, .f32⟩ : BufTy).Contents (Elt F) → (⟨S512x512, .f32⟩ : BufTy).Contents (Elt F) → (⟨S512x512, .i1⟩ : BufTy).Contents (Elt F)),
    nullary main_cst_1 (constant S_ .f32 0x00000000#32),
    unary main_cst_1 main_v9 (broadcastInDim S512x512 ![] bcast_S_S512x512 : (⟨S_, .f32⟩ : BufTy).Contents (Elt F) → (⟨S512x512, .f32⟩ : BufTy).Contents (Elt F)),
    binary main_v6 main_v9 main_v10 (cmpf .ole : (⟨S512x512, .f32⟩ : BufTy).Contents (Elt F) → (⟨S512x512, .f32⟩ : BufTy).Contents (Elt F) → (⟨S512x512, .i1⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S512x512, .f32⟩) main_call0_v1) (broadcastInDim S512x512 ![] bcast_S_S512x512),
    TRef.ternary (TRef.of (T := ⟨S512x512, .i1⟩) main_v10) (TRef.of (T := ⟨S512x512, .f32⟩) main_call0_v1) (TRef.of (T := ⟨S512x512, .f32⟩) main_v6) (TRef.of (T := ⟨S512x512, .f32⟩) main_v11) select,
    unary main_v11 main_v12 (Host.sqrt : (⟨S512x512, .f32⟩ : BufTy).Contents (Elt F) → (⟨S512x512, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S512x512, .f32⟩) main_call1_v1) (broadcastInDim S512x512 ![] bcast_S_S512x512),
    TRef.ternary (TRef.of (T := ⟨S512x512, .i1⟩) main_v8) (TRef.of (T := ⟨S512x512, .f32⟩) main_call1_v1) (TRef.of (T := ⟨S512x512, .f32⟩) main_v12) (TRef.of (T := ⟨S512x512, .f32⟩) main_v13) select ]

/-- Operations 24 to 45: the positives' matrix from the labels and the iotas, its complement, the row-wise "has a positive", and the row minimum over the non-positives. -/
abbrev opsA2 : List (HloOp τ sig (Elt F)) :=
  [
    nullary main_v14 (iotaInDim S512x512 32 0),
    nullary main_v15 (iotaInDim S512x512 32 1),
    nullary main_c (constantI S_ 32 0#32),
    unary main_c main_v16 (broadcastInDim S512x512 ![] bcast_S_S512x512 : (⟨S_, .i32⟩ : BufTy).Contents (Elt F) → (⟨S512x512, .i32⟩ : BufTy).Contents (Elt F)),
    binary main_v14 main_v16 main_v17 (addi : (⟨S512x512, .i32⟩ : BufTy).Contents (Elt F) → (⟨S512x512, .i32⟩ : BufTy).Contents (Elt F) → (⟨S512x512, .i32⟩ : BufTy).Contents (Elt F)),
    binary main_v17 main_v15 main_v18 (cmpi .eq : (⟨S512x512, .i32⟩ : BufTy).Contents (Elt F) → (⟨S512x512, .i32⟩ : BufTy).Contents (Elt F) → (⟨S512x512, .i1⟩ : BufTy).Contents (Elt F)),
    unary main_arg1 main_v19 (broadcastInDim S512x1 ![0] bcast_S512_S512x1_0 : (⟨S512, .i32⟩ : BufTy).Contents (Elt F) → (⟨S512x1, .i32⟩ : BufTy).Contents (Elt F)),
    unary main_arg1 main_v20 (broadcastInDim S1x512 ![1] bcast_S512_S1x512_1 : (⟨S512, .i32⟩ : BufTy).Contents (Elt F) → (⟨S1x512, .i32⟩ : BufTy).Contents (Elt F)),
    unary main_v19 main_v21 (broadcastInDim S512x512 ![0, 1] bcast_S512x1_S512x512_0_1 : (⟨S512x1, .i32⟩ : BufTy).Contents (Elt F) → (⟨S512x512, .i32⟩ : BufTy).Contents (Elt F)),
    unary main_v20 main_v22 (broadcastInDim S512x512 ![0, 1] bcast_S1x512_S512x512_0_1 : (⟨S1x512, .i32⟩ : BufTy).Contents (Elt F) → (⟨S512x512, .i32⟩ : BufTy).Contents (Elt F)),
    binary main_v21 main_v22 main_v23 (cmpi .eq : (⟨S512x512, .i32⟩ : BufTy).Contents (Elt F) → (⟨S512x512, .i32⟩ : BufTy).Contents (Elt F) → (⟨S512x512, .i1⟩ : BufTy).Contents (Elt F)),
    unary main_v18 main_v24 (noti : (⟨S512x512, .i1⟩ : BufTy).Contents (Elt F) → (⟨S512x512, .i1⟩ : BufTy).Contents (Elt F)),
    binary main_v23 main_v24 main_v25 (andi : (⟨S512x512, .i1⟩ : BufTy).Contents (Elt F) → (⟨S512x512, .i1⟩ : BufTy).Contents (Elt F) → (⟨S512x512, .i1⟩ : BufTy).Contents (Elt F)),
    unary main_v25 main_v26 (noti : (⟨S512x512, .i1⟩ : BufTy).Contents (Elt F) → (⟨S512x512, .i1⟩ : BufTy).Contents (Elt F)),
    nullary main_c_4 (constantI S_ 1 0#1),
    binary main_v25 main_c_4 main_v27 ((fun x v => Host.reduce IntOp.ori x v reducesTo_S512x512_S512_d1 h_S_) : (⟨S512x512, .i1⟩ : BufTy).Contents (Elt F) → (⟨S_, .i1⟩ : BufTy).Contents (Elt F) → (⟨S512, .i1⟩ : BufTy).Contents (Elt F)),
    nullary main_cst_5 (constant S_ .f32 0x7F800000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S512x512, .f32⟩) main_call2_v1) (broadcastInDim S512x512 ![] bcast_S_S512x512),
    TRef.ternary (TRef.of (T := ⟨S512x512, .i1⟩) main_v26) (TRef.of (T := ⟨S512x512, .f32⟩) main_v13) (TRef.of (T := ⟨S512x512, .f32⟩) main_call2_v1) (TRef.of (T := ⟨S512x512, .f32⟩) main_v28) select,
    nullary main_cst_6 (constant S_ .f32 0x7F800000#32),
    binary main_v28 main_cst_6 main_v29 ((fun x v => Host.reduce FloatOps.minimumf x v reducesTo_S512x512_S512_d1 h_S_) : (⟨S512x512, .f32⟩ : BufTy).Contents (Elt F) → (⟨S_, .f32⟩ : BufTy).Contents (Elt F) → (⟨S512, .f32⟩ : BufTy).Contents (Elt F)) ]

/-- Operations 46 to 66: the two distance cubes, the two comparisons, the semi-hard bit, its count, and the difference of the cubes. -/
abbrev opsA3 : List (HloOp τ sig (Elt F)) :=
  [
    unary main_v13 main_v30 (broadcastInDim S512x512x1 ![0, 1] bcast_S512x512_S512x512x1_0_1 : (⟨S512x512, .f32⟩ : BufTy).Contents (Elt F) → (⟨S512x512x1, .f32⟩ : BufTy).Contents (Elt F)),
    unary main_v13 main_v31 (broadcastInDim S512x1x512 ![0, 2] bcast_S512x512_S512x1x512_0_2 : (⟨S512x512, .f32⟩ : BufTy).Contents (Elt F) → (⟨S512x1x512, .f32⟩ : BufTy).Contents (Elt F)),
    unary main_v26 main_v32 (broadcastInDim S512x1x512 ![0, 2] bcast_S512x512_S512x1x512_0_2 : (⟨S512x512, .i1⟩ : BufTy).Contents (Elt F) → (⟨S512x1x512, .i1⟩ : BufTy).Contents (Elt F)),
    nullary main_cst_7 (constant S_ .f32 0x3E99999A#32),
    unary main_cst_7 main_v33 (broadcastInDim S512x512x1 ![] bcast_S_S512x512x1 : (⟨S_, .f32⟩ : BufTy).Contents (Elt F) → (⟨S512x512x1, .f32⟩ : BufTy).Contents (Elt F)),
    binary main_v30 main_v33 main_v34 (addf : (⟨S512x512x1, .f32⟩ : BufTy).Contents (Elt F) → (⟨S512x512x1, .f32⟩ : BufTy).Contents (Elt F) → (⟨S512x512x1, .f32⟩ : BufTy).Contents (Elt F)),
    unary main_v31 main_v35 (broadcastInDim S512x512x512 ![0, 1, 2] bcast_S512x1x512_S512x512x512_0_1_2 : (⟨S512x1x512, .f32⟩ : BufTy).Contents (Elt F) → (⟨S512x512x512, .f32⟩ : BufTy).Contents (Elt F)),
    unary main_v34 main_v36 (broadcastInDim S512x512x512 ![0, 1, 2] bcast_S512x512x1_S512x512x512_0_1_2 : (⟨S512x512x1, .f32⟩ : BufTy).Contents (Elt F) → (⟨S512x512x512, .f32⟩ : BufTy).Contents (Elt F)),
    binary main_v35 main_v36 main_v37 (cmpf .olt : (⟨S512x512x512, .f32⟩ : BufTy).Contents (Elt F) → (⟨S512x512x512, .f32⟩ : BufTy).Contents (Elt F) → (⟨S512x512x512, .i1⟩ : BufTy).Contents (Elt F)),
    unary main_v32 main_v38 (broadcastInDim S512x512x512 ![0, 1, 2] bcast_S512x1x512_S512x512x512_0_1_2 : (⟨S512x1x512, .i1⟩ : BufTy).Contents (Elt F) → (⟨S512x512x512, .i1⟩ : BufTy).Contents (Elt F)),
    binary main_v38 main_v37 main_v39 (andi : (⟨S512x512x512, .i1⟩ : BufTy).Contents (Elt F) → (⟨S512x512x512, .i1⟩ : BufTy).Contents (Elt F) → (⟨S512x512x512, .i1⟩ : BufTy).Contents (Elt F)),
    unary main_v31 main_v40 (broadcastInDim S512x512x512 ![0, 1, 2] bcast_S512x1x512_S512x512x512_0_1_2 : (⟨S512x1x512, .f32⟩ : BufTy).Contents (Elt F) → (⟨S512x512x512, .f32⟩ : BufTy).Contents (Elt F)),
    unary main_v30 main_v41 (broadcastInDim S512x512x512 ![0, 1, 2] bcast_S512x512x1_S512x512x512_0_1_2 : (⟨S512x512x1, .f32⟩ : BufTy).Contents (Elt F) → (⟨S512x512x512, .f32⟩ : BufTy).Contents (Elt F)),
    binary main_v40 main_v41 main_v42 (cmpf .ogt : (⟨S512x512x512, .f32⟩ : BufTy).Contents (Elt F) → (⟨S512x512x512, .f32⟩ : BufTy).Contents (Elt F) → (⟨S512x512x512, .i1⟩ : BufTy).Contents (Elt F)),
    binary main_v39 main_v42 main_v43 (andi : (⟨S512x512x512, .i1⟩ : BufTy).Contents (Elt F) → (⟨S512x512x512, .i1⟩ : BufTy).Contents (Elt F) → (⟨S512x512x512, .i1⟩ : BufTy).Contents (Elt F)),
    unary main_v43 main_v44 ((extui 32 · natLt_1_32) : (⟨S512x512x512, .i1⟩ : BufTy).Contents (Elt F) → (⟨S512x512x512, .i32⟩ : BufTy).Contents (Elt F)),
    nullary main_c_8 (constantI S_ 32 0#32),
    binary main_v44 main_c_8 main_v45 ((fun x v => Host.reduce IntOp.addi x v reducesTo_S512x512x512_S512x512_d2 h_S_) : (⟨S512x512x512, .i32⟩ : BufTy).Contents (Elt F) → (⟨S_, .i32⟩ : BufTy).Contents (Elt F) → (⟨S512x512, .i32⟩ : BufTy).Contents (Elt F)),
    unary main_v30 main_v46 (broadcastInDim S512x512x512 ![0, 1, 2] bcast_S512x512x1_S512x512x512_0_1_2 : (⟨S512x512x1, .f32⟩ : BufTy).Contents (Elt F) → (⟨S512x512x512, .f32⟩ : BufTy).Contents (Elt F)),
    unary main_v31 main_v47 (broadcastInDim S512x512x512 ![0, 1, 2] bcast_S512x1x512_S512x512x512_0_1_2 : (⟨S512x1x512, .f32⟩ : BufTy).Contents (Elt F) → (⟨S512x512x512, .f32⟩ : BufTy).Contents (Elt F)),
    binary main_v46 main_v47 main_v48 (subf : (⟨S512x512x512, .f32⟩ : BufTy).Contents (Elt F) → (⟨S512x512x512, .f32⟩ : BufTy).Contents (Elt F) → (⟨S512x512x512, .f32⟩ : BufTy).Contents (Elt F)) ]

/-- The first sixty-six operations. -/
abbrev opsA : List (HloOp τ sig (Elt F)) := opsA1 ++ opsA2 ++ opsA3

/-! ## Stretch 1 -/

theorem a1_v13 (W : Valuation τ sig (Elt F)) (x0 : (⟨S512x256, .f32⟩ : BufTy).Contents (Elt F)) (x1 : (⟨S512, .i32⟩ : BufTy).Contents (Elt F))
    (h_arg0 : W (Proc.devRef .tc main_arg0) = x0) :
    after opsA1 W (Proc.devRef .tc main_v13) = ReadP.val_main_v13 (F := F) x0 := by
  after_results_simp
  try simp only [TRef.toBuf, TRef.ofBuf, cast_eq, id]
  try simp only [h_arg0]
  try rfl

theorem a1_keep_arg0 (W : Valuation τ sig (Elt F)) :
    after opsA1 W (Proc.devRef .tc main_arg0) = W (Proc.devRef .tc main_arg0) := by
  after_results_simp

theorem a1_keep_arg1 (W : Valuation τ sig (Elt F)) :
    after opsA1 W (Proc.devRef .tc main_arg1) = W (Proc.devRef .tc main_arg1) := by
  after_results_simp

/-! ## Stretch 2 -/

theorem a2_v25 (W : Valuation τ sig (Elt F)) (x0 : (⟨S512x256, .f32⟩ : BufTy).Contents (Elt F)) (x1 : (⟨S512, .i32⟩ : BufTy).Contents (Elt F))
    (h_arg1 : W (Proc.devRef .tc main_arg1) = x1) :
    after opsA2 W (Proc.devRef .tc main_v25) = ReadP.val_main_v25 (F := F) x1 := by
  after_results_simp
  try simp only [TRef.toBuf, TRef.ofBuf, cast_eq, id]
  try simp only [h_arg1]
  try rfl

theorem a2_v26 (W : Valuation τ sig (Elt F)) (x0 : (⟨S512x256, .f32⟩ : BufTy).Contents (Elt F)) (x1 : (⟨S512, .i32⟩ : BufTy).Contents (Elt F))
    (h_arg1 : W (Proc.devRef .tc main_arg1) = x1) :
    after opsA2 W (Proc.devRef .tc main_v26) = ReadP.val_main_v26 (F := F) x1 := by
  after_results_simp
  try simp only [TRef.toBuf, TRef.ofBuf, cast_eq, id]
  try simp only [h_arg1]
  try rfl

theorem a2_v27 (W : Valuation τ sig (Elt F)) (x0 : (⟨S512x256, .f32⟩ : BufTy).Contents (Elt F)) (x1 : (⟨S512, .i32⟩ : BufTy).Contents (Elt F))
    (h_arg1 : W (Proc.devRef .tc main_arg1) = x1) :
    after opsA2 W (Proc.devRef .tc main_v27) = ReadP.val_main_v27 (F := F) x1 := by
  after_results_simp
  try simp only [TRef.toBuf, TRef.ofBuf, cast_eq, id]
  try simp only [h_arg1]
  try rfl

theorem a2_v29 (W : Valuation τ sig (Elt F)) (x0 : (⟨S512x256, .f32⟩ : BufTy).Contents (Elt F)) (x1 : (⟨S512, .i32⟩ : BufTy).Contents (Elt F))
    (h_v13 : W (Proc.devRef .tc main_v13) = ReadP.val_main_v13 (F := F) x0) (h_arg1 : W (Proc.devRef .tc main_arg1) = x1) :
    after opsA2 W (Proc.devRef .tc main_v29) = ReadP.val_main_v29 (F := F) x0 x1 := by
  after_results_simp
  try simp only [TRef.toBuf, TRef.ofBuf, cast_eq, id]
  try simp only [h_v13, h_arg1]
  try rfl

theorem a2_keep_v13 (W : Valuation τ sig (Elt F)) :
    after opsA2 W (Proc.devRef .tc main_v13) = W (Proc.devRef .tc main_v13) := by
  after_results_simp

theorem a2_keep_arg0 (W : Valuation τ sig (Elt F)) :
    after opsA2 W (Proc.devRef .tc main_arg0) = W (Proc.devRef .tc main_arg0) := by
  after_results_simp

theorem a2_keep_arg1 (W : Valuation τ sig (Elt F)) :
    after opsA2 W (Proc.devRef .tc main_arg1) = W (Proc.devRef .tc main_arg1) := by
  after_results_simp

/-! ## Stretch 3 -/

theorem a3_v43 (W : Valuation τ sig (Elt F)) (x0 : (⟨S512x256, .f32⟩ : BufTy).Contents (Elt F)) (x1 : (⟨S512, .i32⟩ : BufTy).Contents (Elt F))
    (h_v13 : W (Proc.devRef .tc main_v13) = ReadP.val_main_v13 (F := F) x0) (h_v26 : W (Proc.devRef .tc main_v26) = ReadP.val_main_v26 (F := F) x1) :
    after opsA3 W (Proc.devRef .tc main_v43) = ReadP.val_main_v43 (F := F) x0 x1 := by
  after_results_simp
  try simp only [TRef.toBuf, TRef.ofBuf, cast_eq, id]
  try simp only [h_v13, h_v26]
  try rfl

theorem a3_v45 (W : Valuation τ sig (Elt F)) (x0 : (⟨S512x256, .f32⟩ : BufTy).Contents (Elt F)) (x1 : (⟨S512, .i32⟩ : BufTy).Contents (Elt F))
    (h_v13 : W (Proc.devRef .tc main_v13) = ReadP.val_main_v13 (F := F) x0) (h_v26 : W (Proc.devRef .tc main_v26) = ReadP.val_main_v26 (F := F) x1) :
    after opsA3 W (Proc.devRef .tc main_v45) = ReadP.val_main_v45 (F := F) x0 x1 := by
  after_results_simp
  try simp only [TRef.toBuf, TRef.ofBuf, cast_eq, id]
  try simp only [h_v13, h_v26]
  try rfl

theorem a3_v48 (W : Valuation τ sig (Elt F)) (x0 : (⟨S512x256, .f32⟩ : BufTy).Contents (Elt F)) (x1 : (⟨S512, .i32⟩ : BufTy).Contents (Elt F))
    (h_v13 : W (Proc.devRef .tc main_v13) = ReadP.val_main_v13 (F := F) x0) :
    after opsA3 W (Proc.devRef .tc main_v48) = ReadP.val_main_v48 (F := F) x0 := by
  after_results_simp
  try simp only [TRef.toBuf, TRef.ofBuf, cast_eq, id]
  try simp only [h_v13]
  try rfl

theorem a3_keep_v13 (W : Valuation τ sig (Elt F)) :
    after opsA3 W (Proc.devRef .tc main_v13) = W (Proc.devRef .tc main_v13) := by
  after_results_simp

theorem a3_keep_v25 (W : Valuation τ sig (Elt F)) :
    after opsA3 W (Proc.devRef .tc main_v25) = W (Proc.devRef .tc main_v25) := by
  after_results_simp

theorem a3_keep_v27 (W : Valuation τ sig (Elt F)) :
    after opsA3 W (Proc.devRef .tc main_v27) = W (Proc.devRef .tc main_v27) := by
  after_results_simp

theorem a3_keep_v29 (W : Valuation τ sig (Elt F)) :
    after opsA3 W (Proc.devRef .tc main_v29) = W (Proc.devRef .tc main_v29) := by
  after_results_simp

theorem a3_keep_arg0 (W : Valuation τ sig (Elt F)) :
    after opsA3 W (Proc.devRef .tc main_arg0) = W (Proc.devRef .tc main_arg0) := by
  after_results_simp

theorem a3_keep_arg1 (W : Valuation τ sig (Elt F)) :
    after opsA3 W (Proc.devRef .tc main_arg1) = W (Proc.devRef .tc main_arg1) := by
  after_results_simp

/-! ## The three stretches in a row -/

/-- After the first sixty-six operations, from any contents `V`: the seven buffers the rest of the program reads hold
    their stages of the two arguments as `V` has them, and the arguments are unchanged. -/
theorem opsA_inv (V : Valuation τ sig (Elt F)) :
    after opsA V (Proc.devRef .tc main_v48) = ReadP.val_main_v48 (F := F) (V (Proc.devRef .tc main_arg0))
    ∧ after opsA V (Proc.devRef .tc main_v43) = ReadP.val_main_v43 (F := F) (V (Proc.devRef .tc main_arg0)) (V (Proc.devRef .tc main_arg1))
    ∧ after opsA V (Proc.devRef .tc main_v29) = ReadP.val_main_v29 (F := F) (V (Proc.devRef .tc main_arg0)) (V (Proc.devRef .tc main_arg1))
    ∧ after opsA V (Proc.devRef .tc main_v13) = ReadP.val_main_v13 (F := F) (V (Proc.devRef .tc main_arg0))
    ∧ after opsA V (Proc.devRef .tc main_v45) = ReadP.val_main_v45 (F := F) (V (Proc.devRef .tc main_arg0)) (V (Proc.devRef .tc main_arg1))
    ∧ after opsA V (Proc.devRef .tc main_v27) = ReadP.val_main_v27 (F := F) (V (Proc.devRef .tc main_arg1))
    ∧ after opsA V (Proc.devRef .tc main_v25) = ReadP.val_main_v25 (F := F) (V (Proc.devRef .tc main_arg1))
    ∧ after opsA V (Proc.devRef .tc main_arg0) = V (Proc.devRef .tc main_arg0)
    ∧ after opsA V (Proc.devRef .tc main_arg1) = V (Proc.devRef .tc main_arg1) := by
  show after (opsA1 ++ opsA2 ++ opsA3) V _ = _ ∧ after (opsA1 ++ opsA2 ++ opsA3) V _ = _ ∧ after (opsA1 ++ opsA2 ++ opsA3) V _ = _
    ∧ after (opsA1 ++ opsA2 ++ opsA3) V _ = _ ∧ after (opsA1 ++ opsA2 ++ opsA3) V _ = _ ∧ after (opsA1 ++ opsA2 ++ opsA3) V _ = _
    ∧ after (opsA1 ++ opsA2 ++ opsA3) V _ = _ ∧ after (opsA1 ++ opsA2 ++ opsA3) V _ = _ ∧ after (opsA1 ++ opsA2 ++ opsA3) V _ = _
  simp only [StableHlo.after_append]
  -- after stretch 1
  have w1_arg0 := a1_keep_arg0 V
  have w1_arg1 := a1_keep_arg1 V
  have w1_v13 := a1_v13 V (V (Proc.devRef .tc main_arg0)) (V (Proc.devRef .tc main_arg1)) rfl
  -- after stretch 2
  have w2_arg0 := (a2_keep_arg0 (after opsA1 V)).trans w1_arg0
  have w2_arg1 := (a2_keep_arg1 (after opsA1 V)).trans w1_arg1
  have w2_v13 := (a2_keep_v13 (after opsA1 V)).trans w1_v13
  have w2_v25 := a2_v25 (after opsA1 V) (V (Proc.devRef .tc main_arg0)) (V (Proc.devRef .tc main_arg1)) w1_arg1
  have w2_v26 := a2_v26 (after opsA1 V) (V (Proc.devRef .tc main_arg0)) (V (Proc.devRef .tc main_arg1)) w1_arg1
  have w2_v27 := a2_v27 (after opsA1 V) (V (Proc.devRef .tc main_arg0)) (V (Proc.devRef .tc main_arg1)) w1_arg1
  have w2_v29 := a2_v29 (after opsA1 V) (V (Proc.devRef .tc main_arg0)) (V (Proc.devRef .tc main_arg1)) w1_v13 w1_arg1
  -- after stretch 3
  exact ⟨a3_v48 _ (V (Proc.devRef .tc main_arg0)) (V (Proc.devRef .tc main_arg1)) w2_v13,
    a3_v43 _ (V (Proc.devRef .tc main_arg0)) (V (Proc.devRef .tc main_arg1)) w2_v13 w2_v26,
    (a3_keep_v29 _).trans w2_v29,
    (a3_keep_v13 _).trans w2_v13,
    a3_v45 _ (V (Proc.devRef .tc main_arg0)) (V (Proc.devRef .tc main_arg1)) w2_v13 w2_v26,
    (a3_keep_v27 _).trans w2_v27,
    (a3_keep_v25 _).trans w2_v25,
    (a3_keep_arg0 _).trans w2_arg0,
    (a3_keep_arg1 _).trans w2_arg1⟩

end Cert.ReferenceIdeal.ValueS

end
-- ==== Proof.Ref.RunS2.lean ====
/-
  The reference program's run, second half: the operations from the triplet hinge on (the masked hinge sum, the
  fallback through the hardest negative, the per-pair loss and count, the two masked totals and the guarded quotient),
  read in stretches. Each stretch is read over arbitrary contents before it: given that the buffers it reads hold
  their stage values as functions of the two arguments, the buffers it writes hold theirs, and the buffers later
  stretches still read keep theirs.
-/
import proofs.«108628_j44933947851025_1_alg».proof.Proof.Ref.Read
import Idealize.ShloMosaic.Lib.StableHlo.Run
import Idealize.ShloMosaic.Lib.Pipeline.Frame

noncomputable section

namespace Cert.ReferenceIdeal.ValueS

open Cert.ReferenceIdeal Cert.ReferenceIdeal.Gen Idealize.ShloMosaic Idealize.ShloMosaic.TcCoe Idealize.SL.Sem Idealize.ShloMosaic.StableHlo

variable {F : FTy → Type} [FloatOps F]

/-- The hinge of every triplet, masked by the semi-hard condition and summed over the negatives. -/
abbrev opsB1 : List (HloOp τ sig (Elt F)) :=
  [ nullary main_cst_9 (constant S_ .f32 0x3E99999A#32),
    unary main_cst_9 main_v49 (broadcastInDim S512x512x512 ![] bcast_S_S512x512x512 : (⟨S_, .f32⟩ : BufTy).Contents (Elt F) → (⟨S512x512x512, .f32⟩ : BufTy).Contents (Elt F)),
    binary main_v48 main_v49 main_v50 (addf : (⟨S512x512x512, .f32⟩ : BufTy).Contents (Elt F) → (⟨S512x512x512, .f32⟩ : BufTy).Contents (Elt F) → (⟨S512x512x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x512x512, .f32⟩) main_call3_v0) (broadcastInDim S512x512x512 ![] bcast_S_S512x512x512),
    TRef.binary (TRef.of (T := ⟨S512x512x512, .f32⟩) main_v50) (TRef.of (T := ⟨S512x512x512, .f32⟩) main_call3_v0) (TRef.of (T := ⟨S512x512x512, .f32⟩) main_v51) maximumf,
    nullary main_cst_10 (constant S_ .f32 0x00000000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S512x512x512, .f32⟩) main_call4_v1) (broadcastInDim S512x512x512 ![] bcast_S_S512x512x512),
    TRef.ternary (TRef.of (T := ⟨S512x512x512, .i1⟩) main_v43) (TRef.of (T := ⟨S512x512x512, .f32⟩) main_v51) (TRef.of (T := ⟨S512x512x512, .f32⟩) main_call4_v1) (TRef.of (T := ⟨S512x512x512, .f32⟩) main_v52) select,
    nullary main_cst_11 (constant S_ .f32 0x00000000#32),
    binary main_v52 main_cst_11 main_v53 ((fun x v => Host.reduceAdd x v reducesTo_S512x512x512_S512x512_d2 h_S_) : (⟨S512x512x512, .f32⟩ : BufTy).Contents (Elt F) → (⟨S_, .f32⟩ : BufTy).Contents (Elt F) → (⟨S512x512, .f32⟩ : BufTy).Contents (Elt F)) ]

/-- The fallback hinge against the hardest negative. -/
abbrev opsB2 : List (HloOp τ sig (Elt F)) :=
  [ unary main_v29 main_v54 (broadcastInDim S512x1 ![0] bcast_S512_S512x1_0 : (⟨S512, .f32⟩ : BufTy).Contents (Elt F) → (⟨S512x1, .f32⟩ : BufTy).Contents (Elt F)),
    unary main_v54 main_v55 (broadcastInDim S512x512 ![0, 1] bcast_S512x1_S512x512_0_1 : (⟨S512x1, .f32⟩ : BufTy).Contents (Elt F) → (⟨S512x512, .f32⟩ : BufTy).Contents (Elt F)),
    binary main_v13 main_v55 main_v56 (subf : (⟨S512x512, .f32⟩ : BufTy).Contents (Elt F) → (⟨S512x512, .f32⟩ : BufTy).Contents (Elt F) → (⟨S512x512, .f32⟩ : BufTy).Contents (Elt F)),
    nullary main_cst_12 (constant S_ .f32 0x3E99999A#32),
    unary main_cst_12 main_v57 (broadcastInDim S512x512 ![] bcast_S_S512x512 : (⟨S_, .f32⟩ : BufTy).Contents (Elt F) → (⟨S512x512, .f32⟩ : BufTy).Contents (Elt F)),
    binary main_v56 main_v57 main_v58 (addf : (⟨S512x512, .f32⟩ : BufTy).Contents (Elt F) → (⟨S512x512, .f32⟩ : BufTy).Contents (Elt F) → (⟨S512x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S512x512, .f32⟩) main_call5_v0) (broadcastInDim S512x512 ![] bcast_S_S512x512),
    TRef.binary (TRef.of (T := ⟨S512x512, .f32⟩) main_v58) (TRef.of (T := ⟨S512x512, .f32⟩) main_call5_v0) (TRef.of (T := ⟨S512x512, .f32⟩) main_v59) maximumf ]

/-- The per-pair loss: the summed hinges where there is a semi-hard negative, else the positive part of the fallback. -/
abbrev opsB3 : List (HloOp τ sig (Elt F)) :=
  [ nullary main_c_13 (constantI S_ 32 0#32),
    unary main_c_13 main_v60 (broadcastInDim S512x512 ![] bcast_S_S512x512 : (⟨S_, .i32⟩ : BufTy).Contents (Elt F) → (⟨S512x512, .i32⟩ : BufTy).Contents (Elt F)),
    binary main_v45 main_v60 main_v61 (cmpi .sgt : (⟨S512x512, .i32⟩ : BufTy).Contents (Elt F) → (⟨S512x512, .i32⟩ : BufTy).Contents (Elt F) → (⟨S512x512, .i1⟩ : BufTy).Contents (Elt F)),
    nullary main_cst_14 (constant S_ .f32 0x00000000#32),
    unary main_cst_14 main_v62 (broadcastInDim S512x512 ![] bcast_S_S512x512 : (⟨S_, .f32⟩ : BufTy).Contents (Elt F) → (⟨S512x512, .f32⟩ : BufTy).Contents (Elt F)),
    binary main_v59 main_v62 main_v63 (cmpf .ogt : (⟨S512x512, .f32⟩ : BufTy).Contents (Elt F) → (⟨S512x512, .f32⟩ : BufTy).Contents (Elt F) → (⟨S512x512, .i1⟩ : BufTy).Contents (Elt F)),
    nullary main_cst_15 (constant S_ .f32 0x00000000#32),
    TRef.unary (TRef.of (T := ⟨S_, .f32⟩) main_cst_15) (TRef.of (T := ⟨S_, .f32⟩) main_call6_v0) id,
    TRef.unary (TRef.of (T := ⟨S_, .f32⟩) main_call6_v0) (TRef.of (T := ⟨S512x512, .f32⟩) main_call6_v1) (broadcastInDim S512x512 ![] bcast_S_S512x512),
    TRef.ternary (TRef.of (T := ⟨S512x512, .i1⟩) main_v63) (TRef.of (T := ⟨S512x512, .f32⟩) main_v59) (TRef.of (T := ⟨S512x512, .f32⟩) main_call6_v1) (TRef.of (T := ⟨S512x512, .f32⟩) main_v64) select,
    TRef.ternary (TRef.of (T := ⟨S512x512, .i1⟩) main_v61) (TRef.of (T := ⟨S512x512, .f32⟩) main_v53) (TRef.of (T := ⟨S512x512, .f32⟩) main_v64) (TRef.of (T := ⟨S512x512, .f32⟩) main_v65) select ]

/-- The per-pair triplet count: the semi-hard count where positive, else whether the fallback is positive. -/
abbrev opsB4 : List (HloOp τ sig (Elt F)) :=
  [ nullary main_c_16 (constantI S_ 32 0#32),
    unary main_c_16 main_v66 (broadcastInDim S512x512 ![] bcast_S_S512x512 : (⟨S_, .i32⟩ : BufTy).Contents (Elt F) → (⟨S512x512, .i32⟩ : BufTy).Contents (Elt F)),
    binary main_v45 main_v66 main_v67 (cmpi .sgt : (⟨S512x512, .i32⟩ : BufTy).Contents (Elt F) → (⟨S512x512, .i32⟩ : BufTy).Contents (Elt F) → (⟨S512x512, .i1⟩ : BufTy).Contents (Elt F)),
    nullary main_cst_17 (constant S_ .f32 0x00000000#32),
    unary main_cst_17 main_v68 (broadcastInDim S512x512 ![] bcast_S_S512x512 : (⟨S_, .f32⟩ : BufTy).Contents (Elt F) → (⟨S512x512, .f32⟩ : BufTy).Contents (Elt F)),
    binary main_v59 main_v68 main_v69 (cmpf .ogt : (⟨S512x512, .f32⟩ : BufTy).Contents (Elt F) → (⟨S512x512, .f32⟩ : BufTy).Contents (Elt F) → (⟨S512x512, .i1⟩ : BufTy).Contents (Elt F)),
    unary main_v69 main_v70 ((extui 32 · natLt_1_32) : (⟨S512x512, .i1⟩ : BufTy).Contents (Elt F) → (⟨S512x512, .i32⟩ : BufTy).Contents (Elt F)),
    TRef.ternary (TRef.of (T := ⟨S512x512, .i1⟩) main_v67) (TRef.of (T := ⟨S512x512, .i32⟩) main_v45) (TRef.of (T := ⟨S512x512, .i32⟩) main_v70) (TRef.of (T := ⟨S512x512, .i32⟩) main_v71) select ]

/-- The pairs' mask, the masked loss and its total, the masked count. -/
abbrev opsB5 : List (HloOp τ sig (Elt F)) :=
  [ unary main_v27 main_v72 (broadcastInDim S512x1 ![0] bcast_S512_S512x1_0 : (⟨S512, .i1⟩ : BufTy).Contents (Elt F) → (⟨S512x1, .i1⟩ : BufTy).Contents (Elt F)),
    unary main_v72 main_v73 (broadcastInDim S512x512 ![0, 1] bcast_S512x1_S512x512_0_1 : (⟨S512x1, .i1⟩ : BufTy).Contents (Elt F) → (⟨S512x512, .i1⟩ : BufTy).Contents (Elt F)),
    binary main_v25 main_v73 main_v74 (andi : (⟨S512x512, .i1⟩ : BufTy).Contents (Elt F) → (⟨S512x512, .i1⟩ : BufTy).Contents (Elt F) → (⟨S512x512, .i1⟩ : BufTy).Contents (Elt F)),
    nullary main_cst_18 (constant S_ .f32 0x00000000#32),
    TRef.unary (TRef.of (T := ⟨S_, .f32⟩) main_cst_18) (TRef.of (T := ⟨S_, .f32⟩) main_call9_v0) id,
    TRef.unary (TRef.of (T := ⟨S_, .f32⟩) main_call9_v0) (TRef.of (T := ⟨S512x512, .f32⟩) main_call9_v1) (broadcastInDim S512x512 ![] bcast_S_S512x512),
    TRef.ternary (TRef.of (T := ⟨S512x512, .i1⟩) main_v74) (TRef.of (T := ⟨S512x512, .f32⟩) main_v65) (TRef.of (T := ⟨S512x512, .f32⟩) main_call9_v1) (TRef.of (T := ⟨S512x512, .f32⟩) main_v75) select,
    nullary main_cst_19 (constant S_ .f32 0x00000000#32),
    binary main_v75 main_cst_19 main_v76 ((fun x v => Host.reduceAdd x v reducesTo_S512x512_S_d0_1 h_S_) : (⟨S512x512, .f32⟩ : BufTy).Contents (Elt F) → (⟨S_, .f32⟩ : BufTy).Contents (Elt F) → (⟨S_, .f32⟩ : BufTy).Contents (Elt F)),
    nullary main_c_20 (constantI S_ 32 0#32),
    TRef.unary (TRef.of (T := ⟨S_, .i32⟩) main_c_20) (TRef.of (T := ⟨S_, .i32⟩) main_call10_v0) id,
    TRef.unary (TRef.of (T := ⟨S_, .i32⟩) main_call10_v0) (TRef.of (T := ⟨S512x512, .i32⟩) main_call10_v1) (broadcastInDim S512x512 ![] bcast_S_S512x512),
    TRef.ternary (TRef.of (T := ⟨S512x512, .i1⟩) main_v74) (TRef.of (T := ⟨S512x512, .i32⟩) main_v71) (TRef.of (T := ⟨S512x512, .i32⟩) main_call10_v1) (TRef.of (T := ⟨S512x512, .i32⟩) main_v77) select ]

/-- The total count, its sign test and the quotient. -/
abbrev opsB6 : List (HloOp τ sig (Elt F)) :=
  [ nullary main_c_21 (constantI S_ 32 0#32),
    binary main_v77 main_c_21 main_v78 ((fun x v => Host.reduce IntOp.addi x v reducesTo_S512x512_S_d0_1 h_S_) : (⟨S512x512, .i32⟩ : BufTy).Contents (Elt F) → (⟨S_, .i32⟩ : BufTy).Contents (Elt F) → (⟨S_, .i32⟩ : BufTy).Contents (Elt F)),
    nullary main_c_22 (constantI S_ 32 0#32),
    binary main_v78 main_c_22 main_v79 (cmpi .sgt : (⟨S_, .i32⟩ : BufTy).Contents (Elt F) → (⟨S_, .i32⟩ : BufTy).Contents (Elt F) → (⟨S_, .i1⟩ : BufTy).Contents (Elt F)),
    unary main_v78 main_v80 (sitofp .f32 : (⟨S_, .i32⟩ : BufTy).Contents (Elt F) → (⟨S_, .f32⟩ : BufTy).Contents (Elt F)),
    binary main_v76 main_v80 main_v81 (Host.divf : (⟨S_, .f32⟩ : BufTy).Contents (Elt F) → (⟨S_, .f32⟩ : BufTy).Contents (Elt F) → (⟨S_, .f32⟩ : BufTy).Contents (Elt F)) ]

/-- The guard on the quotient. -/
abbrev opsB7 : List (HloOp τ sig (Elt F)) :=
  [ nullary main_cst_23 (constant S_ .f32 0x00000000#32),
    TRef.unary (TRef.of (T := ⟨S_, .f32⟩) main_cst_23) (TRef.of (T := ⟨S_, .f32⟩) main_call11_v0) id,
    TRef.ternary (TRef.of (T := ⟨S_, .i1⟩) main_v79) (TRef.of (T := ⟨S_, .f32⟩) main_v81) (TRef.of (T := ⟨S_, .f32⟩) main_call11_v0) (TRef.of (T := ⟨S_, .f32⟩) main_v82) select ]

/-- The first stretch: the summed hinges. -/
theorem stepB1 (W : Valuation τ sig (Elt F)) (x0 : (⟨S512x256, .f32⟩ : BufTy).Contents (Elt F)) (x1 : (⟨S512, .i32⟩ : BufTy).Contents (Elt F))
    (h48 : W (Proc.devRef .tc main_v48) = ReadP.val_main_v48 (F := F) x0)
    (h43 : W (Proc.devRef .tc main_v43) = ReadP.val_main_v43 (F := F) x0 x1)
    (h29 : W (Proc.devRef .tc main_v29) = ReadP.val_main_v29 (F := F) x0 x1)
    (h13 : W (Proc.devRef .tc main_v13) = ReadP.val_main_v13 (F := F) x0)
    (h45 : W (Proc.devRef .tc main_v45) = ReadP.val_main_v45 (F := F) x0 x1)
    (h27 : W (Proc.devRef .tc main_v27) = ReadP.val_main_v27 (F := F) x1)
    (h25 : W (Proc.devRef .tc main_v25) = ReadP.val_main_v25 (F := F) x1) :
    after opsB1 W (Proc.devRef .tc main_v53) = ReadP.val_main_v53 (F := F) x0 x1
      ∧ after opsB1 W (Proc.devRef .tc main_v29) = ReadP.val_main_v29 (F := F) x0 x1
      ∧ after opsB1 W (Proc.devRef .tc main_v13) = ReadP.val_main_v13 (F := F) x0
      ∧ after opsB1 W (Proc.devRef .tc main_v45) = ReadP.val_main_v45 (F := F) x0 x1
      ∧ after opsB1 W (Proc.devRef .tc main_v27) = ReadP.val_main_v27 (F := F) x1
      ∧ after opsB1 W (Proc.devRef .tc main_v25) = ReadP.val_main_v25 (F := F) x1 := by
  refine ⟨?_, ?_, ?_, ?_, ?_, ?_⟩
  · after_results_simp
    try simp only [TRef.toBuf, TRef.ofBuf, cast_eq, id]
    try simp only [h48, h43, h29, h13, h45, h27, h25]
    try rfl
  · after_results_simp
    exact h29
  · after_results_simp
    exact h13
  · after_results_simp
    exact h45
  · after_results_simp
    exact h27
  · after_results_simp
    exact h25

/-- The second stretch: the fallback hinge. -/
theorem stepB2 (W : Valuation τ sig (Elt F)) (x0 : (⟨S512x256, .f32⟩ : BufTy).Contents (Elt F)) (x1 : (⟨S512, .i32⟩ : BufTy).Contents (Elt F))
    (h53 : W (Proc.devRef .tc main_v53) = ReadP.val_main_v53 (F := F) x0 x1)
    (h29 : W (Proc.devRef .tc main_v29) = ReadP.val_main_v29 (F := F) x0 x1)
    (h13 : W (Proc.devRef .tc main_v13) = ReadP.val_main_v13 (F := F) x0)
    (h45 : W (Proc.devRef .tc main_v45) = ReadP.val_main_v45 (F := F) x0 x1)
    (h27 : W (Proc.devRef .tc main_v27) = ReadP.val_main_v27 (F := F) x1)
    (h25 : W (Proc.devRef .tc main_v25) = ReadP.val_main_v25 (F := F) x1) :
    after opsB2 W (Proc.devRef .tc main_v59) = ReadP.val_main_v59 (F := F) x0 x1
      ∧ after opsB2 W (Proc.devRef .tc main_v53) = ReadP.val_main_v53 (F := F) x0 x1
      ∧ after opsB2 W (Proc.devRef .tc main_v45) = ReadP.val_main_v45 (F := F) x0 x1
      ∧ after opsB2 W (Proc.devRef .tc main_v27) = ReadP.val_main_v27 (F := F) x1
      ∧ after opsB2 W (Proc.devRef .tc main_v25) = ReadP.val_main_v25 (F := F) x1 := by
  refine ⟨?_, ?_, ?_, ?_, ?_⟩
  · after_results_simp
    try simp only [TRef.toBuf, TRef.ofBuf, cast_eq, id]
    try simp only [h53, h29, h13, h45, h27, h25]
    try rfl
  · after_results_simp
    exact h53
  · after_results_simp
    exact h45
  · after_results_simp
    exact h27
  · after_results_simp
    exact h25

/-- The third stretch: the per-pair loss. -/
theorem stepB3 (W : Valuation τ sig (Elt F)) (x0 : (⟨S512x256, .f32⟩ : BufTy).Contents (Elt F)) (x1 : (⟨S512, .i32⟩ : BufTy).Contents (Elt F))
    (h53 : W (Proc.devRef .tc main_v53) = ReadP.val_main_v53 (F := F) x0 x1)
    (h59 : W (Proc.devRef .tc main_v59) = ReadP.val_main_v59 (F := F) x0 x1)
    (h45 : W (Proc.devRef .tc main_v45) = ReadP.val_main_v45 (F := F) x0 x1)
    (h27 : W (Proc.devRef .tc main_v27) = ReadP.val_main_v27 (F := F) x1)
    (h25 : W (Proc.devRef .tc main_v25) = ReadP.val_main_v25 (F := F) x1) :
    after opsB3 W (Proc.devRef .tc main_v65) = ReadP.val_main_v65 (F := F) x0 x1
      ∧ after opsB3 W (Proc.devRef .tc main_v59) = ReadP.val_main_v59 (F := F) x0 x1
      ∧ after opsB3 W (Proc.devRef .tc main_v45) = ReadP.val_main_v45 (F := F) x0 x1
      ∧ after opsB3 W (Proc.devRef .tc main_v27) = ReadP.val_main_v27 (F := F) x1
      ∧ after opsB3 W (Proc.devRef .tc main_v25) = ReadP.val_main_v25 (F := F) x1 := by
  refine ⟨?_, ?_, ?_, ?_, ?_⟩
  · after_results_simp
    try simp only [TRef.toBuf, TRef.ofBuf, cast_eq, id]
    try simp only [h53, h59, h45, h27, h25]
    try rfl
  · after_results_simp
    exact h59
  · after_results_simp
    exact h45
  · after_results_simp
    exact h27
  · after_results_simp
    exact h25

/-- The fourth stretch: the per-pair count. -/
theorem stepB4 (W : Valuation τ sig (Elt F)) (x0 : (⟨S512x256, .f32⟩ : BufTy).Contents (Elt F)) (x1 : (⟨S512, .i32⟩ : BufTy).Contents (Elt F))
    (h65 : W (Proc.devRef .tc main_v65) = ReadP.val_main_v65 (F := F) x0 x1)
    (h59 : W (Proc.devRef .tc main_v59) = ReadP.val_main_v59 (F := F) x0 x1)
    (h45 : W (Proc.devRef .tc main_v45) = ReadP.val_main_v45 (F := F) x0 x1)
    (h27 : W (Proc.devRef .tc main_v27) = ReadP.val_main_v27 (F := F) x1)
    (h25 : W (Proc.devRef .tc main_v25) = ReadP.val_main_v25 (F := F) x1) :
    after opsB4 W (Proc.devRef .tc main_v71) = ReadP.val_main_v71 (F := F) x0 x1
      ∧ after opsB4 W (Proc.devRef .tc main_v65) = ReadP.val_main_v65 (F := F) x0 x1
      ∧ after opsB4 W (Proc.devRef .tc main_v27) = ReadP.val_main_v27 (F := F) x1
      ∧ after opsB4 W (Proc.devRef .tc main_v25) = ReadP.val_main_v25 (F := F) x1 := by
  refine ⟨?_, ?_, ?_, ?_⟩
  · after_results_simp
    try simp only [TRef.toBuf, TRef.ofBuf, cast_eq, id]
    try simp only [h65, h59, h45, h27, h25]
    try rfl
  · after_results_simp
    exact h65
  · after_results_simp
    exact h27
  · after_results_simp
    exact h25

/-- The fifth stretch: the masked total loss and the masked counts. -/
theorem stepB5 (W : Valuation τ sig (Elt F)) (x0 : (⟨S512x256, .f32⟩ : BufTy).Contents (Elt F)) (x1 : (⟨S512, .i32⟩ : BufTy).Contents (Elt F))
    (h65 : W (Proc.devRef .tc main_v65) = ReadP.val_main_v65 (F := F) x0 x1)
    (h71 : W (Proc.devRef .tc main_v71) = ReadP.val_main_v71 (F := F) x0 x1)
    (h27 : W (Proc.devRef .tc main_v27) = ReadP.val_main_v27 (F := F) x1)
    (h25 : W (Proc.devRef .tc main_v25) = ReadP.val_main_v25 (F := F) x1) :
    after opsB5 W (Proc.devRef .tc main_v76) = ReadP.val_main_v76 (F := F) x0 x1
      ∧ after opsB5 W (Proc.devRef .tc main_v77) = ReadP.val_main_v77 (F := F) x0 x1 := by
  refine ⟨?_, ?_⟩
  · after_results_simp
    try simp only [TRef.toBuf, TRef.ofBuf, cast_eq, id]
    try simp only [h65, h71, h27, h25]
    try rfl
  · after_results_simp
    try simp only [TRef.toBuf, TRef.ofBuf, cast_eq, id]
    try simp only [h65, h71, h27, h25]
    try rfl

/-- The sixth stretch: the total count's sign and the quotient. -/
theorem stepB6 (W : Valuation τ sig (Elt F)) (x0 : (⟨S512x256, .f32⟩ : BufTy).Contents (Elt F)) (x1 : (⟨S512, .i32⟩ : BufTy).Contents (Elt F))
    (h76 : W (Proc.devRef .tc main_v76) = ReadP.val_main_v76 (F := F) x0 x1)
    (h77 : W (Proc.devRef .tc main_v77) = ReadP.val_main_v77 (F := F) x0 x1) :
    after opsB6 W (Proc.devRef .tc main_v79) = ReadP.val_main_v79 (F := F) x0 x1
      ∧ after opsB6 W (Proc.devRef .tc main_v81) = ReadP.val_main_v81 (F := F) x0 x1 := by
  refine ⟨?_, ?_⟩
  · after_results_simp
    try simp only [TRef.toBuf, TRef.ofBuf, cast_eq, id]
    try simp only [h76, h77]
    try rfl
  · after_results_simp
    try simp only [TRef.toBuf, TRef.ofBuf, cast_eq, id]
    try simp only [h76, h77]
    try rfl

/-- The seventh stretch: the loss. -/
theorem stepB7 (W : Valuation τ sig (Elt F)) (x0 : (⟨S512x256, .f32⟩ : BufTy).Contents (Elt F)) (x1 : (⟨S512, .i32⟩ : BufTy).Contents (Elt F))
    (h79 : W (Proc.devRef .tc main_v79) = ReadP.val_main_v79 (F := F) x0 x1)
    (h81 : W (Proc.devRef .tc main_v81) = ReadP.val_main_v81 (F := F) x0 x1) :
    after opsB7 W (Proc.devRef .tc main_v82) = ReadP.val_main_v82 (F := F) x0 x1 := by
  after_results_simp
  try simp only [TRef.toBuf, TRef.ofBuf, cast_eq, id]
  try simp only [h79, h81]
  try rfl

/-- The second half's operations, in order. -/
abbrev opsB : List (HloOp τ sig (Elt F)) := opsB1 ++ opsB2 ++ opsB3 ++ opsB4 ++ opsB5 ++ opsB6 ++ opsB7

/-- THE SECOND HALF: from contents that hold the seven stage values the second half reads, the result buffer ends
    holding the reference's last stage. -/
theorem opsB_v82 (W : Valuation τ sig (Elt F)) (x0 : (⟨S512x256, .f32⟩ : BufTy).Contents (Elt F)) (x1 : (⟨S512, .i32⟩ : BufTy).Contents (Elt F))
    (h48 : W (Proc.devRef .tc main_v48) = ReadP.val_main_v48 (F := F) x0)
    (h43 : W (Proc.devRef .tc main_v43) = ReadP.val_main_v43 (F := F) x0 x1)
    (h29 : W (Proc.devRef .tc main_v29) = ReadP.val_main_v29 (F := F) x0 x1)
    (h13 : W (Proc.devRef .tc main_v13) = ReadP.val_main_v13 (F := F) x0)
    (h45 : W (Proc.devRef .tc main_v45) = ReadP.val_main_v45 (F := F) x0 x1)
    (h27 : W (Proc.devRef .tc main_v27) = ReadP.val_main_v27 (F := F) x1)
    (h25 : W (Proc.devRef .tc main_v25) = ReadP.val_main_v25 (F := F) x1) :
    after opsB W (Proc.devRef .tc main_v82) = ReadP.val_main_v82 (F := F) x0 x1 := by
  obtain ⟨a53, a29, a13, a45, a27, a25⟩ := stepB1 W x0 x1 h48 h43 h29 h13 h45 h27 h25
  obtain ⟨b59, b53, b45, b27, b25⟩ := stepB2 _ x0 x1 a53 a29 a13 a45 a27 a25
  obtain ⟨c65, c59, c45, c27, c25⟩ := stepB3 _ x0 x1 b53 b59 b45 b27 b25
  obtain ⟨d71, d65, d27, d25⟩ := stepB4 _ x0 x1 c65 c59 c45 c27 c25
  obtain ⟨e76, e77⟩ := stepB5 _ x0 x1 d65 d71 d27 d25
  obtain ⟨f79, f81⟩ := stepB6 _ x0 x1 e76 e77
  have g82 := stepB7 _ x0 x1 f79 f81
  simp only [StableHlo.after_append]
  exact g82

end Cert.ReferenceIdeal.ValueS

end
-- ==== Proof.Ref.RunS.lean ====
/-
  The reference program's run, read through the stages of its operations: from any memory with zero counters
  every weakly fair execution of @main terminates with the result buffer at the last stage, as a function of the
  two arguments' launch contents, and the arguments unchanged. The 128 operations are read in consecutive
  stretches, each over arbitrary contents of the buffers, and the stretches are joined by the fold's behaviour on a
  concatenation.
-/
import proofs.«108628_j44933947851025_1_alg».proof.Proof.Ref.Run
import proofs.«108628_j44933947851025_1_alg».proof.Proof.Ref.RunS1
import proofs.«108628_j44933947851025_1_alg».proof.Proof.Ref.RunS2

noncomputable section

namespace Cert.ReferenceIdeal.ValueS

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The program's list of operations is the first sixty-six followed by the rest. -/
theorem ops_eq : (ValueP.ops : List (HloOp τ sig (Elt F))) = opsA ++ opsB := rfl

set_option maxRecDepth 8192 in
/-- None of the operations writes the first argument's buffer. -/
theorem ops_keep_arg0 (V : Valuation τ sig (Elt F)) :
    after (ValueP.ops (F := F)) V (Proc.devRef .tc main_arg0) = V (Proc.devRef .tc main_arg0) := by
  after_results_simp

set_option maxRecDepth 8192 in
/-- None of the operations writes the second argument's buffer. -/
theorem ops_keep_arg1 (V : Valuation τ sig (Elt F)) :
    after (ValueP.ops (F := F)) V (Proc.devRef .tc main_arg1) = V (Proc.devRef .tc main_arg1) := by
  after_results_simp

/-- The result buffer after all the operations, from any contents `V`: the last stage of the two arguments as `V` has them. -/
theorem ops_v82 (V : Valuation τ sig (Elt F)) :
    after (ValueP.ops (F := F)) V (Proc.devRef .tc main_v82)
      = ReadP.val_main_v82 (F := F) (V (Proc.devRef .tc main_arg0)) (V (Proc.devRef .tc main_arg1)) := by
  rw [ops_eq, StableHlo.after_append]
  obtain ⟨h48, h43, h29, h13, h45, h27, h25, -, -⟩ := opsA_inv V
  exact opsB_v82 (after opsA V) (V (Proc.devRef .tc main_arg0)) (V (Proc.devRef .tc main_arg1)) h48 h43 h29 h13 h45 h27 h25

/-- On every device, for any float values, from any memory with zero counters: every weakly fair execution of @main
    terminates with the result at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
          = ReadP.val_main_v82 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v82).trans (ops_v82 _),
      (h c main_arg0).trans (ops_keep_arg0 _),
      (h c main_arg1).trans (ops_keep_arg1 _)⟩)
    (run_seq ValueP.scopedRefs_eq ValueP.scopedSems_eq defs main (fun _ => ValueP.ops) ValueP.main_eq (fun _ => ValueP.ops_sub) m ρ)

end Cert.ReferenceIdeal.ValueS

end
-- ==== Proof.Spec.lean ====
/-
  The mathematics of the claim, with no program in sight: the triplet-mining loss as one function of the
  embeddings `x : Fin 512 → Fin 256 → EReal` and the labels `lab : Fin 512 → BitVec 32`, written twice — as the
  kernel arranges it (squared distances through the Gram matrix, semi-hard negatives counted and summed as
  products of 0/1 factors in floating arithmetic, the fallback term `D + margin` with count one) and as the reference
  arranges it (squared distances as sums of squared differences, negatives counted in integers, the fallback through
  the hardest negative). Everything is over the extended reals; `margin` is the one float literal both sides
  share and is never evaluated except for its sign.
-/
import Idealize.ShloMosaic.PureOps.Ideal
import Idealize.ShloMosaic.Lib.ValueIdx

noncomputable section

open scoped BigOperators
open Classical

namespace Cert.Spec

open Idealize.ShloMosaic

/-- A 512 × 512 matrix of extended reals. -/
abbrev Mat : Type := Fin 512 → Fin 512 → EReal
/-- The embeddings, row by row. -/
abbrev Emb : Type := Fin 512 → Fin 256 → EReal
/-- The labels, as the 32-bit words they are. -/
abbrev Lab : Type := Fin 512 → BitVec 32

/-- The margin: the single-precision literal nearest 0.3, the same word on both sides. -/
def margin : EReal := Ideal.ofBits .f32 0x3E99999A#32

/-! ## Distances -/

/-- The squared distance through the Gram matrix: |x_i|² + |x_j|² − 2 ⟨x_i, x_j⟩. -/
def sqK (x : Emb) (i j : Fin 512) : EReal :=
  ((∑ d, x i d * x i d) + (∑ d, x j d * x j d)) - 2 * (∑ d, x i d * x j d)

/-- The squared distance as the sum of squared coordinate differences. -/
def sqR (x : Emb) (i j : Fin 512) : EReal := ∑ d, (x i d - x j d) * (x i d - x j d)

/-- The zero-safe square root both sides apply: 0 where the square is not positive, else its root. -/
def distOf (sq : EReal) : EReal := if sq ≤ 0 then 0 else Ideal.sqrt (if sq ≤ 0 then 1 else sq)

def distK (x : Emb) : Mat := fun i j => distOf (sqK x i j)
def distR (x : Emb) : Mat := fun i j => distOf (sqR x i j)

/-! ## Positives, negatives, semi-hard negatives -/

/-- `j` is a positive of anchor `i`: same label, another row. -/
def isMatch (lab : Lab) (i j : Fin 512) : Prop := lab i = lab j ∧ i ≠ j
/-- Anchor `i` has a positive. -/
def hasPos (lab : Lab) (i : Fin 512) : Prop := ∃ j, isMatch lab i j
/-- The pairs the loss runs over. -/
def valid (lab : Lab) (i j : Fin 512) : Prop := isMatch lab i j ∧ hasPos lab i

/-- `k` is a semi-hard negative of the pair `(i, j)`: a non-positive of `i` farther than `j` by less than the margin. -/
def semiHard (D : Mat) (lab : Lab) (i j k : Fin 512) : Prop :=
  ¬ isMatch lab i k ∧ D i k < D i j + margin ∧ D i k > D i j

/-- The hinge term of one triplet. -/
def hinge (dn pd : EReal) : EReal := max (pd - dn + margin) 0

/-! ## The kernel's arrangement: 0/1 factors multiplied and summed in floating arithmetic -/

/-- The non-positive indicator as a float. -/
def nonmf (lab : Lab) (i k : Fin 512) : EReal := if isMatch lab i k then 0 else 1
/-- One triplet's mask as the kernel forms it: the non-positive indicator times the two comparisons' 0/1 values. -/
def maskv (nm dn pd : EReal) : EReal := nm * (if dn < pd + margin then 1 else 0) * (if dn > pd then 1 else 0)

/-- The count of semi-hard negatives as a float sum of masks. -/
def cntK (D : Mat) (lab : Lab) : Mat := fun i j => ∑ k : Fin 512, maskv (nonmf lab i k) (D i k) (D i j)
/-- The summed hinge terms, each weighted by its mask. -/
def shK (D : Mat) (lab : Lab) : Mat := fun i j => ∑ k : Fin 512, maskv (nonmf lab i k) (D i k) (D i j) * hinge (D i k) (D i j)

/-- The same two sums as the kernel's grid accumulates them: four column tiles of 128. -/
def cntTiled (P : Fin 512 → Fin 512 → EReal) (Dn Nm : Fin 512 → Fin 512 → EReal) : Mat := fun i j =>
  ∑ kk : Fin 4, ∑ l : Fin 128, maskv (Nm i ⟨128 * kk.val + l.val, by omega⟩) (Dn i ⟨128 * kk.val + l.val, by omega⟩) (P i j)
def shTiled (P : Fin 512 → Fin 512 → EReal) (Dn Nm : Fin 512 → Fin 512 → EReal) : Mat := fun i j =>
  ∑ kk : Fin 4, ∑ l : Fin 128, maskv (Nm i ⟨128 * kk.val + l.val, by omega⟩) (Dn i ⟨128 * kk.val + l.val, by omega⟩) (P i j)
    * hinge (Dn i ⟨128 * kk.val + l.val, by omega⟩) (P i j)

/-- The host tail of the kernel's program, from the distances, the two mined matrices and the labels. -/
def tailK (D cnt sh : Mat) (lab : Lab) : EReal :=
  let total : EReal := ∑ i, ∑ j, if valid lab i j then (if cnt i j > 0 then sh i j else D i j + margin) else 0
  let ntrip : EReal := ∑ i, ∑ j, if valid lab i j then (if cnt i j > 0 then cnt i j else 1) else 0
  if ntrip > 0 then Ideal.div total ntrip else 0

/-- The kernel's loss. -/
def lossK (x : Emb) (lab : Lab) : EReal := tailK (distK x) (cntK (distK x) lab) (shK (distK x) lab) lab

/-! ## The reference's arrangement: negatives counted in integers, the fallback through the hardest negative -/

/-- The number of semi-hard negatives of a pair. -/
def cntN (D : Mat) (lab : Lab) (i j : Fin 512) : ℕ := (Finset.univ.filter fun k => semiHard D lab i j k).card
/-- The summed hinge terms over the semi-hard negatives. -/
def shR (D : Mat) (lab : Lab) : Mat := fun i j => ∑ k : Fin 512, if semiHard D lab i j k then hinge (D i k) (D i j) else 0
/-- The hardest negative's distance: the least distance over the non-positives (the anchor itself among them). -/
def minNeg (D : Mat) (lab : Lab) (i : Fin 512) : EReal :=
  Finset.univ.inf fun k : Fin 512 => if isMatch lab i k then (⊤ : EReal) else D i k
/-- The fallback hinge against the hardest negative. -/
def fbR (D : Mat) (lab : Lab) (i j : Fin 512) : EReal := max (D i j - minNeg D lab i + margin) 0

def pairLossR (D : Mat) (lab : Lab) (i j : Fin 512) : EReal :=
  if 0 < cntN D lab i j then shR D lab i j else (if fbR D lab i j > 0 then fbR D lab i j else 0)
def pairCntN (D : Mat) (lab : Lab) (i j : Fin 512) : ℕ :=
  if 0 < cntN D lab i j then cntN D lab i j else (if fbR D lab i j > 0 then 1 else 0)

def totalR (D : Mat) (lab : Lab) : EReal := ∑ i, ∑ j, if valid lab i j then pairLossR D lab i j else 0
def ntripN (D : Mat) (lab : Lab) : ℕ := ∑ i, ∑ j, if valid lab i j then pairCntN D lab i j else 0

/-- The reference's host tail from the distances and the labels. -/
def tailR (D : Mat) (lab : Lab) : EReal :=
  if 0 < ntripN D lab then Ideal.div (totalR D lab) (((ntripN D lab : ℕ) : ℝ) : EReal) else 0

/-- The reference's loss. -/
def lossR (x : Emb) (lab : Lab) : EReal := tailR (distR x) lab

/-- Every embedding coordinate is a real number. -/
def Finite (x : Emb) : Prop := ∀ i d, ∃ r : ℝ, x i d = (r : EReal)

end Cert.Spec

end
-- ==== Proof.Bridge.Tiles.lean ====
/-
  Summing over four column tiles of 128 is summing over the 512 columns: k = 128·kk + l is a bijection between
  the pairs (kk, l) and the columns k, and a finite sum in a commutative monoid does not see the order.
-/
import proofs.«108628_j44933947851025_1_alg».proof.Proof.Spec

noncomputable section

open scoped BigOperators
open Classical

namespace Cert.Spec

open Idealize.ShloMosaic

/-- The column of tile `kk`, lane `l`; its inverse is division with remainder by 128. -/
def tileEquiv : Fin 4 × Fin 128 ≃ Fin 512 where
  toFun p := ⟨128 * p.1.val + p.2.val, by omega⟩
  invFun k := (⟨k.val / 128, by omega⟩, ⟨k.val % 128, by omega⟩)
  left_inv p := by
    rcases p with ⟨⟨a, ha⟩, ⟨b, hb⟩⟩
    simp only [Prod.mk.injEq, Fin.mk.injEq]
    constructor <;> omega
  right_inv k := by
    rcases k with ⟨k, hk⟩
    simp only [Fin.mk.injEq]
    omega

/-- A sum over tiles and lanes is the sum over columns. -/
theorem sum_tiles {M : Type} [AddCommMonoid M] (f : Fin 512 → M) :
    (∑ kk : Fin 4, ∑ l : Fin 128, f ⟨128 * kk.val + l.val, by omega⟩) = ∑ k : Fin 512, f k :=
  (Fintype.sum_prod_type' (fun (kk : Fin 4) (l : Fin 128) => f ⟨128 * kk.val + l.val, by omega⟩)).symm.trans
    (Fintype.sum_equiv tileEquiv _ _ (fun _ => rfl))

theorem tiles_cnt (D : Mat) (lab : Lab) : cntTiled D D (nonmf lab) = cntK D lab := by
  funext i j
  unfold cntTiled cntK
  exact sum_tiles (fun k => maskv (nonmf lab i k) (D i k) (D i j))

theorem tiles_sh (D : Mat) (lab : Lab) : shTiled D D (nonmf lab) = shK D lab := by
  funext i j
  unfold shTiled shK
  exact sum_tiles (fun k => maskv (nonmf lab i k) (D i k) (D i j) * hinge (D i k) (D i j))

end Cert.Spec

end
-- ==== Proof.Val.HostK.lean ====
/-
  The kernel program's host operations between its two regions, read at an index: the distance matrix handed to the
  mining region with a unit axis added (twice), the positives' mask formed from the labels, and the non-positive
  indicator as a float. Each stretch of host operations is first read over arbitrary contents before it, then
  instantiated at the program's own.
-/
import proofs.«108628_j44933947851025_1_alg».proof.Proof.Gen.KernelIdeal.Regions
import proofs.«108628_j44933947851025_1_alg».proof.Proof.Spec
import Idealize.ShloMosaic.Lib.StableHlo.Run
import Idealize.ShloMosaic.Lib.ValueIdx
import Idealize.ShloMosaic.Lib.Pipeline.Value
import Idealize.ShloMosaic.Lib.ReduceAll
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx

/-- The positives' mask as the host forms it from the labels: the labels along rows equal the labels along
    columns, and the row index differs from the column index. -/
def matchesV (l : (⟨S512, .i32⟩ : BufTy).Contents (Elt Ideal)) : (⟨S512x512, .i1⟩ : BufTy).Contents (Elt Ideal) :=
  andi
    (cmpi .eq
      (broadcastInDim S512x512 ![0, 1] bcast_S512x1_S512x512_0_1 (shapeCast S512x1 l shapeCasts_S512_S512x1))
      (broadcastInDim S512x512 ![0, 1] bcast_S1x512_S512x512_0_1 (shapeCast S1x512 l shapeCasts_S512_S1x512)))
    (noti (cmpi .eq
      (addi (iotaInDim S512x512 32 0) (broadcastInDim S512x512 ![] bcast_S_S512x512 (constantI S_ 32 0#32)))
      (iotaInDim S512x512 32 1)))

theorem after1_v16 (W : Valuation τ sig (Elt Ideal)) :
    StableHlo.after (hostOps1 (F := Ideal)) W (Proc.devRef .tc main_v16)
      = broadcastInDim S512x512x1 ![0, 1] bcast_S512x512_S512x512x1_0_1 (W (Proc.devRef .tc main_v0)) := by
  simp only [hostOps1]
  after_results_simp

theorem after1_v17 (W : Valuation τ sig (Elt Ideal)) :
    StableHlo.after (hostOps1 (F := Ideal)) W (Proc.devRef .tc main_v17)
      = broadcastInDim S512x1x512 ![0, 2] bcast_S512x512_S512x1x512_0_2 (W (Proc.devRef .tc main_v0)) := by
  simp only [hostOps1]
  after_results_simp

theorem after1_v12 (W : Valuation τ sig (Elt Ideal)) :
    StableHlo.after (hostOps1 (F := Ideal)) W (Proc.devRef .tc main_v12) = matchesV (W (Proc.devRef .tc main_arg1)) := by
  simp only [hostOps1]
  after_results_simp
  rfl

theorem after1_v15 (W : Valuation τ sig (Elt Ideal)) :
    StableHlo.after (hostOps1 (F := Ideal)) W (Proc.devRef .tc main_v15)
      = Host.reduce IntOp.ori (matchesV (W (Proc.devRef .tc main_arg1))) (constantI S_ 1 0#1) reducesTo_S512x512_S512_d1 h_S_ := by
  simp only [hostOps1]
  after_results_simp
  rfl

theorem after1_v18 (W : Valuation τ sig (Elt Ideal)) :
    StableHlo.after (hostOps1 (F := Ideal)) W (Proc.devRef .tc main_v18)
      = broadcastInDim S512x1x512 ![0, 2] bcast_S512x512_S512x1x512_0_2
          (uitofp .f32 (noti (matchesV (W (Proc.devRef .tc main_arg1)))) : FVec Ideal S512x512 .f32) := by
  simp only [hostOps1]
  after_results_simp
  rfl

/-! ## The broadcasts of this program read at an index -/

theorem bcast16_apply {α : Type} (x : S512x512.Idx → α) (i j : Fin 512) :
    broadcastInDim S512x512x1 ![0, 1] bcast_S512x512_S512x512x1_0_1 x (ix3 i j (0 : Fin 1)) = x (ix2 i j) :=
  broadcastInDim_apply _ bcast_S512x512_S512x512x1_0_1 x _ (ix2 i j) (fun a => match a with
    | ⟨0, _⟩ => by show i.val = if (512 : Nat) = 1 then 0 else i.val; rw [if_neg (by decide)]
    | ⟨1, _⟩ => by show j.val = if (512 : Nat) = 1 then 0 else j.val; rw [if_neg (by decide)])

theorem bcast17_apply {α : Type} (x : S512x512.Idx → α) (i k : Fin 512) :
    broadcastInDim S512x1x512 ![0, 2] bcast_S512x512_S512x1x512_0_2 x (ix3 i (0 : Fin 1) k) = x (ix2 i k) :=
  broadcastInDim_apply _ bcast_S512x512_S512x1x512_0_2 x _ (ix2 i k) (fun a => match a with
    | ⟨0, _⟩ => by show i.val = if (512 : Nat) = 1 then 0 else i.val; rw [if_neg (by decide)]
    | ⟨1, _⟩ => by show k.val = if (512 : Nat) = 1 then 0 else k.val; rw [if_neg (by decide)])

theorem bcastRow_apply {α : Type} (x : S512x1.Idx → α) (i j : Fin 512) :
    broadcastInDim S512x512 ![0, 1] bcast_S512x1_S512x512_0_1 x (ix2 i j) = x (ix2 i (0 : Fin 1)) :=
  broadcastInDim_apply _ bcast_S512x1_S512x512_0_1 x _ (ix2 i (0 : Fin 1)) (fun a => match a with
    | ⟨0, _⟩ => by show i.val = if (512 : Nat) = 1 then 0 else i.val; rw [if_neg (by decide)]
    | ⟨1, _⟩ => by show 0 = if (1 : Nat) = 1 then 0 else j.val; rw [if_pos rfl])

theorem bcastCol_apply {α : Type} (x : S1x512.Idx → α) (i j : Fin 512) :
    broadcastInDim S512x512 ![0, 1] bcast_S1x512_S512x512_0_1 x (ix2 i j) = x (ix2 (0 : Fin 1) j) :=
  broadcastInDim_apply _ bcast_S1x512_S512x512_0_1 x _ (ix2 (0 : Fin 1) j) (fun a => match a with
    | ⟨0, _⟩ => by show 0 = if (1 : Nat) = 1 then 0 else i.val; rw [if_pos rfl]
    | ⟨1, _⟩ => by show j.val = if (512 : Nat) = 1 then 0 else j.val; rw [if_neg (by decide)])

theorem bcastScalar_apply {α : Type} (x : S_.Idx → α) (i : S512x512.Idx) :
    broadcastInDim S512x512 ![] bcast_S_S512x512 x i = x ix0 :=
  broadcastInDim_apply _ bcast_S_S512x512 x i ix0 (fun a => a.elim0)

theorem castRow_apply {α : Type} (l : S512.Idx → α) (i : Fin 512) :
    shapeCast S512x1 l shapeCasts_S512_S512x1 (ix2 i (0 : Fin 1)) = l (ix1 i) :=
  shapeCast_apply l shapeCasts_S512_S512x1 _ (ix1 i) (by
    rw [Shape.rowMajor_val_one, Shape.rowMajor_val_two]; show i.val = i.val * 1 + 0; omega)

theorem castCol_apply {α : Type} (l : S512.Idx → α) (j : Fin 512) :
    shapeCast S1x512 l shapeCasts_S512_S1x512 (ix2 (0 : Fin 1) j) = l (ix1 j) :=
  shapeCast_apply l shapeCasts_S512_S1x512 _ (ix1 j) (by
    rw [Shape.rowMajor_val_one, Shape.rowMajor_val_two]; show j.val = 0 * 512 + j.val; omega)

/-! ## The positives' mask at an index -/

theorem matchesV_apply (l : (⟨S512, .i32⟩ : BufTy).Contents (Elt Ideal)) (i j : Fin 512) :
    matchesV l (ix2 i j) = IntOp.andi (IntOp.cmpi .eq (l (ix1 i)) (l (ix1 j)))
      (~~~ (IntOp.cmpi .eq (IntOp.addi (BitVec.ofNat 32 i.val) 0#32) (BitVec.ofNat 32 j.val))) := by
  show IntOp.andi (IntOp.cmpi .eq
      (broadcastInDim S512x512 ![0, 1] bcast_S512x1_S512x512_0_1 (shapeCast S512x1 l shapeCasts_S512_S512x1) (ix2 i j))
      (broadcastInDim S512x512 ![0, 1] bcast_S1x512_S512x512_0_1 (shapeCast S1x512 l shapeCasts_S512_S1x512) (ix2 i j)))
    (~~~ (IntOp.cmpi .eq (IntOp.addi (BitVec.ofNat 32 i.val)
      (broadcastInDim S512x512 ![] bcast_S_S512x512 (constantI S_ 32 0#32) (ix2 i j))) (BitVec.ofNat 32 j.val))) = _
  rw [bcastRow_apply, bcastCol_apply, bcastScalar_apply, castRow_apply, castCol_apply]
  rfl

/-- Two row indices give the same 32-bit word exactly when they are the same index. -/
theorem ofNat32_inj (i j : Fin 512) : BitVec.ofNat 32 i.val = BitVec.ofNat 32 j.val ↔ i = j := by
  constructor
  · intro h
    have h' := congrArg BitVec.toNat h
    simp only [BitVec.toNat_ofNat] at h'
    have hi := i.isLt; have hj := j.isLt
    rw [Nat.mod_eq_of_lt (by omega), Nat.mod_eq_of_lt (by omega)] at h'
    exact Fin.ext h'
  · rintro rfl; rfl

/-- The mask's bit is set exactly on the positives. -/
theorem matchesV_eq_one_iff (l : (⟨S512, .i32⟩ : BufTy).Contents (Elt Ideal)) (i j : Fin 512) :
    matchesV l (ix2 i j) = 1#1 ↔ Cert.Spec.isMatch (fun a => l (ix1 a)) i j := by
  have h0 : IntOp.addi (BitVec.ofNat 32 i.val) 0#32 = BitVec.ofNat 32 i.val := by simp [IntOp.addi]
  rw [matchesV_apply, IntOp.andi_eq_one, IntOp.cmpi_eq, IntOp.not_eq_one, IntOp.cmpi_eq, h0, ofNat32_inj]
  rfl

/-- The non-positive indicator as a float: the complemented mask bit read unsigned. -/
theorem nonm_apply (l : (⟨S512, .i32⟩ : BufTy).Contents (Elt Ideal)) (i k : Fin 512) :
    (uitofp .f32 (noti (matchesV l)) : FVec Ideal S512x512 .f32) (ix2 i k) = Cert.Spec.nonmf (fun a => l (ix1 a)) i k := by
  show (((~~~ (matchesV l (ix2 i k))).toNat : ℝ) : EReal) = _
  unfold Cert.Spec.nonmf
  by_cases h : matchesV l (ix2 i k) = 1#1
  · rw [if_pos ((matchesV_eq_one_iff l i k).1 h), h]; simp
  · rw [if_neg (fun hm => h ((matchesV_eq_one_iff l i k).2 hm)), eq_zero_of_ne_one h]; simp

section Reads

variable (m : (ℓ : Loc nD τ sig) → Buf (Elt Ideal) ℓ) (outs : Gen.Outs (F := Ideal)) (c : Dev nD)

/-- The positive-pair distances as the mining region receives them: the distance matrix with a trailing unit axis. -/
theorem v16_apply (i j : Fin 512) :
    Gen.V2 m outs c main_v16 (ix3 i j (0 : Fin 1)) = Gen.V1 m outs c main_v0 (ix2 i j) :=
  (congrFun (after1_v16 (Gen.V1 m outs c)) _).trans (bcast16_apply _ i j)

/-- The negative distances as the mining region receives them: the distance matrix with a middle unit axis. -/
theorem v17_apply (i k : Fin 512) :
    Gen.V2 m outs c main_v17 (ix3 i (0 : Fin 1) k) = Gen.V1 m outs c main_v0 (ix2 i k) :=
  (congrFun (after1_v17 (Gen.V1 m outs c)) _).trans (bcast17_apply _ i k)

/-- The labels' buffer is the launch's through the first region. -/
theorem V1_arg1 : Gen.V1 m outs c main_arg1 = Gen.V0 m c main_arg1 := Gen.V1_of m outs c main_arg1 (by decide)

/-- The non-positive indicator as the mining region receives it. -/
theorem v18_apply (i k : Fin 512) :
    Gen.V2 m outs c main_v18 (ix3 i (0 : Fin 1) k) = Cert.Spec.nonmf (fun a => Gen.V0 m c main_arg1 (ix1 a)) i k := by
  refine (congrFun (after1_v18 (Gen.V1 m outs c)) _).trans ?_
  rw [bcast17_apply]
  show (uitofp .f32 (noti (matchesV (Gen.V1 m outs c main_arg1))) : FVec Ideal S512x512 .f32) (ix2 i k) = _
  rw [V1_arg1, nonm_apply]

end Reads

end Cert.KernelIdeal.HostVal

end
-- ==== Proof.Val.Arr0.lean ====
import proofs.«108628_j44933947851025_1_alg».proof.Proof.KI.Region0
import Idealize.ShloMosaic.Lib.Pipeline.Value

/-! # The distance matrix as one function of the embedding matrix

Region 0 runs on a one-point grid and both of its windows are whole arrays: the block the body reads IS the
512x256 embedding matrix and the block it writes back IS the 512x512 output array. So the array the region leaves
is the distance payload of the embedding matrix as the region found it, with no blockwise bookkeeping left over. -/

noncomputable section

namespace Cert.KernelIdeal.ArrVal

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Both rectangles of the body start at the origin. -/
theorem origin : (![0, 0] : Fin 2 → Nat) = fun _ => 0 := funext fun a => by fin_cases a <;> rfl

/-- At the grid's single point every block index of either window is zero. -/
theorem index_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's array is the first argument. -/
theorem entry_main_arg0 (c : Dev nD) : V c (Pipeline.arrRef spec0 0) = V c main_arg0 := rfl

/-- Reading the input window's block out of an array `X` gives `X` back: block index zero, block extents the
    array's, so the block's embedding into the array is the identity. -/
theorem read_blk_in (t : Fin cfg0.N) (X : S512x256.Idx → Elt F .f32) :
    ((cfg0.win 0).blk t).view.read (Elt F) X = X := by
  obtain ⟨e0, e1, -, -⟩ := index_zero t
  funext y
  show X (((cfg0.win 0).blk t).view.emb y) = X y
  congr 1
  funext a; apply Fin.ext
  match a with
  | ⟨0, _⟩ => show win0_0.index t (0 : Fin 2) * 512 + 1 * (y 0).val = (y 0).val; omega
  | ⟨1, _⟩ => show win0_0.index t (1 : Fin 2) * 256 + 1 * (y 1).val = (y 1).val; omega

/-- Likewise for the output window. -/
theorem read_blk_out (t : Fin cfg0.N) (G : S512x512.Idx → Elt F .f32) :
    ((cfg0.win 1).blk t).view.read (Elt F) G = G := by
  obtain ⟨-, -, e0, e1⟩ := index_zero t
  funext y
  show G (((cfg0.win 1).blk t).view.emb y) = G y
  congr 1
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The block the body is handed is the embedding matrix itself. -/
theorem iblk0_eq (c : Dev nD) (t : Fin cfg0.N) : iblk0 V c 0 t = V c main_arg0 :=
  read_blk_in t (V c main_arg0)

/-- The output block is not cut: what is written back is all of what the body left. -/
theorem cut_out (t : Fin cfg0.N) (X : S512x512.Idx → Elt F .f32) : (cfg0.win 1).cut (grid0.coords t) X = X := rfl

/-- What the body leaves, for an arbitrary input block: the payload of that block. -/
theorem out0_1_eq (x0 : Vec F S512x256 .f32) : out0_1 x0 = k0_pay1 x0 := by
  unfold out0_1
  rw [View.canon_unit_zero origin]
  rw [View.ld_unit_zero (S := S512x256) origin]

/-- What the one point writes back is the output window's block of the payload of the embedding matrix. -/
theorem flushed_eq (c : Dev nD) (t : Fin cfg0.N) :
    (dat0 V c).flushed 1 t = ((cfg0.win 1).blk t).view.read (Elt F) (k0_pay1 (V c main_arg0)) := by
  show (cfg0.win 1).cut (grid0.coords t) ((dat0 V c).after 1 t) = _
  rw [after0_1, out0_1_eq, iblk0_eq, cut_out, read_blk_out]

/-- An index of the output array lies in the point's block iff each coordinate is in the block's range. -/
theorem mem_blk_out (t : Fin cfg0.N) (i : S512x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v0).slice (win0_1.rect t)).set ↔ _
  rw [View.set_slice_whole, Rect.mem_set_unit]
  exact Iff.rfl

/-- The point's block is the whole array. -/
theorem cover (i : S512x512.Idx) : ∃ t : Fin cfg0.N, (cfg0.win 1).flush t = true ∧ i ∈ ((cfg0.win 1).blk t).view.set := by
  refine ⟨t0_0, flush0_1 t0_0, ?_⟩
  rw [mem_blk_out]
  obtain ⟨-, -, e0, e1⟩ := index_zero t0_0
  intro a
  match a with
  | ⟨0, _⟩ =>
    show win0_1.index t0_0 (0 : Fin 2) * 512 ≤ (i 0).val ∧ (i 0).val < win0_1.index t0_0 (0 : Fin 2) * 512 + 512
    have hi : (i 0).val < 512 := (i 0).isLt
    omega
  | ⟨1, _⟩ =>
    show win0_1.index t0_0 (1 : Fin 2) * 512 ≤ (i 1).val ∧ (i 1).val < win0_1.index t0_0 (1 : Fin 2) * 512 + 512
    have hi : (i 1).val < 512 := (i 1).isLt
    omega

/-- The array region 0 leaves: the distance payload of the embedding matrix as the region found it. -/
theorem arr0 (c : Dev nD) : (dat0 V c).arrAt 1 cfg0.N = k0_pay1 (V c main_arg0) :=
  (dat0 V c).arrAt_eq_of_cover 1 (k0_pay1 (V c main_arg0)) (fun t _ => flushed_eq V c t) cover

end Cert.KernelIdeal.ArrVal

end
-- ==== Proof.Val.Pay1.lean ====
/-
  The mining kernel's body read at an index, over the extended reals: the mask of one triplet as the product of the
  non-positive indicator and the two comparisons' 0/1 values, the lane sums of the masks and of the masked hinge
  terms over a block of 128 candidate negatives, and the accumulation of those partial sums onto the block already
  stored.
-/
import proofs.«108628_j44933947851025_1_alg».proof.Proof.Gen.KernelIdeal.Skeleton
import proofs.«108628_j44933947851025_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Classical

namespace Cert.KernelIdeal.PayVal

open Idealize.ShloMosaic Idealize.ShloMosaic.ValueIdx Cert.KernelIdeal.Gen

/-! ## Layout operations at an index given by coordinates -/

/-- An `[a, 1, c]` array broadcast to `[a, b, c]` reads, at `(i, j, k)`, the operand's one row at `(i, 0, k)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand's one column at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum over the last axis of an `[8, 512, 128]` block, read at `(b, r)`: the sum over the 128 lanes. -/
theorem laneSum_apply (src : FVec Ideal S8x512x128 .f32) (hφ : FKind.Formats .f32)
    (hacc : (0x00000000#32 : BitVec 32) = FKind.add.neutral .f32 hφ) (b : Fin 8) (r : Fin 512) :
    multiReduction (F := Ideal) .add [2] S8x512 src 0x00000000#32 reduces_S8x512x128_S8x512 hφ hacc (ix2 b r)
      = ∑ l : Fin 128, src (ix3 b r l) :=
  (Ideal.multiReduction_add_single src 0x00000000#32 reduces_S8x512x128_S8x512 hφ hacc (ix2 b r)).trans
    (Finset.sum_congr rfl fun l _ => congrArg src (funext fun a =>
      match a with
      | ⟨0, _⟩ => Fin.ext rfl
      | ⟨1, _⟩ => Fin.ext rfl
      | ⟨2, _⟩ => Fin.ext rfl))

/-! ## A comparison's bit as a float -/

/-- The 0/1 value of "less than": the comparison's bit, widened and converted, is `1` where it holds and `0` elsewhere. -/
theorem sitofp_olt (x y : Ideal .f32) :
    FloatOps.sitofp (F := Ideal) .f32 ((FloatOps.cmpf .olt x y).setWidth 32) = if x < y then (1 : EReal) else 0 := by
  show (((((Ideal.cmp .olt x y).setWidth 32).toInt : ℤ) : ℝ) : EReal) = _
  by_cases h : x < y
  · simp [Ideal.cmp, h]
  · simp [Ideal.cmp, h]

/-- The 0/1 value of "greater than". -/
theorem sitofp_ogt (x y : Ideal .f32) :
    FloatOps.sitofp (F := Ideal) .f32 ((FloatOps.cmpf .ogt x y).setWidth 32) = if x > y then (1 : EReal) else 0 := by
  show (((((Ideal.cmp .ogt x y).setWidth 32).toInt : ℤ) : ℝ) : EReal) = _
  by_cases h : y < x
  · simp [Ideal.cmp, h]
  · simp [Ideal.cmp, h]

/-! ## The payloads -/

/-- The mask of one triplet: at `(b, r, l)` the non-positive indicator of lane `l` times the two comparisons' values. -/
theorem pay3_apply (p : Vec Ideal S8x512x1 .f32) (d n : Vec Ideal S8x1x128 .f32) (b : Fin 8) (r : Fin 512) (l : Fin 128) :
    k1_pay3 (F := Ideal) p d n (ix3 b r l)
      = Cert.Spec.maskv (n (ix3 b 0 l)) (d (ix3 b 0 l)) (p (ix3 b r 0)) := by
  unfold k1_pay3 k1_pay1 k1_pay2
  simp only [mulf_apply, sitofp_apply, extui_apply, cmpf_apply, broadcastTo_a1c_abc_apply, broadcastTo_ab1_abc_apply,
    shapeCast_self, addf_apply, broadcast_apply, sitofp_olt, sitofp_ogt]
  rfl

/-- The block's count of semi-hard negatives: at `(b, r)` the sum of the masks over the 128 lanes. -/
theorem pay4_apply (p : Vec Ideal S8x512x1 .f32) (d n : Vec Ideal S8x1x128 .f32) (b : Fin 8) (r : Fin 512) :
    k1_pay4 (F := Ideal) p d n (ix2 b r)
      = ∑ l : Fin 128, Cert.Spec.maskv (n (ix3 b 0 l)) (d (ix3 b 0 l)) (p (ix3 b r 0)) := by
  unfold k1_pay4
  exact (laneSum_apply _ _ _ b r).trans (Finset.sum_congr rfl fun l _ => pay3_apply p d n b r l)

/-- The hinge term of one triplet as the kernel forms it: at `(b, r, l)` the maximum of `pd - dn + margin` and zero. -/
theorem hinge_apply (p : Vec Ideal S8x512x1 .f32) (d : Vec Ideal S8x1x128 .f32) (b : Fin 8) (r : Fin 512) (l : Fin 128) :
    maximumf (F := Ideal)
        (addf (subf (broadcastTo S8x512x128 (k1_pay1 (F := Ideal) p) broadcasts_S8x512x1_S8x512x128)
            (broadcastTo S8x512x128 (k1_pay2 (F := Ideal) d) broadcasts_S8x1x128_S8x512x128))
          (broadcast S8x512x128 (Scalar.ofBits (F := Ideal) .f32 0x3E99999A#32)))
        (broadcast S8x512x128 (Scalar.ofBits (F := Ideal) .f32 0x00000000#32)) (ix3 b r l)
      = Cert.Spec.hinge (d (ix3 b 0 l)) (p (ix3 b r 0)) := by
  unfold k1_pay1 k1_pay2
  simp only [maximumf_apply, addf_apply, subf_apply, broadcast_apply, broadcastTo_a1c_abc_apply,
    broadcastTo_ab1_abc_apply, shapeCast_self]
  show max (p (ix3 b r 0) - d (ix3 b 0 l) + Ideal.ofBits .f32 0x3E99999A#32) (Ideal.ofBits .f32 0x00000000#32) = _
  rw [Ideal.ofBits_zero_f32]
  rfl

/-- The block's summed hinge terms: at `(b, r)` the sum over the 128 lanes of mask times hinge. -/
theorem pay5_apply (p : Vec Ideal S8x512x1 .f32) (d n : Vec Ideal S8x1x128 .f32) (b : Fin 8) (r : Fin 512) :
    k1_pay5 (F := Ideal) p d n (ix2 b r)
      = ∑ l : Fin 128, Cert.Spec.maskv (n (ix3 b 0 l)) (d (ix3 b 0 l)) (p (ix3 b r 0))
          * Cert.Spec.hinge (d (ix3 b 0 l)) (p (ix3 b r 0)) := by
  unfold k1_pay5
  refine (laneSum_apply _ _ _ b r).trans (Finset.sum_congr rfl fun l _ => ?_)
  refine (mulf_apply _ _ _).trans ?_
  rw [pay3_apply p d n b r l, hinge_apply p d b r l]

/-- Past the first column tile the count is accumulated: the stored block plus this tile's partial sum. -/
theorem pay6_apply (p : Vec Ideal S8x512x1 .f32) (d n : Vec Ideal S8x1x128 .f32) (xo : Vec Ideal S8x512 .f32)
    (b : Fin 8) (r : Fin 512) :
    k1_pay6 (F := Ideal) p d n xo (ix2 b r) = xo (ix2 b r) + k1_pay4 (F := Ideal) p d n (ix2 b r) := by
  unfold k1_pay6
  refine (addf_apply _ _ _).trans ?_
  rw [shapeCast_self]

/-- The summed hinge terms are accumulated the same way. -/
theorem pay7_apply (p : Vec Ideal S8x512x1 .f32) (d n : Vec Ideal S8x1x128 .f32) (xo : Vec Ideal S8x512 .f32)
    (b : Fin 8) (r : Fin 512) :
    k1_pay7 (F := Ideal) p d n xo (ix2 b r) = xo (ix2 b r) + k1_pay5 (F := Ideal) p d n (ix2 b r) := by
  unfold k1_pay7
  refine (addf_apply _ _ _).trans ?_
  rw [shapeCast_self]

end Cert.KernelIdeal.PayVal

end
-- ==== Proof.Val.Arr1.lean ====
/-
  What region 1 leaves in its two output arrays, index by index: the grid walks the anchors in tiles of 8 rows and,
  for each tile, the candidate negatives in 4 tiles of 128 columns; the two output blocks of an anchor tile are
  restarted at the first column tile and accumulated over the other three, and written back after the fourth. So
  entry (i, j) of each array is the sum over the four column tiles of that tile's partial sum over its 128 columns,
  each term a function of three array entries: the positive distance at (i, j, 0), the negative distance and the
  negative indicator at (i, 0, 128·kk + l).
-/
import proofs.«108628_j44933947851025_1_alg».proof.Proof.KI.Region1Defs
import proofs.«108628_j44933947851025_1_alg».proof.Proof.Spec
import proofs.«108628_j44933947851025_1_alg».proof.Proof.Val.Pay1
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ArrVal

open Cert.KernelIdeal Cert.KernelIdeal.Gen Cert.KernelIdeal.Hand Cert.KernelIdeal.PayVal

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The three operand arrays as matrices -/

/-- The positive distances: entry (i, j, 0) of the first operand. -/
def P (c : Dev nD) : Fin 512 → Fin 512 → EReal := fun i j => (V c main_v16 : S512x512x1.Idx → EReal) (ix3 i j 0)
/-- The negative distances: entry (i, 0, k) of the second operand. -/
def Dn (c : Dev nD) : Fin 512 → Fin 512 → EReal := fun i k => (V c main_v17 : S512x1x512.Idx → EReal) (ix3 i 0 k)
/-- The negative indicators: entry (i, 0, k) of the third operand. -/
def Nm (c : Dev nD) : Fin 512 → Fin 512 → EReal := fun i k => (V c main_v18 : S512x1x512.Idx → EReal) (ix3 i 0 k)

/-! ## The index maps over the grid -/

/-- Point `t` of the 64 × 4 grid is anchor tile `t / 4`, column tile `t % 4`; the windows' block indices say so. -/
theorem idx_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = t.val % 4
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

theorem N1 : cfg1.N = 256 := by decide +kernel

/-! ## The input blocks, entry by entry -/

theorem iblk0_apply (c : Dev nD) (t : Fin cfg1.N) (b : Fin 8) (r : Fin 512) (i : Fin 512) (hi : i.val = 8 * (t.val / 4) + b.val) :
    (iblk1 V c 0 t : Vec Ideal S8x512x1 .f32) (ix3 b r 0) = P V c i r := by
  obtain ⟨e0, e1, e2, -⟩ := idx_facts t
  unfold iblk1 P
  rw [View.read_apply]
  show (V c main_v16 : S512x512x1.Idx → EReal) _ = _
  congr 1
  funext a
  apply Fin.ext
  match a with
  | ⟨0, _⟩ => show win1_0.index t (0 : Fin 3) * 8 + 1 * b.val = i.val; rw [e0, hi]; omega
  | ⟨1, _⟩ => show win1_0.index t (1 : Fin 3) * 512 + 1 * r.val = r.val; rw [e1]; omega
  | ⟨2, _⟩ => show win1_0.index t (2 : Fin 3) * 1 + 1 * 0 = 0; rw [e2]

theorem iblk1_apply (c : Dev nD) (t : Fin cfg1.N) (b : Fin 8) (l : Fin 128) (i k : Fin 512)
    (hi : i.val = 8 * (t.val / 4) + b.val) (hk : k.val = 128 * (t.val % 4) + l.val) :
    (iblk1 V c 1 t : Vec Ideal S8x1x128 .f32) (ix3 b 0 l) = Dn V c i k := by
  obtain ⟨-, -, -, e0, e1, e2, -⟩ := idx_facts t
  unfold iblk1 Dn
  rw [View.read_apply]
  show (V c main_v17 : S512x1x512.Idx → EReal) _ = _
  congr 1
  funext a
  apply Fin.ext
  match a with
  | ⟨0, _⟩ => show win1_1.index t (0 : Fin 3) * 8 + 1 * b.val = i.val; rw [e0, hi]; omega
  | ⟨1, _⟩ => show win1_1.index t (1 : Fin 3) * 1 + 1 * 0 = 0; rw [e1]
  | ⟨2, _⟩ => show win1_1.index t (2 : Fin 3) * 128 + 1 * l.val = k.val; rw [e2, hk]; omega

theorem iblk2_apply (c : Dev nD) (t : Fin cfg1.N) (b : Fin 8) (l : Fin 128) (i k : Fin 512)
    (hi : i.val = 8 * (t.val / 4) + b.val) (hk : k.val = 128 * (t.val % 4) + l.val) :
    (iblk1 V c 2 t : Vec Ideal S8x1x128 .f32) (ix3 b 0 l) = Nm V c i k := by
  obtain ⟨-, -, -, -, -, -, e0, e1, e2, -⟩ := idx_facts t
  unfold iblk1 Nm
  rw [View.read_apply]
  show (V c main_v18 : S512x1x512.Idx → EReal) _ = _
  congr 1
  funext a
  apply Fin.ext
  match a with
  | ⟨0, _⟩ => show win1_2.index t (0 : Fin 3) * 8 + 1 * b.val = i.val; rw [e0, hi]; omega
  | ⟨1, _⟩ => show win1_2.index t (1 : Fin 3) * 1 + 1 * 0 = 0; rw [e1]
  | ⟨2, _⟩ => show win1_2.index t (2 : Fin 3) * 128 + 1 * l.val = k.val; rw [e2, hk]; omega

/-! ## What the body leaves is its payload -/

theorem outA3_eq (x0 : Vec Ideal S8x512x1 .f32) (x1 x2 : Vec Ideal S8x1x128 .f32) : out1_A_3 x0 x1 x2 = k1_pay4 x0 x1 x2 := by
  unfold out1_A_3
  rw [View.canon_unit_zero hz2]
  simp only [View.ld_unit_zero (S := S8x512x1) hz3, View.ld_unit_zero (S := S8x1x128) hz3]
theorem outA4_eq (x0 : Vec Ideal S8x512x1 .f32) (x1 x2 : Vec Ideal S8x1x128 .f32) : out1_A_4 x0 x1 x2 = k1_pay5 x0 x1 x2 := by
  unfold out1_A_4
  rw [View.canon_unit_zero hz2]
  simp only [View.ld_unit_zero (S := S8x512x1) hz3, View.ld_unit_zero (S := S8x1x128) hz3]
theorem outB3_eq (x0 : Vec Ideal S8x512x1 .f32) (x1 x2 : Vec Ideal S8x1x128 .f32) (xo : Vec Ideal S8x512 .f32) :
    out1_B_3 x0 x1 x2 xo = k1_pay6 x0 x1 x2 xo := by
  unfold out1_B_3
  rw [View.canon_unit_zero hz2]
  simp only [View.ld_unit_zero (S := S8x512x1) hz3, View.ld_unit_zero (S := S8x1x128) hz3, View.ld_unit_zero (S := S8x512) hz2]
theorem outB4_eq (x0 : Vec Ideal S8x512x1 .f32) (x1 x2 : Vec Ideal S8x1x128 .f32) (xo : Vec Ideal S8x512 .f32) :
    out1_B_4 x0 x1 x2 xo = k1_pay7 x0 x1 x2 xo := by
  unfold out1_B_4
  rw [View.canon_unit_zero hz2]
  simp only [View.ld_unit_zero (S := S8x512x1) hz3, View.ld_unit_zero (S := S8x1x128) hz3, View.ld_unit_zero (S := S8x512) hz2]

/-! ## One point's partial sums, entry by entry -/

/-- The partial count of point `t` at row `b` of its anchor tile and column `r`: over the 128 columns of its column tile. -/
theorem part3_apply (c : Dev nD) (t : Fin cfg1.N) (b : Fin 8) (r : Fin 512) (i : Fin 512) (hi : i.val = 8 * (t.val / 4) + b.val)
    (kk : Fin 4) (hkk : t.val % 4 = kk.val) :
    k1_pay4 (F := Ideal) (iblk1 V c 0 t) (iblk1 V c 1 t) (iblk1 V c 2 t) (ix2 b r)
      = ∑ l : Fin 128, Cert.Spec.maskv (Nm V c i ⟨128 * kk.val + l.val, by omega⟩) (Dn V c i ⟨128 * kk.val + l.val, by omega⟩) (P V c i r) := by
  rw [pay4_apply]
  refine Finset.sum_congr rfl fun l _ => ?_
  rw [iblk2_apply V c t b l i ⟨128 * kk.val + l.val, by omega⟩ hi (by rw [hkk]),
    iblk1_apply V c t b l i ⟨128 * kk.val + l.val, by omega⟩ hi (by rw [hkk]), iblk0_apply V c t b r i hi]

theorem part4_apply (c : Dev nD) (t : Fin cfg1.N) (b : Fin 8) (r : Fin 512) (i : Fin 512) (hi : i.val = 8 * (t.val / 4) + b.val)
    (kk : Fin 4) (hkk : t.val % 4 = kk.val) :
    k1_pay5 (F := Ideal) (iblk1 V c 0 t) (iblk1 V c 1 t) (iblk1 V c 2 t) (ix2 b r)
      = ∑ l : Fin 128, Cert.Spec.maskv (Nm V c i ⟨128 * kk.val + l.val, by omega⟩) (Dn V c i ⟨128 * kk.val + l.val, by omega⟩) (P V c i r)
          * Cert.Spec.hinge (Dn V c i ⟨128 * kk.val + l.val, by omega⟩) (P V c i r) := by
  rw [pay5_apply]
  refine Finset.sum_congr rfl fun l _ => ?_
  rw [iblk2_apply V c t b l i ⟨128 * kk.val + l.val, by omega⟩ hi (by rw [hkk]),
    iblk1_apply V c t b l i ⟨128 * kk.val + l.val, by omega⟩ hi (by rw [hkk]), iblk0_apply V c t b r i hi]

/-! ## The accumulation, unrolled over the four column tiles -/

/-- After a point with `t % 4 = 0`: the point's partial sums. -/
theorem acc_first (c : Dev nD) (t : Fin cfg1.N) (h : t.val % 4 = 0) (y : S8x512.Idx) :
    (outsAt1 V c t.val t.isLt).1 y = k1_pay4 (F := Ideal) (iblk1 V c 0 t) (iblk1 V c 1 t) (iblk1 V c 2 t) y
    ∧ (outsAt1 V c t.val t.isLt).2 y = k1_pay5 (F := Ideal) (iblk1 V c 0 t) (iblk1 V c 1 t) (iblk1 V c 2 t) y := by
  rw [outsAt1_A V c t h]
  dsimp only
  exact ⟨congrFun (outA3_eq (iblk1 V c 0 t) (iblk1 V c 1 t) (iblk1 V c 2 t)) y, congrFun (outA4_eq (iblk1 V c 0 t) (iblk1 V c 1 t) (iblk1 V c 2 t)) y⟩

/-- After any other point: what the point before left plus the point's partial sums. -/
theorem acc_next (c : Dev nD) (t : Fin cfg1.N) (h : ¬ t.val % 4 = 0) (b : Fin 8) (r : Fin 512) :
    (outsAt1 V c t.val t.isLt).1 (ix2 b r) = (outsAt1 V c (t.val - 1) (Nat.lt_of_le_of_lt (Nat.sub_le _ _) t.isLt)).1 (ix2 b r)
        + k1_pay4 (F := Ideal) (iblk1 V c 0 t) (iblk1 V c 1 t) (iblk1 V c 2 t) (ix2 b r)
    ∧ (outsAt1 V c t.val t.isLt).2 (ix2 b r) = (outsAt1 V c (t.val - 1) (Nat.lt_of_le_of_lt (Nat.sub_le _ _) t.isLt)).2 (ix2 b r)
        + k1_pay5 (F := Ideal) (iblk1 V c 0 t) (iblk1 V c 1 t) (iblk1 V c 2 t) (ix2 b r) := by
  rw [outsAt1_B V c t h]
  dsimp only
  exact ⟨(congrFun (outB3_eq (iblk1 V c 0 t) (iblk1 V c 1 t) (iblk1 V c 2 t) (outsAt1 V c (t.val - 1) (Nat.lt_of_le_of_lt (Nat.sub_le _ _) t.isLt)).1) (ix2 b r)).trans
      (pay6_apply (iblk1 V c 0 t) (iblk1 V c 1 t) (iblk1 V c 2 t) (outsAt1 V c (t.val - 1) (Nat.lt_of_le_of_lt (Nat.sub_le _ _) t.isLt)).1 b r),
    (congrFun (outB4_eq (iblk1 V c 0 t) (iblk1 V c 1 t) (iblk1 V c 2 t) (outsAt1 V c (t.val - 1) (Nat.lt_of_le_of_lt (Nat.sub_le _ _) t.isLt)).2) (ix2 b r)).trans
      (pay7_apply (iblk1 V c 0 t) (iblk1 V c 1 t) (iblk1 V c 2 t) (outsAt1 V c (t.val - 1) (Nat.lt_of_le_of_lt (Nat.sub_le _ _) t.isLt)).2 b r)⟩

/-- The same step, from position `n` to position `n + 1`. -/
theorem acc_succ (c : Dev nD) (n : ℕ) (hn : n + 1 < cfg1.N) (h : ¬ (n + 1) % 4 = 0) (b : Fin 8) (r : Fin 512) :
    (outsAt1 V c (n + 1) hn).1 (ix2 b r) = (outsAt1 V c n (Nat.lt_of_succ_lt hn)).1 (ix2 b r)
        + k1_pay4 (F := Ideal) (iblk1 V c 0 ⟨n + 1, hn⟩) (iblk1 V c 1 ⟨n + 1, hn⟩) (iblk1 V c 2 ⟨n + 1, hn⟩) (ix2 b r)
    ∧ (outsAt1 V c (n + 1) hn).2 (ix2 b r) = (outsAt1 V c n (Nat.lt_of_succ_lt hn)).2 (ix2 b r)
        + k1_pay5 (F := Ideal) (iblk1 V c 0 ⟨n + 1, hn⟩) (iblk1 V c 1 ⟨n + 1, hn⟩) (iblk1 V c 2 ⟨n + 1, hn⟩) (ix2 b r) :=
  acc_next V c ⟨n + 1, hn⟩ h b r

/-- After the fourth column tile of an anchor tile the two blocks hold, at row `b` and column `r`, the sums over the four
    column tiles of the partial sums: entry `(8q + b, r)` of the tiled count and of the tiled hinge sum. -/
theorem acc_last (c : Dev nD) (t : Fin cfg1.N) (h3 : t.val % 4 = 3) (b : Fin 8) (r : Fin 512) (i : Fin 512)
    (hi : i.val = 8 * (t.val / 4) + b.val) :
    (outsAt1 V c t.val t.isLt).1 (ix2 b r) = Cert.Spec.cntTiled (P V c) (Dn V c) (Nm V c) i r
    ∧ (outsAt1 V c t.val t.isLt).2 (ix2 b r) = Cert.Spec.shTiled (P V c) (Dn V c) (Nm V c) i r := by
  obtain ⟨n, hn⟩ := t
  obtain ⟨q, rfl⟩ : ∃ q, n = 4 * q + 3 := ⟨n / 4, by dsimp only at h3; omega⟩
  have hN : 4 * q + 3 < 256 := lt_of_lt_of_eq hn N1
  have hi' : i.val = 8 * q + b.val := by rw [hi]; dsimp only; omega
  have e3 := acc_succ V c (4 * q + 2) hn (by omega) b r
  have e2 := acc_succ V c (4 * q + 1) (Nat.lt_of_succ_lt hn) (by omega) b r
  have e1 := acc_succ V c (4 * q) (Nat.lt_of_succ_lt (Nat.lt_of_succ_lt hn)) (by omega) b r
  have e0 := acc_first V c ⟨4 * q, Nat.lt_of_succ_lt (Nat.lt_of_succ_lt (Nat.lt_of_succ_lt hn))⟩ (by dsimp only; omega) (ix2 b r)
  have p3 := part3_apply V c ⟨4 * q + 2 + 1, hn⟩ b r i (by rw [hi']; dsimp only; omega) 3 (by dsimp only; omega)
  have p2 := part3_apply V c ⟨4 * q + 1 + 1, Nat.lt_of_succ_lt hn⟩ b r i (by rw [hi']; dsimp only; omega) 2 (by dsimp only; omega)
  have p1 := part3_apply V c ⟨4 * q + 1, Nat.lt_of_succ_lt (Nat.lt_of_succ_lt hn)⟩ b r i (by rw [hi']; dsimp only; omega) 1 (by dsimp only; omega)
  have p0 := part3_apply V c ⟨4 * q, Nat.lt_of_succ_lt (Nat.lt_of_succ_lt (Nat.lt_of_succ_lt hn))⟩ b r i (by rw [hi']; dsimp only; omega) 0 (by dsimp only; omega)
  have s3 := part4_apply V c ⟨4 * q + 2 + 1, hn⟩ b r i (by rw [hi']; dsimp only; omega) 3 (by dsimp only; omega)
  have s2 := part4_apply V c ⟨4 * q + 1 + 1, Nat.lt_of_succ_lt hn⟩ b r i (by rw [hi']; dsimp only; omega) 2 (by dsimp only; omega)
  have s1 := part4_apply V c ⟨4 * q + 1, Nat.lt_of_succ_lt (Nat.lt_of_succ_lt hn)⟩ b r i (by rw [hi']; dsimp only; omega) 1 (by dsimp only; omega)
  have s0 := part4_apply V c ⟨4 * q, Nat.lt_of_succ_lt (Nat.lt_of_succ_lt (Nat.lt_of_succ_lt hn))⟩ b r i (by rw [hi']; dsimp only; omega) 0 (by dsimp only; omega)
  constructor
  · show (outsAt1 V c (4 * q + 2 + 1) hn).1 (ix2 b r) = _
    rw [e3.1, e2.1, e1.1, e0.1, p3, p2, p1, p0]
    unfold Cert.Spec.cntTiled
    rw [Fin.sum_univ_four]
  · show (outsAt1 V c (4 * q + 2 + 1) hn).2 (ix2 b r) = _
    rw [e3.2, e2.2, e1.2, e0.2, s3, s2, s1, s0]
    unfold Cert.Spec.shTiled
    rw [Fin.sum_univ_four]

/-! ## From the written-back blocks to the arrays -/

/-- The tiled count as one array. -/
def G3 (c : Dev nD) : S512x512.Idx → EReal := fun y => Cert.Spec.cntTiled (P V c) (Dn V c) (Nm V c) (y 0) (y 1)
/-- The tiled hinge sum as one array. -/
def G4 (c : Dev nD) : S512x512.Idx → EReal := fun y => Cert.Spec.shTiled (P V c) (Dn V c) (Nm V c) (y 0) (y 1)

/-- An output block's entry `(b, r)` at point `t` sits at row `8 (t / 4) + b`, column `r` of its array. -/
theorem emb3 (t : Fin cfg1.N) (y : S8x512.Idx) :
    ((((cfg1.win 3).blk t).view.emb y : S512x512.Idx) 0).val = 8 * (t.val / 4) + (y 0).val
    ∧ ((((cfg1.win 3).blk t).view.emb y : S512x512.Idx) 1).val = (y 1).val := by
  obtain ⟨-, -, -, -, -, -, -, -, -, e0, e1, -⟩ := idx_facts t
  constructor
  · show win1_3.index t (0 : Fin 2) * 8 + 1 * (y 0).val = _; rw [e0]; omega
  · show win1_3.index t (1 : Fin 2) * 512 + 1 * (y 1).val = _; rw [e1]; omega
theorem emb4 (t : Fin cfg1.N) (y : S8x512.Idx) :
    ((((cfg1.win 4).blk t).view.emb y : S512x512.Idx) 0).val = 8 * (t.val / 4) + (y 0).val
    ∧ ((((cfg1.win 4).blk t).view.emb y : S512x512.Idx) 1).val = (y 1).val := by
  obtain ⟨-, -, -, -, -, -, -, -, -, -, -, e0, e1⟩ := idx_facts t
  constructor
  · show win1_4.index t (0 : Fin 2) * 8 + 1 * (y 0).val = _; rw [e0]; omega
  · show win1_4.index t (1 : Fin 2) * 512 + 1 * (y 1).val = _; rw [e1]; omega

/-- What a writing-back point writes into the first output array is its block of the tiled count. -/
theorem flushed3_eq (c : Dev nD) (t : Fin cfg1.N) (hf : (cfg1.win 3).flush t = true) :
    (dat1 V c).flushed 3 t = ((cfg1.win 3).blk t).view.read (Elt Ideal) (G3 V c) := by
  have h3 : t.val % 4 = 3 := (flush1_3 t).mp hf
  show (cfg1.win 3).cut (grid1.coords t) ((dat1 V c).after 3 t) = _
  rw [after1_3]
  refine funext fun (y : S8x512.Idx) => ?_
  rw [View.read_apply]
  obtain ⟨h0, h1⟩ := emb3 t y
  show (outsAt1 V c t.val t.isLt).1 y = G3 V c (((cfg1.win 3).blk t).view.emb y)
  rw [eq_ix2 y]
  refine ((acc_last V c t h3 (y 0) (y 1) _ h0).1).trans ?_
  unfold G3
  congr 1
  exact Fin.ext h1.symm

theorem flushed4_eq (c : Dev nD) (t : Fin cfg1.N) (hf : (cfg1.win 4).flush t = true) :
    (dat1 V c).flushed 4 t = ((cfg1.win 4).blk t).view.read (Elt Ideal) (G4 V c) := by
  have h3 : t.val % 4 = 3 := (flush1_4 t).mp hf
  show (cfg1.win 4).cut (grid1.coords t) ((dat1 V c).after 4 t) = _
  rw [after1_4]
  refine funext fun (y : S8x512.Idx) => ?_
  rw [View.read_apply]
  obtain ⟨h0, h1⟩ := emb4 t y
  show (outsAt1 V c t.val t.isLt).2 y = G4 V c (((cfg1.win 4).blk t).view.emb y)
  rw [eq_ix2 y]
  refine ((acc_last V c t h3 (y 0) (y 1) _ h0).2).trans ?_
  unfold G4
  congr 1
  exact Fin.ext h1.symm

/-- An index of an output array lies in point `t`'s block iff each coordinate lies in the block's range on its axis. -/
theorem mem_blk3 (t : Fin cfg1.N) (i : S512x512.Idx) :
    i ∈ ((cfg1.win 3).blk t).view.set ↔ ∀ a : Fin 2, win1_3.index t a * S8x512.size a ≤ (i a).val ∧ (i a).val < win1_3.index t a * S8x512.size a + S8x512.size a := by
  show i ∈ ((View.whole main_v19_0).slice (win1_3.rect t)).set ↔ _
  rw [View.set_slice_whole, Rect.mem_set_unit]
  exact Iff.rfl
theorem mem_blk4 (t : Fin cfg1.N) (i : S512x512.Idx) :
    i ∈ ((cfg1.win 4).blk t).view.set ↔ ∀ a : Fin 2, win1_4.index t a * S8x512.size a ≤ (i a).val ∧ (i a).val < win1_4.index t a * S8x512.size a + S8x512.size a := by
  show i ∈ ((View.whole main_v19_1).slice (win1_4.rect t)).set ↔ _
  rw [View.set_slice_whole, Rect.mem_set_unit]
  exact Iff.rfl

/-- Every row of an output array is written back by the last column tile of its anchor tile. -/
theorem cover3 (i : S512x512.Idx) : ∃ t : Fin cfg1.N, (cfg1.win 3).flush t = true ∧ i ∈ ((cfg1.win 3).blk t).view.set := by
  have hi0 : (i 0).val < 512 := (i 0).isLt
  have hi1 : (i 1).val < 512 := (i 1).isLt
  have hN : 4 * ((i 0).val / 8) + 3 < cfg1.N := by rw [N1]; omega
  refine ⟨⟨4 * ((i 0).val / 8) + 3, hN⟩, (flush1_3 _).mpr (by dsimp only; omega), ?_⟩
  rw [mem_blk3]
  obtain ⟨-, -, -, -, -, -, -, -, -, e0, e1, -⟩ := idx_facts ⟨4 * ((i 0).val / 8) + 3, hN⟩
  intro a
  match a with
  | ⟨0, _⟩ =>
    show win1_3.index ⟨4 * ((i 0).val / 8) + 3, hN⟩ (0 : Fin 2) * 8 ≤ (i 0).val ∧ (i 0).val < win1_3.index ⟨4 * ((i 0).val / 8) + 3, hN⟩ (0 : Fin 2) * 8 + 8
    rw [e0]; dsimp only; omega
  | ⟨1, _⟩ =>
    show win1_3.index ⟨4 * ((i 0).val / 8) + 3, hN⟩ (1 : Fin 2) * 512 ≤ (i 1).val ∧ (i 1).val < win1_3.index ⟨4 * ((i 0).val / 8) + 3, hN⟩ (1 : Fin 2) * 512 + 512
    rw [e1]; omega
theorem cover4 (i : S512x512.Idx) : ∃ t : Fin cfg1.N, (cfg1.win 4).flush t = true ∧ i ∈ ((cfg1.win 4).blk t).view.set := by
  have hi0 : (i 0).val < 512 := (i 0).isLt
  have hi1 : (i 1).val < 512 := (i 1).isLt
  have hN : 4 * ((i 0).val / 8) + 3 < cfg1.N := by rw [N1]; omega
  refine ⟨⟨4 * ((i 0).val / 8) + 3, hN⟩, (flush1_4 _).mpr (by dsimp only; omega), ?_⟩
  rw [mem_blk4]
  obtain ⟨-, -, -, -, -, -, -, -, -, -, -, e0, e1⟩ := idx_facts ⟨4 * ((i 0).val / 8) + 3, hN⟩
  intro a
  match a with
  | ⟨0, _⟩ =>
    show win1_4.index ⟨4 * ((i 0).val / 8) + 3, hN⟩ (0 : Fin 2) * 8 ≤ (i 0).val ∧ (i 0).val < win1_4.index ⟨4 * ((i 0).val / 8) + 3, hN⟩ (0 : Fin 2) * 8 + 8
    rw [e0]; dsimp only; omega
  | ⟨1, _⟩ =>
    show win1_4.index ⟨4 * ((i 0).val / 8) + 3, hN⟩ (1 : Fin 2) * 512 ≤ (i 1).val ∧ (i 1).val < win1_4.index ⟨4 * ((i 0).val / 8) + 3, hN⟩ (1 : Fin 2) * 512 + 512
    rw [e1]; omega

/-- THE TWO ARRAYS region 1 leaves: the tiled count and the tiled hinge sum of the three operand arrays it found. -/
theorem final3 (c : Dev nD) : (dat1 V c).arrAt 3 cfg1.N = G3 V c :=
  (dat1 V c).arrAt_eq_of_cover 3 (G3 V c) (flushed3_eq V c) cover3
theorem final4 (c : Dev nD) : (dat1 V c).arrAt 4 cfg1.N = G4 V c :=
  (dat1 V c).arrAt_eq_of_cover 4 (G4 V c) (flushed4_eq V c) cover4

end Cert.KernelIdeal.ArrVal

end
-- ==== Proof.Val.Pay0.lean ====
/-
  The distance kernel's body read at an index, over the extended reals: the squared distance through the Gram
  matrix, |x_i|² + |x_j|² − 2 ⟨x_i, x_j⟩, each squared norm a sum over the 256 coordinates of a row and the inner
  product the contraction of the embeddings with their transpose, and then the zero-safe square root.
-/
import proofs.«108628_j44933947851025_1_alg».proof.Proof.Gen.KernelIdeal.Skeleton
import proofs.«108628_j44933947851025_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Classical

namespace Cert.KernelIdeal.PayVal

open Idealize.ShloMosaic Idealize.ShloMosaic.ValueIdx Cert.KernelIdeal.Gen

/-! ## Layout operations at an index given by coordinates: a column kept as a unit axis -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A square root at an index is the root of the element. -/
theorem sqrt_apply {s : Shape} {φ : FTy} (a : FVec Ideal s φ) (i : s.Idx) : sqrt a i = Ideal.sqrt (a i) := rfl

/-! ## The two sums -/

/-- The sum over the second axis of a `[512, 256]` array, read at `i`: the sum over the row's 256 coordinates. -/
theorem rowSum_apply (src : FVec Ideal S512x256 .f32) (hφ : FKind.Formats .f32)
    (hacc : (0x00000000#32 : BitVec 32) = 0x00000000#32) (i : Fin 512) :
    multiReduction (F := Ideal) .add [1] S512 src 0x00000000#32 reduces_S512x256_S512 hφ hacc (ix1 i)
      = ∑ d : Fin 256, src (ix2 i d) :=
  (Ideal.multiReduction_add_single src 0x00000000#32 reduces_S512x256_S512 hφ hacc (ix1 i)).trans
    (Finset.sum_congr rfl fun d _ => congrArg src (funext fun a =>
      match a with
      | ⟨0, _⟩ => Fin.ext rfl
      | ⟨1, _⟩ => Fin.ext rfl))

/-- The product of a `[512, 256]` matrix with a `[256, 512]` one into the zero matrix, read at `(i, j)`: the sum
    over the 256 contracted coordinates of the operands' products. -/
theorem gram_apply (x : FVec Ideal S512x256 .f32) (y : FVec Ideal S256x512 .f32) (i j : Fin 512) :
    matmul (F := Ideal) dot_S512x256_S256x512_S512x512_1_0_0_1_n_n (some .fp32) x y
        (constant (F := Ideal) S512x512 .f32 0x00000000#32) (ix2 i j)
      = ∑ k : Fin 256, x (ix2 i k) * y (ix2 k j) := by
  refine (Ideal.matmul_constant_zero_apply dot_S512x256_S256x512_S512x512_1_0_0_1_n_n (some .fp32) x y (ix2 i j)).trans ?_
  rw [← Equiv.sum_comp (contrEquiv1 dot_S512x256_S256x512_S512x512_1_0_0_1_n_n 256 rfl rfl).symm]
  refine Finset.sum_congr rfl fun k _ => ?_
  have hl : dot_S512x256_S256x512_S512x512_1_0_0_1_n_n.lhsIdx (ix2 i j)
      ((contrEquiv1 dot_S512x256_S256x512_S512x512_1_0_0_1_n_n 256 rfl rfl).symm k) = ix2 i k := by
    funext a
    match a with
    | ⟨0, _⟩ => exact Fin.ext rfl
    | ⟨1, _⟩ =>
      exact Fin.ext ((DotDims.lhsIdx_val_of_single dot_S512x256_S256x512_S512x512_1_0_0_1_n_n (cl := 1) rfl _ _).trans
        (contrEquiv1_symm_val dot_S512x256_S256x512_S512x512_1_0_0_1_n_n 256 rfl rfl k))
  have hr : dot_S512x256_S256x512_S512x512_1_0_0_1_n_n.rhsIdx (ix2 i j)
      ((contrEquiv1 dot_S512x256_S256x512_S512x512_1_0_0_1_n_n 256 rfl rfl).symm k) = ix2 k j := by
    funext a
    match a with
    | ⟨0, _⟩ =>
      exact Fin.ext ((DotDims.rhsIdx_val_of_single dot_S512x256_S256x512_S512x512_1_0_0_1_n_n (cr := 0) rfl _ _).trans
        (contrEquiv1_symm_val dot_S512x256_S256x512_S512x512_1_0_0_1_n_n 256 rfl rfl k))
    | ⟨1, _⟩ => exact Fin.ext rfl
  rw [hl, hr]

/-- The embeddings times their own transpose, read at `(i, j)`: the inner product of rows `i` and `j`. -/
theorem gramT_apply (x : FVec Ideal S512x256 .f32) (i j : Fin 512) :
    matmul (F := Ideal) dot_S512x256_S256x512_S512x512_1_0_0_1_n_n (some .fp32) x
        (transpose S256x512 [1, 0] x transposes_S512x256_p1_0_S256x512)
        (constant (F := Ideal) S512x512 .f32 0x00000000#32) (ix2 i j)
      = ∑ k : Fin 256, x (ix2 i k) * x (ix2 j k) :=
  (gram_apply x _ i j).trans
    (Finset.sum_congr rfl fun k _ => congrArg (x (ix2 i k) * ·) (transpose_ix2_apply x _ k j))

/-- The squared norms kept as a column, read at `(i, u)`: the sum of the squares of row `i`. -/
theorem sqnCol_apply (x : FVec Ideal S512x256 .f32) (hφ : FKind.Formats .f32)
    (hacc : (0x00000000#32 : BitVec 32) = 0x00000000#32) (i : Fin 512) (u : Fin 1) :
    shapeCast S512x1
        (multiReduction (F := Ideal) .add [1] S512 (mulf x x) 0x00000000#32 reduces_S512x256_S512 hφ hacc)
        shapeCasts_S512_S512x1 (ix2 i u)
      = ∑ d : Fin 256, x (ix2 i d) * x (ix2 i d) :=
  (shapeCast_a_a1_apply _ _ i u).trans (rowSum_apply (mulf x x) hφ hacc i)

/-- The same column laid as a row by the transpose, read at `(u, j)`: the sum of the squares of row `j`. -/
theorem sqnRow_apply (x : FVec Ideal S512x256 .f32) (hφ : FKind.Formats .f32)
    (hacc : (0x00000000#32 : BitVec 32) = 0x00000000#32) (u : Fin 1) (j : Fin 512) :
    transpose S1x512 [1, 0]
        (shapeCast S512x1
          (multiReduction (F := Ideal) .add [1] S512 (mulf x x) 0x00000000#32 reduces_S512x256_S512 hφ hacc)
          shapeCasts_S512_S512x1)
        transposes_S512x1_p1_0_S1x512 (ix2 u j)
      = ∑ d : Fin 256, x (ix2 j d) * x (ix2 j d) :=
  (transpose_ix2_apply _ _ u j).trans (sqnCol_apply x hφ hacc j u)

/-! ## The float literals -/

/-- The single-precision pattern of `1.0` denotes `1`. -/
theorem ofBits_one_f32 : Ideal.ofBits .f32 0x3F800000#32 = 1 := by
  simp [Ideal.ofBits, Ideal.ieee, -EReal.coe_mul]; norm_num

/-- The single-precision pattern of `2.0` denotes `2`. -/
theorem ofBits_two_f32 : Ideal.ofBits .f32 0x40000000#32 = 2 := by
  simp [Ideal.ofBits, Ideal.ieee, -EReal.coe_mul]; norm_num; rfl

/-! ## The zero-safe root -/

/-- The two selects around the root, on one value: zero where the square is not positive, else the root of the square
    (the inner select only keeps the root's argument positive where the outer one discards it). -/
theorem dist_scalar (sq : EReal) :
    Scalar.select (Ideal.cmp .ole sq (Ideal.ofBits .f32 0x00000000#32)) (Ideal.ofBits .f32 0x00000000#32)
        (Ideal.sqrt (Scalar.select (Ideal.cmp .ole sq (Ideal.ofBits .f32 0x00000000#32)) (Ideal.ofBits .f32 0x3F800000#32) sq))
      = Cert.Spec.distOf sq := by
  rw [Ideal.ofBits_zero_f32, ofBits_one_f32]
  unfold Cert.Spec.distOf Scalar.select Ideal.cmp
  by_cases h : sq ≤ 0
  · simp [h]
  · simp [h]

/-! ## The payload -/

/-- The distance kernel's stored value at `(i, j)`: the zero-safe root of the Gram-matrix squared distance of rows
    `i` and `j`. -/
theorem pay0_apply (x : Vec Ideal S512x256 .f32) (i j : Fin 512) :
    k0_pay1 (F := Ideal) x (ix2 i j) = Cert.Spec.distK (fun a d => x (ix2 a d)) i j := by
  unfold k0_pay1
  simp only [select_apply, cmpf_apply, broadcast_apply, sqrt_apply, subf_apply, addf_apply, mulf_apply,
    broadcastTo_a1_ab_apply, broadcastTo_1b_ab_apply]
  rw [sqnCol_apply, sqnRow_apply, gramT_apply]
  refine (dist_scalar _).trans ?_
  rw [Ideal.ofBits_def, ofBits_two_f32]
  rfl

end Cert.KernelIdeal.PayVal

end
-- ==== Proof.LibReduceAny.lean ====
/-
  A `stablehlo.reduce` of an `i1` array by `or`, read back (`jnp.any` along the reduced axes): the result at an
  index is 1 exactly when the initial value is 1 or some operand element that reduces into that index is 1. The twin of
  the `and` reduction's read-back, as an equivalence.
-/
import Idealize.ShloMosaic.Lib.Affine
import Idealize.ShloMosaic.PureOps.Reduce

namespace Idealize.ShloMosaic

namespace IntOp

/-- A left fold by `or` over `i1` words comes out 1 exactly when it started at 1 or met a 1. -/
theorem foldl_ori_eq_one_iff {ι : Type} (f : ι → BitVec 1) :
    ∀ (l : List ι) (init : BitVec 1),
      l.foldl (fun r n => ori r (f n)) init = 1#1 ↔ (init = 1#1 ∨ ∃ n ∈ l, f n = 1#1)
  | [], init => by simp
  | a :: l, init => by
    rw [List.foldl_cons, foldl_ori_eq_one_iff f l, ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

end IntOp

namespace Host

variable {s t u : Shape} {axes : List (Fin s.rank)}

/-- A `stablehlo.reduce` by `or` is 1 at `j` exactly when its initial value is 1 or the operand is 1 at some index
    that reduces into `j`. -/
theorem reduce_ori_eq_one_iff (x : s.Idx → BitVec 1) (init : u.Idx → BitVec 1) (h : s.ReducesTo axes t) (hu : 0 < u.numel)
    (j : t.Idx) :
    Host.reduce IntOp.ori x init h hu j = 1#1 ↔ (init (Shape.Idx.first hu) = 1#1 ∨ ∃ i : s.Idx, h.drop i = j ∧ x i = 1#1) := by
  rw [Host.reduce_eq_foldl, IntOp.foldl_ori_eq_one_iff]
  refine or_congr Iff.rfl ⟨?_, ?_⟩
  · rintro ⟨i, hi, hx⟩
    rw [List.mem_filter] at hi
    exact ⟨i, by simpa using hi.2, hx⟩
  · rintro ⟨i, hi, hx⟩
    exact ⟨i, List.mem_filter.2 ⟨List.mem_map.2 ⟨s.rowMajor i, List.mem_finRange _, Equiv.symm_apply_apply _ _⟩,
      by simp [hi]⟩, hx⟩

end Host

end Idealize.ShloMosaic
-- ==== Proof.Consts.lean ====
/-
  The float literals of the two programs other than the margin, as the extended reals they denote: the words of 1, 2
  and +∞ in single precision (the word of 0 is the library's `Ideal.ofBits_zero_f32`).
-/
import Idealize.ShloMosaic.PureOps.Ideal.Laws

noncomputable section

namespace Cert.Consts

open Idealize.ShloMosaic

theorem ofBits_one_f32 : Ideal.ofBits .f32 0x3F800000#32 = (1 : EReal) := by
  simp [Ideal.ofBits, Ideal.ieee, -EReal.coe_mul]; norm_num
theorem ofBits_two_f32 : Ideal.ofBits .f32 0x40000000#32 = (2 : EReal) := by
  simp [Ideal.ofBits, Ideal.ieee, -EReal.coe_mul]; norm_num; rfl
theorem ofBits_top_f32 : Ideal.ofBits .f32 0x7F800000#32 = (⊤ : EReal) := by
  simp [Ideal.ofBits, Ideal.ieee]

end Cert.Consts

end
-- ==== Proof.Val.HostK2.lean ====
/-
  The kernel program's host tail read at an index: from the distance matrix, the two mined matrices and the labels
  to the loss, as the two masked sums over all pairs and their guarded quotient.
-/
import proofs.«108628_j44933947851025_1_alg».proof.Proof.Val.HostK
import proofs.«108628_j44933947851025_1_alg».proof.Proof.LibReduceAny
import proofs.«108628_j44933947851025_1_alg».proof.Proof.Consts

noncomputable section

open scoped BigOperators

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx

/-! ## The host tail, stretch by stretch, over any contents before the stretch -/

section Stretches

variable (W : Valuation τ sig (Elt Ideal))

theorem after2_v21 : StableHlo.after (hostOps2 (F := Ideal)) W (Proc.devRef .tc main_v21)
    = addf (W (Proc.devRef .tc main_v0)) (broadcastInDim S512x512 ![] bcast_S_S512x512 (constant (F := Ideal) S_ .f32 0x3E99999A#32)) := by
  simp only [hostOps2]
  after_results_simp

theorem after2_v23 : StableHlo.after (hostOps2 (F := Ideal)) W (Proc.devRef .tc main_v23)
    = cmpf .ogt (W (Proc.devRef .tc main_v19_0)) (broadcastInDim S512x512 ![] bcast_S_S512x512 (constant (F := Ideal) S_ .f32 0x00000000#32)) := by
  simp only [hostOps2]
  after_results_simp

theorem after2_1_v24 : StableHlo.after (hostOps2_1 (F := Ideal)) W (Proc.devRef .tc main_v24)
    = select (W (Proc.devRef .tc main_v23)) (W (Proc.devRef .tc main_v19_1)) (W (Proc.devRef .tc main_v21)) := by
  simp only [hostOps2_1]
  after_results_simp
  simp only [StableHlo.TRef.toBuf, StableHlo.TRef.ofBuf, cast_eq, id]

theorem after2_2_v26 : StableHlo.after (hostOps2_2 (F := Ideal)) W (Proc.devRef .tc main_v26)
    = cmpf .ogt (W (Proc.devRef .tc main_v19_0)) (broadcastInDim S512x512 ![] bcast_S_S512x512 (constant (F := Ideal) S_ .f32 0x00000000#32)) := by
  simp only [hostOps2_2]
  after_results_simp

theorem after2_2_cst3 : StableHlo.after (hostOps2_2 (F := Ideal)) W (Proc.devRef .tc main_cst_3)
    = constant (F := Ideal) S_ .f32 0x3F800000#32 := by
  simp only [hostOps2_2]
  after_results_simp

theorem after2_3_v27 : StableHlo.after (hostOps2_3 (F := Ideal)) W (Proc.devRef .tc main_v27)
    = select (W (Proc.devRef .tc main_v26)) (W (Proc.devRef .tc main_v19_0))
        (broadcastInDim S512x512 ![] bcast_S_S512x512 (W (Proc.devRef .tc main_cst_3))) := by
  simp only [hostOps2_3]
  after_results_simp
  simp only [StableHlo.TRef.toBuf, StableHlo.TRef.ofBuf, cast_eq, id]

theorem after2_4_v30 : StableHlo.after (hostOps2_4 (F := Ideal)) W (Proc.devRef .tc main_v30)
    = andi (W (Proc.devRef .tc main_v12))
        (broadcastInDim S512x512 ![0, 1] bcast_S512x1_S512x512_0_1
          (broadcastInDim S512x1 ![0] bcast_S512_S512x1_0 (W (Proc.devRef .tc main_v15)))) := by
  simp only [hostOps2_4]
  after_results_simp

theorem after2_4_cst4 : StableHlo.after (hostOps2_4 (F := Ideal)) W (Proc.devRef .tc main_cst_4)
    = constant (F := Ideal) S_ .f32 0x00000000#32 := by
  simp only [hostOps2_4]
  after_results_simp

theorem after2_5_v31 : StableHlo.after (hostOps2_5 (F := Ideal)) W (Proc.devRef .tc main_v31)
    = select (W (Proc.devRef .tc main_v30)) (W (Proc.devRef .tc main_v24))
        (broadcastInDim S512x512 ![] bcast_S_S512x512 (W (Proc.devRef .tc main_cst_4))) := by
  simp only [hostOps2_5]
  after_results_simp
  simp only [StableHlo.TRef.toBuf, StableHlo.TRef.ofBuf, cast_eq, id]

theorem after2_6_v32 : StableHlo.after (hostOps2_6 (F := Ideal)) W (Proc.devRef .tc main_v32)
    = Host.reduceAdd (W (Proc.devRef .tc main_v31)) (constant (F := Ideal) S_ .f32 0x00000000#32) reducesTo_S512x512_S_d0_1 h_S_ := by
  simp only [hostOps2_6]
  after_results_simp

theorem after2_6_cst6 : StableHlo.after (hostOps2_6 (F := Ideal)) W (Proc.devRef .tc main_cst_6)
    = constant (F := Ideal) S_ .f32 0x00000000#32 := by
  simp only [hostOps2_6]
  after_results_simp

theorem after2_7_v33 : StableHlo.after (hostOps2_7 (F := Ideal)) W (Proc.devRef .tc main_v33)
    = select (W (Proc.devRef .tc main_v30)) (W (Proc.devRef .tc main_v27))
        (broadcastInDim S512x512 ![] bcast_S_S512x512 (W (Proc.devRef .tc main_cst_6))) := by
  simp only [hostOps2_7]
  after_results_simp
  simp only [StableHlo.TRef.toBuf, StableHlo.TRef.ofBuf, cast_eq, id]

theorem after2_8_v34 : StableHlo.after (hostOps2_8 (F := Ideal)) W (Proc.devRef .tc main_v34)
    = Host.reduceAdd (W (Proc.devRef .tc main_v33)) (constant (F := Ideal) S_ .f32 0x00000000#32) reducesTo_S512x512_S_d0_1 h_S_ := by
  simp only [hostOps2_8]
  after_results_simp

theorem after2_8_v35 : StableHlo.after (hostOps2_8 (F := Ideal)) W (Proc.devRef .tc main_v35)
    = cmpf .ogt (Host.reduceAdd (W (Proc.devRef .tc main_v33)) (constant (F := Ideal) S_ .f32 0x00000000#32) reducesTo_S512x512_S_d0_1 h_S_)
        (constant (F := Ideal) S_ .f32 0x00000000#32) := by
  simp only [hostOps2_8]
  after_results_simp

theorem after2_8_v36 : StableHlo.after (hostOps2_8 (F := Ideal)) W (Proc.devRef .tc main_v36)
    = Host.divf (W (Proc.devRef .tc main_v32))
        (Host.reduceAdd (W (Proc.devRef .tc main_v33)) (constant (F := Ideal) S_ .f32 0x00000000#32) reducesTo_S512x512_S_d0_1 h_S_) := by
  simp only [hostOps2_8]
  after_results_simp

theorem after2_8_cst9 : StableHlo.after (hostOps2_8 (F := Ideal)) W (Proc.devRef .tc main_cst_9)
    = constant (F := Ideal) S_ .f32 0x00000000#32 := by
  simp only [hostOps2_8]
  after_results_simp

theorem after2_9_v37 : StableHlo.after (hostOps2_9 (F := Ideal)) W (Proc.devRef .tc main_v37)
    = select (W (Proc.devRef .tc main_v35)) (W (Proc.devRef .tc main_v36)) (W (Proc.devRef .tc main_cst_9)) := by
  simp only [hostOps2_9]
  after_results_simp
  simp only [StableHlo.TRef.toBuf, StableHlo.TRef.ofBuf, cast_eq, id]

end Stretches

/-! ## The buffers the tail reads, walked back to where they were written -/

/-- The float constants the tail splats. -/
abbrev czero : FVec Ideal S_ .f32 := constant S_ .f32 0x00000000#32
abbrev cone : FVec Ideal S_ .f32 := constant S_ .f32 0x3F800000#32
abbrev cmargin : FVec Ideal S_ .f32 := constant S_ .f32 0x3E99999A#32
abbrev splat (x : FVec Ideal S_ .f32) : FVec Ideal S512x512 .f32 := broadcastInDim S512x512 ![] bcast_S_S512x512 x
/-- The sum over every element the tail takes twice. -/
abbrev sumAll (x : FVec Ideal S512x512 .f32) : FVec Ideal S_ .f32 := Host.reduceAdd x czero reducesTo_S512x512_S_d0_1 h_S_
/-- The "some positive in the row" bit, per row. -/
abbrev anyRow (l : IVec S512 32) : IVec S512 1 :=
  Host.reduce IntOp.ori (matchesV l) (constantI S_ 1 0#1) reducesTo_S512x512_S512_d1 h_S_

section Walk

variable (m : (ℓ : Loc nD τ sig) → Buf (Elt Ideal) ℓ) (outs : Gen.Outs (F := Ideal)) (c : Dev nD)

theorem V3_v0 : Gen.V3 m outs c main_v0 = Gen.V1 m outs c main_v0 :=
  (Gen.V3_of m outs c main_v0 (by decide)).trans (Gen.V2_of m outs c main_v0 (by decide))

theorem V7_v12 : Gen.V7 m outs c main_v12 = matchesV (Gen.V0 m c main_arg1) :=
  (Gen.V7_of m outs c main_v12 (by decide)).trans <| (Gen.V6_of m outs c main_v12 (by decide)).trans <|
  (Gen.V5_of m outs c main_v12 (by decide)).trans <| (Gen.V4_of m outs c main_v12 (by decide)).trans <|
  (Gen.V3_of m outs c main_v12 (by decide)).trans <| (after1_v12 (Gen.V1 m outs c)).trans (by rw [V1_arg1])

theorem V7_v15 : Gen.V7 m outs c main_v15 = anyRow (Gen.V0 m c main_arg1) :=
  (Gen.V7_of m outs c main_v15 (by decide)).trans <| (Gen.V6_of m outs c main_v15 (by decide)).trans <|
  (Gen.V5_of m outs c main_v15 (by decide)).trans <| (Gen.V4_of m outs c main_v15 (by decide)).trans <|
  (Gen.V3_of m outs c main_v15 (by decide)).trans <| (after1_v15 (Gen.V1 m outs c)).trans (by rw [V1_arg1])

theorem V4_v21 : Gen.V4 m outs c main_v21 = addf (F := Ideal) (Gen.V1 m outs c main_v0) (splat cmargin) :=
  (after2_v21 (Gen.V3 m outs c)).trans (by rw [V3_v0])

theorem V4_v23 : Gen.V4 m outs c main_v23 = cmpf (F := Ideal) .ogt (Gen.V3 m outs c main_v19_0) (splat czero) :=
  after2_v23 (Gen.V3 m outs c)

theorem V4_v19_1 : Gen.V4 m outs c main_v19_1 = Gen.V3 m outs c main_v19_1 := Gen.V4_of m outs c main_v19_1 (by decide)

theorem V5_v24 : Gen.V5 m outs c main_v24
    = select (cmpf (F := Ideal) .ogt (Gen.V3 m outs c main_v19_0) (splat czero)) (Gen.V3 m outs c main_v19_1)
        (addf (F := Ideal) (Gen.V1 m outs c main_v0) (splat cmargin)) :=
  (after2_1_v24 (Gen.V4 m outs c)).trans (by rw [V4_v23, V4_v21, V4_v19_1])

theorem V5_v19_0 : Gen.V5 m outs c main_v19_0 = Gen.V3 m outs c main_v19_0 :=
  (Gen.V5_of m outs c main_v19_0 (by decide)).trans (Gen.V4_of m outs c main_v19_0 (by decide))

theorem V6_v26 : Gen.V6 m outs c main_v26 = cmpf (F := Ideal) .ogt (Gen.V3 m outs c main_v19_0) (splat czero) :=
  (after2_2_v26 (Gen.V5 m outs c)).trans (by rw [V5_v19_0])

theorem V6_cst3 : Gen.V6 m outs c main_cst_3 = cone := after2_2_cst3 (Gen.V5 m outs c)

theorem V6_v19_0 : Gen.V6 m outs c main_v19_0 = Gen.V3 m outs c main_v19_0 :=
  (Gen.V6_of m outs c main_v19_0 (by decide)).trans (V5_v19_0 m outs c)

theorem V7_v27 : Gen.V7 m outs c main_v27
    = select (cmpf (F := Ideal) .ogt (Gen.V3 m outs c main_v19_0) (splat czero)) (Gen.V3 m outs c main_v19_0) (splat cone) :=
  (after2_3_v27 (Gen.V6 m outs c)).trans (by rw [V6_v26, V6_cst3, V6_v19_0])

theorem V8_v30 : Gen.V8 m outs c main_v30
    = andi (matchesV (Gen.V0 m c main_arg1))
        (broadcastInDim S512x512 ![0, 1] bcast_S512x1_S512x512_0_1
          (broadcastInDim S512x1 ![0] bcast_S512_S512x1_0 (anyRow (Gen.V0 m c main_arg1)))) :=
  (after2_4_v30 (Gen.V7 m outs c)).trans (by rw [V7_v12, V7_v15])

theorem V8_cst4 : Gen.V8 m outs c main_cst_4 = czero := after2_4_cst4 (Gen.V7 m outs c)

theorem V8_v24 : Gen.V8 m outs c main_v24 = Gen.V5 m outs c main_v24 :=
  (Gen.V8_of m outs c main_v24 (by decide)).trans <| (Gen.V7_of m outs c main_v24 (by decide)).trans
    (Gen.V6_of m outs c main_v24 (by decide))

theorem V9_v31 : Gen.V9 m outs c main_v31
    = select (Gen.V8 m outs c main_v30) (Gen.V5 m outs c main_v24) (splat czero) :=
  (after2_5_v31 (Gen.V8 m outs c)).trans (by rw [V8_cst4, V8_v24])

theorem V10_cst6 : Gen.V10 m outs c main_cst_6 = czero := after2_6_cst6 (Gen.V9 m outs c)

theorem V10_v30 : Gen.V10 m outs c main_v30 = Gen.V8 m outs c main_v30 :=
  (Gen.V10_of m outs c main_v30 (by decide)).trans (Gen.V9_of m outs c main_v30 (by decide))

theorem V10_v27 : Gen.V10 m outs c main_v27 = Gen.V7 m outs c main_v27 :=
  (Gen.V10_of m outs c main_v27 (by decide)).trans <| (Gen.V9_of m outs c main_v27 (by decide)).trans
    (Gen.V8_of m outs c main_v27 (by decide))

theorem V11_v33 : Gen.V11 m outs c main_v33
    = select (Gen.V8 m outs c main_v30) (Gen.V7 m outs c main_v27) (splat czero) :=
  (after2_7_v33 (Gen.V10 m outs c)).trans (by rw [V10_cst6, V10_v30, V10_v27])

theorem V11_v32 : Gen.V11 m outs c main_v32 = sumAll (Gen.V9 m outs c main_v31) :=
  (Gen.V11_of m outs c main_v32 (by decide)).trans (after2_6_v32 (Gen.V9 m outs c))

theorem V12_v35 : Gen.V12 m outs c main_v35 = cmpf (F := Ideal) .ogt (sumAll (Gen.V11 m outs c main_v33)) czero :=
  after2_8_v35 (Gen.V11 m outs c)

theorem V12_v36 : Gen.V12 m outs c main_v36
    = Host.divf (F := Ideal) (sumAll (Gen.V9 m outs c main_v31)) (sumAll (Gen.V11 m outs c main_v33)) :=
  (after2_8_v36 (Gen.V11 m outs c)).trans (by rw [V11_v32])

theorem V12_cst9 : Gen.V12 m outs c main_cst_9 = czero := after2_8_cst9 (Gen.V11 m outs c)

theorem V13_v37 : Gen.V13 m outs c main_v37
    = select (cmpf (F := Ideal) .ogt (sumAll (Gen.V11 m outs c main_v33)) czero)
        (Host.divf (F := Ideal) (sumAll (Gen.V9 m outs c main_v31)) (sumAll (Gen.V11 m outs c main_v33))) czero :=
  (after2_9_v37 (Gen.V12 m outs c)).trans (by rw [V12_v35, V12_v36, V12_cst9])

end Walk

/-! ## The tail at an index -/

/-- A row's reduced index is its row coordinate. -/
theorem drop_row (idx : S512x512.Idx) : reducesTo_S512x512_S512_d1.drop idx = ix1 (idx 0) := by
  funext b; match b with | ⟨0, _⟩ => rfl

theorem bcastUnit_apply {α : Type} (x : S512.Idx → α) (i : Fin 512) :
    broadcastInDim S512x1 ![0] bcast_S512_S512x1_0 x (ix2 i (0 : Fin 1)) = x (ix1 i) :=
  broadcastInDim_apply _ bcast_S512_S512x1_0 x _ (ix1 i) (fun a => match a with
    | ⟨0, _⟩ => by show i.val = if (512 : Nat) = 1 then 0 else i.val; rw [if_neg (by decide)])

/-- The or-reduction along a row is set exactly when the row's anchor has a positive. -/
theorem anyRow_eq_one_iff (l : IVec S512 32) (i : Fin 512) :
    anyRow l (ix1 i) = 1#1 ↔ Cert.Spec.hasPos (fun a => l (ix1 a)) i := by
  unfold anyRow
  rw [Host.reduce_ori_eq_one_iff]
  unfold Cert.Spec.hasPos
  constructor
  · rintro (h | ⟨idx, hd, hx⟩)
    · have h' : (0#1 : BitVec 1) = 1#1 := h
      exact absurd h' (by decide)
    · obtain ⟨a, b, rfl⟩ : ∃ (a b : Fin 512), idx = ix2 a b := ⟨idx 0, idx 1, eq_ix2 idx⟩
      rw [drop_row] at hd
      have h0 : a = i := congrFun hd 0
      subst h0
      exact ⟨b, (matchesV_eq_one_iff l a b).1 hx⟩
  · rintro ⟨j, hj⟩
    exact Or.inr ⟨ix2 i j, (drop_row _).trans rfl, (matchesV_eq_one_iff l i j).2 hj⟩

theorem andi_apply {s : Shape} {w : Nat} (x y : IVec s w) (i : s.Idx) : andi x y i = IntOp.andi (x i) (y i) := rfl

/-- The ordered "greater than" is 1 exactly on a strict inequality. -/
theorem cmp_ogt_eq_one_iff (x y : EReal) : Ideal.cmp .ogt x y = 1#1 ↔ y < x := by
  by_cases h : y < x <;> simp [Ideal.cmp, h]

/-- A select on "greater than zero" is the `if`. -/
theorem select_cmp_ogt_zero {α : Type} (x : EReal) (a b : α) :
    Scalar.select (Ideal.cmp .ogt x 0) a b = if x > 0 then a else b := by
  by_cases h : (0 : EReal) < x
  · rw [if_pos h, (cmp_ogt_eq_one_iff x 0).2 h, select_one]
  · rw [if_neg h, eq_zero_of_ne_one (fun e => h ((cmp_ogt_eq_one_iff x 0).1 e)), select_zero]

theorem splat_apply (x : FVec Ideal S_ .f32) (i : S512x512.Idx) : splat x i = x ix0 := bcastScalar_apply x i

/-- Summing every element, from zero. -/
theorem sumAll_apply (x : FVec Ideal S512x512 .f32) (j : S_.Idx) :
    sumAll x j = ∑ a : Fin 512, ∑ b : Fin 512, x (ix2 a b) := by
  unfold sumAll
  simp only [Host.reduceAdd, Ideal.hostReduceAdd_def]
  rw [Ideal.hostReduceAdd_total reducesTo_S512x512_S_d0_1 (fun b => b.elim0) x _ j, sum_idx2]
  show Ideal.ofBits .f32 0x00000000#32 + _ = _
  rw [Ideal.ofBits_zero_f32, zero_add]

section Point

open Classical

variable (m : (ℓ : Loc nD τ sig) → Buf (Elt Ideal) ℓ) (outs : Gen.Outs (F := Ideal)) (c : Dev nD)

/-- The labels, the distances and the two mined matrices as the tail reads them, by coordinates. -/
abbrev labAt : Cert.Spec.Lab := fun a => Gen.V0 m c main_arg1 (ix1 a)
abbrev distAt : Cert.Spec.Mat := fun i j => Gen.V1 m outs c main_v0 (ix2 i j)
abbrev cntAt : Cert.Spec.Mat := fun i j => Gen.V3 m outs c main_v19_0 (ix2 i j)
abbrev shAt : Cert.Spec.Mat := fun i j => Gen.V3 m outs c main_v19_1 (ix2 i j)

/-- The pairs the loss runs over, as the host's bit. -/
theorem v30_eq_one_iff (i j : Fin 512) :
    Gen.V8 m outs c main_v30 (ix2 i j) = 1#1 ↔ Cert.Spec.valid (labAt m c) i j := by
  rw [V8_v30, andi_apply, bcastRow_apply, bcastUnit_apply, IntOp.andi_eq_one, matchesV_eq_one_iff, anyRow_eq_one_iff]
  rfl

/-- The per-pair loss before masking. -/
theorem v24_apply (i j : Fin 512) :
    Gen.V5 m outs c main_v24 (ix2 i j)
      = if cntAt m outs c i j > 0 then shAt m outs c i j
        else distAt m outs c i j + Cert.Spec.margin := by
  rw [V5_v24, select_apply, cmpf_apply, addf_apply, splat_apply, splat_apply]
  show Scalar.select (Ideal.cmp .ogt _ (Ideal.ofBits .f32 0x00000000#32)) _ (_ + Ideal.ofBits .f32 0x3E99999A#32) = _
  rw [Ideal.ofBits_zero_f32, select_cmp_ogt_zero]
  rfl

/-- The per-pair triplet count before masking. -/
theorem v27_apply (i j : Fin 512) :
    Gen.V7 m outs c main_v27 (ix2 i j)
      = if cntAt m outs c i j > 0 then cntAt m outs c i j else 1 := by
  rw [V7_v27, select_apply, cmpf_apply, splat_apply, splat_apply]
  show Scalar.select (Ideal.cmp .ogt _ (Ideal.ofBits .f32 0x00000000#32)) _ (Ideal.ofBits .f32 0x3F800000#32) = _
  rw [Ideal.ofBits_zero_f32, select_cmp_ogt_zero, Cert.Consts.ofBits_one_f32]

theorem v31_apply (i j : Fin 512) :
    Gen.V9 m outs c main_v31 (ix2 i j)
      = if Cert.Spec.valid (labAt m c) i j then
          (if cntAt m outs c i j > 0 then shAt m outs c i j
            else distAt m outs c i j + Cert.Spec.margin)
        else 0 := by
  rw [V9_v31, select_apply]
  by_cases hv : Cert.Spec.valid (labAt m c) i j
  · rw [if_pos hv, (v30_eq_one_iff m outs c i j).2 hv, select_one, v24_apply]
  · rw [if_neg hv, eq_zero_of_ne_one (fun e => hv ((v30_eq_one_iff m outs c i j).1 e)), select_zero, splat_apply]
    exact Ideal.ofBits_zero_f32

theorem v33_apply (i j : Fin 512) :
    Gen.V11 m outs c main_v33 (ix2 i j)
      = if Cert.Spec.valid (labAt m c) i j then
          (if cntAt m outs c i j > 0 then cntAt m outs c i j else 1)
        else 0 := by
  rw [V11_v33, select_apply]
  by_cases hv : Cert.Spec.valid (labAt m c) i j
  · rw [if_pos hv, (v30_eq_one_iff m outs c i j).2 hv, select_one, v27_apply]
  · rw [if_neg hv, eq_zero_of_ne_one (fun e => hv ((v30_eq_one_iff m outs c i j).1 e)), select_zero, splat_apply]
    exact Ideal.ofBits_zero_f32

/-- THE TAIL: the program's result is the specification's tail of the distances, the two mined matrices and the labels. -/
theorem v37_eq :
    Gen.V13 m outs c main_v37 ix0
      = Cert.Spec.tailK (distAt m outs c) (cntAt m outs c) (shAt m outs c) (labAt m c) := by
  have hT : sumAll (Gen.V9 m outs c main_v31) ix0
      = ∑ i, ∑ j, (if Cert.Spec.valid (labAt m c) i j then
          (if cntAt m outs c i j > 0 then shAt m outs c i j else distAt m outs c i j + Cert.Spec.margin) else 0) := by
    rw [sumAll_apply]
    exact Finset.sum_congr rfl fun i _ => Finset.sum_congr rfl fun j _ => v31_apply m outs c i j
  have hN : sumAll (Gen.V11 m outs c main_v33) ix0
      = ∑ i, ∑ j, (if Cert.Spec.valid (labAt m c) i j then
          (if cntAt m outs c i j > 0 then cntAt m outs c i j else 1) else 0) := by
    rw [sumAll_apply]
    exact Finset.sum_congr rfl fun i _ => Finset.sum_congr rfl fun j _ => v33_apply m outs c i j
  rw [V13_v37, select_apply, cmpf_apply]
  show Scalar.select (Ideal.cmp .ogt (sumAll (Gen.V11 m outs c main_v33) ix0) (Ideal.ofBits .f32 0x00000000#32))
      (Ideal.div (sumAll (Gen.V9 m outs c main_v31) ix0) (sumAll (Gen.V11 m outs c main_v33) ix0))
      (Ideal.ofBits .f32 0x00000000#32) = _
  rw [hT, hN, Ideal.ofBits_zero_f32, select_cmp_ogt_zero]
  rfl

end Point

end Cert.KernelIdeal.HostVal

end
-- ==== Proof.Val.KernelLoss.lean ====
import proofs.«108628_j44933947851025_1_alg».proof.Proof.Gen.KernelIdeal.Regions
import proofs.«108628_j44933947851025_1_alg».proof.Proof.Spec
import proofs.«108628_j44933947851025_1_alg».proof.Proof.Bridge.Tiles
import proofs.«108628_j44933947851025_1_alg».proof.Proof.Val.HostK
import proofs.«108628_j44933947851025_1_alg».proof.Proof.Val.Arr0
import proofs.«108628_j44933947851025_1_alg».proof.Proof.Val.Arr1
import proofs.«108628_j44933947851025_1_alg».proof.Proof.Val.Pay0
import proofs.«108628_j44933947851025_1_alg».proof.Proof.Val.HostK2
import proofs.«108628_j44933947851025_1_alg».proof.Proof.KI.Run

noncomputable section

open scoped BigOperators

namespace Cert.KernelIdeal.LossVal

open Cert.KernelIdeal Cert.KernelIdeal.Gen Cert.KernelIdeal.Hand
open Idealize.ShloMosaic Idealize.ShloMosaic.TcCoe Idealize.SL.Sem Idealize.ShloMosaic.ValueIdx

/-! # The kernel program's result is the specification's loss

The program is two kernel regions among host stretches. The first region leaves the distance matrix; the host
reshapes it (and the labels' non-positive indicator) into the mining region's three operands; the mining region
leaves the count and the hinge sum, accumulated over four column tiles; the host tail folds them into the loss.
Each link is proved elsewhere; this file composes them. -/

/-- The host tail applied to the distance matrix and to the two tiled sums over it is the loss: the tiled sums
    are the plain sums over all 512 columns. -/
theorem tail_eq_loss (x : Cert.Spec.Emb) (lab : Cert.Spec.Lab) (D cnt sh : Cert.Spec.Mat)
    (hD : D = Cert.Spec.distK x) (hc : cnt = Cert.Spec.cntTiled D D (Cert.Spec.nonmf lab))
    (hs : sh = Cert.Spec.shTiled D D (Cert.Spec.nonmf lab)) :
    Cert.Spec.tailK D cnt sh lab = Cert.Spec.lossK x lab := by
  subst hD hc hs
  rw [Cert.Spec.tiles_cnt, Cert.Spec.tiles_sh]
  rfl

section Chain

variable (m : (ℓ : Loc nD τ sig) → Buf (Elt Ideal) ℓ) (outs : Gen.Outs (F := Ideal)) (c : Dev nD)

/-- The embeddings and the labels at launch, as the specification takes them. -/
abbrev xOf : Cert.Spec.Emb := fun i d => (Gen.V0 m c main_arg0 : S512x256.Idx → EReal) (ix2 i d)
abbrev labOf : Cert.Spec.Lab := fun i => (Gen.V0 m c main_arg1 : S512.Idx → BitVec 32) (ix1 i)
/-- The three matrices the host tail reads: the first region's output and the mining region's two. -/
abbrev DOf : Cert.Spec.Mat := fun i j => (Gen.V1 m outs c main_v0 : S512x512.Idx → EReal) (ix2 i j)
abbrev cntOf : Cert.Spec.Mat := fun i j => (Gen.V3 m outs c main_v19_0 : S512x512.Idx → EReal) (ix2 i j)
abbrev shOf : Cert.Spec.Mat := fun i j => (Gen.V3 m outs c main_v19_1 : S512x512.Idx → EReal) (ix2 i j)

/-- The first region's output is the distance matrix of the launch embeddings. -/
theorem D_eq (h1 : Gen.V1 m outs c main_v0 = (dat0 (fun c b => Gen.V0 m c b) c).arrAt 1 cfg0.N) :
    DOf m outs c = Cert.Spec.distK (xOf m c) := by
  have e : (Gen.V1 m outs c main_v0 : S512x512.Idx → EReal) = k0_pay1 (F := Ideal) (Gen.V0 m c main_arg0) :=
    h1.trans (ArrVal.arr0 (fun c b => Gen.V0 m c b) c)
  funext i j
  exact (congrFun e (ix2 i j)).trans (PayVal.pay0_apply _ i j)

/-- The mining region's positive-pair operand is the distance matrix, -/
theorem P_eq : ArrVal.P (fun c b => Gen.V2 m outs c b) c = DOf m outs c := by
  funext i j; exact HostVal.v16_apply m outs c i j
/-- so is its negative operand, -/
theorem Dn_eq : ArrVal.Dn (fun c b => Gen.V2 m outs c b) c = DOf m outs c := by
  funext i k; exact HostVal.v17_apply m outs c i k
/-- and its third operand is the non-positive indicator of the launch labels. -/
theorem Nm_eq : ArrVal.Nm (fun c b => Gen.V2 m outs c b) c = Cert.Spec.nonmf (labOf m c) := by
  funext i k; exact HostVal.v18_apply m outs c i k

/-- The mining region's first output is the tiled count over the distance matrix, -/
theorem cnt_eq (h3 : Gen.V3 m outs c main_v19_0 = (dat1 (fun c b => Gen.V2 m outs c b) c).arrAt 3 cfg1.N) :
    cntOf m outs c = Cert.Spec.cntTiled (DOf m outs c) (DOf m outs c) (Cert.Spec.nonmf (labOf m c)) := by
  have e : (Gen.V3 m outs c main_v19_0 : S512x512.Idx → EReal) = ArrVal.G3 (fun c b => Gen.V2 m outs c b) c :=
    h3.trans (ArrVal.final3 (fun c b => Gen.V2 m outs c b) c)
  funext i j
  refine (congrFun e (ix2 i j)).trans ?_
  show Cert.Spec.cntTiled (ArrVal.P _ c) (ArrVal.Dn _ c) (ArrVal.Nm _ c) i j = _
  rw [P_eq, Dn_eq, Nm_eq]

/-- and its second the tiled hinge sum. -/
theorem sh_eq (h4 : Gen.V3 m outs c main_v19_1 = (dat1 (fun c b => Gen.V2 m outs c b) c).arrAt 4 cfg1.N) :
    shOf m outs c = Cert.Spec.shTiled (DOf m outs c) (DOf m outs c) (Cert.Spec.nonmf (labOf m c)) := by
  have e : (Gen.V3 m outs c main_v19_1 : S512x512.Idx → EReal) = ArrVal.G4 (fun c b => Gen.V2 m outs c b) c :=
    h4.trans (ArrVal.final4 (fun c b => Gen.V2 m outs c b) c)
  funext i j
  refine (congrFun e (ix2 i j)).trans ?_
  show Cert.Spec.shTiled (ArrVal.P _ c) (ArrVal.Dn _ c) (ArrVal.Nm _ c) i j = _
  rw [P_eq, Dn_eq, Nm_eq]

/-- The chain, with the host tail's reading as a hypothesis. -/
theorem kernel_result_core
    (h1 : Gen.V1 m outs c main_v0 = (dat0 (fun c b => Gen.V0 m c b) c).arrAt 1 cfg0.N)
    (h3 : Gen.V3 m outs c main_v19_0 = (dat1 (fun c b => Gen.V2 m outs c b) c).arrAt 3 cfg1.N)
    (h4 : Gen.V3 m outs c main_v19_1 = (dat1 (fun c b => Gen.V2 m outs c b) c).arrAt 4 cfg1.N)
    (hv : (Gen.V13 m outs c main_v37 : S_.Idx → EReal) ix0 = Cert.Spec.tailK (DOf m outs c) (cntOf m outs c) (shOf m outs c) (labOf m c)) :
    (Gen.V13 m outs c main_v37 : S_.Idx → EReal) ix0 = Cert.Spec.lossK (xOf m c) (labOf m c) :=
  hv.trans (tail_eq_loss _ _ _ _ _ (D_eq m outs c h1) (cnt_eq m outs c h3) (sh_eq m outs c h4))

/-- The chain for any contents the regions may leave, given that they leave what the pipelines' folds say. -/
theorem kernel_result_of
    (h1 : Gen.V1 m outs c main_v0 = (dat0 (fun c b => Gen.V0 m c b) c).arrAt 1 cfg0.N)
    (h3 : Gen.V3 m outs c main_v19_0 = (dat1 (fun c b => Gen.V2 m outs c b) c).arrAt 3 cfg1.N)
    (h4 : Gen.V3 m outs c main_v19_1 = (dat1 (fun c b => Gen.V2 m outs c b) c).arrAt 4 cfg1.N) :
    (Gen.V13 m outs c main_v37 : S_.Idx → EReal) ix0 = Cert.Spec.lossK (xOf m c) (labOf m c) :=
  kernel_result_core m outs c h1 h3 h4 (HostVal.v37_eq m outs c)

/-- A rank-0 buffer has one index: the value at it is the whole buffer. -/
theorem buf_form (L : EReal) (h : (Gen.V13 m outs c main_v37 : S_.Idx → EReal) ix0 = L) :
    (Gen.V13 m outs c main_v37 : S_.Idx → EReal) = fun _ => L :=
  funext fun j => by rw [ValueIdx.eq_ix0 j]; exact h

end Chain

/-! ## At what the regions do leave -/

/-- THE KERNEL'S RESULT: on every core, the program's result buffer holds the specification's loss of the
    launch embeddings and labels. -/
theorem kernel_result (m : (ℓ : Loc nD τ sig) → Buf (Elt Ideal) ℓ) (c : Dev nD) :
    (Gen.V13 m (Hand.outsK m) c main_v37 : S_.Idx → EReal) ix0
      = Cert.Spec.lossK (fun i d => (m ((c.tc : Thread nD τ).loc main_arg0) : S512x256.Idx → EReal) (ix2 i d))
          (fun i => (m ((c.tc : Thread nD τ).loc main_arg1) : S512.Idx → BitVec 32) (ix1 i)) :=
  kernel_result_of m (Hand.outsK m) c (Hand.V1_main_v0 m c) (Hand.V3_main_v19_0 m c) (Hand.V3_main_v19_1 m c)

/-- The same of the whole (one-entry) buffer. -/
theorem kernel_result_buf (m : (ℓ : Loc nD τ sig) → Buf (Elt Ideal) ℓ) (c : Dev nD) :
    (Gen.V13 m (Hand.outsK m) c main_v37 : S_.Idx → EReal)
      = fun _ => Cert.Spec.lossK (fun i d => (m ((c.tc : Thread nD τ).loc main_arg0) : S512x256.Idx → EReal) (ix2 i d))
          (fun i => (m ((c.tc : Thread nD τ).loc main_arg1) : S512.Idx → BitVec 32) (ix1 i)) :=
  buf_form m (Hand.outsK m) c _ (kernel_result m c)

end Cert.KernelIdeal.LossVal

end
-- ==== Proof.Val.RefSpec1.lean ====
import proofs.«108628_j44933947851025_1_alg».proof.Proof.Ref.Read
import proofs.«108628_j44933947851025_1_alg».proof.Proof.Spec
import Idealize.ShloMosaic.Lib.Affine
import Idealize.ShloMosaic.Lib.ValueIdx
import Idealize.ShloMosaic.Lib.IdealHost
import Idealize.ShloMosaic.Lib.Pipeline.Value
import Idealize.ShloMosaic.PureOps.Ideal.Laws

/-! # The reference's distances, positives and semi-hard negatives, read against the specification

The reference computes, from the embeddings `x` and labels `lab`: the pairwise distances (the zero-safe root of the
sum of squared coordinate differences), the mask of positives (same label, off the diagonal), the mask of semi-hard
negatives of each pair (a non-positive whose distance lies strictly between the positive's and the positive's plus
the margin), and the hinge terms summed over those. Each is read here at explicit coordinates and identified with
the corresponding function of the specification, one array at a time. -/

noncomputable section

open scoped BigOperators
open Classical

namespace Cert.ReferenceIdeal.RefVal

open Cert.ReferenceIdeal Cert.ReferenceIdeal.Gen Cert.ReferenceIdeal.ReadP Idealize.ShloMosaic Idealize.ShloMosaic.StableHlo
open Idealize.ShloMosaic.ValueIdx

variable (x0 : (⟨S512x256, .f32⟩ : BufTy).Contents (Elt Ideal)) (x1 : (⟨S512, .i32⟩ : BufTy).Contents (Elt Ideal))

/-- The embeddings as a matrix of rows. -/
abbrev embOf : Cert.Spec.Emb := fun i d => x0 (ix2 i d)
/-- The labels as a vector of words. -/
abbrev labOf : Cert.Spec.Lab := fun i => x1 (ix1 i)

/-! ## Squared distances -/

/-- The sum over the coordinate axis of the squared differences of rows `i` and `j`. -/
theorem sq_apply (i j : Fin 512) : val_main_v6 (F := Ideal) x0 (ix2 i j) = Cert.Spec.sqR (embOf x0) i j := by
  rw [val_main_v6_apply]
  simp only [val_main_cst_apply, val_main_v5_apply, val_main_v4_apply, val_main_v2_apply, val_main_v3_apply,
    val_main_v0_apply, val_main_v1_apply, Ideal.ofBits_def, Ideal.ofBits_zero_f32, Ideal.subf_def, Ideal.mulf_def, zero_add]
  unfold Cert.Spec.sqR
  refine Finset.sum_congr rfl fun k _ => ?_
  have e0 : idx_main_v0 (idx_main_v2 (idx_main_v6 (ix2 i j) k)) = ix2 i k :=
    funext fun a => Fin.ext (by match a with | ⟨0, _⟩ => rfl | ⟨1, _⟩ => rfl)
  have e1 : idx_main_v1 (idx_main_v3 (idx_main_v6 (ix2 i j) k)) = ix2 j k :=
    funext fun a => Fin.ext (by match a with | ⟨0, _⟩ => rfl | ⟨1, _⟩ => rfl)
  rw [e0, e1]

/-! ## Comparisons and selections on the extended reals -/

/-- A selection on a comparison's bit is the `if` on the comparison. -/
theorem select_cmp {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

theorem select_ole {α : Type} (s t : EReal) (a b : α) :
    Scalar.select (Ideal.cmp .ole s t) a b = if s ≤ t then a else b := select_cmp (s ≤ t) a b

/-- The pattern of +∞. -/
theorem ofBits_inf_f32 : Ideal.ofBits .f32 0x7F800000#32 = ⊤ := by simp [Ideal.ofBits, Ideal.ieee]

/-! ## Distances -/

/-- The zero-safe root of the squared distance. -/
theorem dist_apply (i j : Fin 512) : val_main_v13 (F := Ideal) x0 (ix2 i j) = Cert.Spec.distR (embOf x0) i j := by
  rw [val_main_v13_apply, val_main_v8_apply, val_main_v7_apply, val_main_cst_0_apply, val_main_call1_v1_apply,
    val_main_call1_v0_apply, val_main_cst_3_apply, val_main_v12_apply, val_main_v11_apply, val_main_v10_apply,
    val_main_v9_apply, val_main_cst_1_apply, val_main_call0_v1_apply, val_main_call0_v0_apply, val_main_cst_2_apply,
    sq_apply]
  simp only [Ideal.ofBits_def, Ideal.ofBits_zero_f32, Ideal.ofBits_one_f32, Ideal.cmpf_def, Ideal.hostUnary_sqrt_def,
    select_ole]
  rfl

/-! ## Positives -/

/-- Two row numbers below 512 have the same 32-bit word only if they are equal. -/
theorem ofNat_inj_512 (i j : Fin 512) : BitVec.ofNat 32 i.val = BitVec.ofNat 32 j.val ↔ i = j := by
  constructor
  · intro h
    have h' := congrArg BitVec.toNat h
    rw [BitVec.toNat_ofNat, BitVec.toNat_ofNat, Nat.mod_eq_of_lt (by have := i.isLt; omega),
      Nat.mod_eq_of_lt (by have := j.isLt; omega)] at h'
    exact Fin.ext h'
  · intro h; rw [h]

/-- A selection on a bit known to be one exactly when `p` holds is the `if` on `p`, whatever decides `p`. -/
theorem select_of_iff {α : Type} {c : BitVec 1} {p : Prop} [Decidable p] (h : c = 1#1 ↔ p) (a b : α) :
    Scalar.select c a b = if p then a else b := by
  by_cases hp : p
  · rw [if_pos hp, h.mpr hp]; exact select_one a b
  · rw [if_neg hp, eq_zero_of_ne_one (fun hc => hp (h.mp hc))]; exact select_zero a b

/-- The positives' mask: same label and not the diagonal. -/
theorem matches_iff (i j : Fin 512) :
    val_main_v25 (F := Ideal) x1 (ix2 i j) = 1#1 ↔ Cert.Spec.isMatch (labOf x1) i j := by
  rw [val_main_v25_apply, IntOp.andi_eq_one, val_main_v23_apply, IntOp.cmpi_eq, val_main_v24_apply, IntOp.not_eq_one,
    val_main_v18_apply, IntOp.cmpi_eq, val_main_v21_apply, val_main_v19_apply, val_main_v22_apply, val_main_v20_apply,
    val_main_v17_apply, val_main_v14_apply, val_main_v16_apply, val_main_c_apply, val_main_v15_apply]
  have e0 : idx_main_v19 (idx_main_v21 (ix2 i j)) = ix1 i :=
    funext fun a => Fin.ext (by match a with | ⟨0, _⟩ => rfl)
  have e1 : idx_main_v20 (idx_main_v22 (ix2 i j)) = ix1 j :=
    funext fun a => Fin.ext (by match a with | ⟨0, _⟩ => rfl)
  rw [e0, e1]
  unfold Cert.Spec.isMatch
  refine and_congr Iff.rfl (not_congr ?_)
  show BitVec.ofNat 32 i.val + 0#32 = BitVec.ofNat 32 j.val ↔ i = j
  rw [BitVec.add_zero]
  exact ofNat_inj_512 i j

/-- The non-positives' mask is its complement. -/
theorem nonmatch_iff (i j : Fin 512) :
    val_main_v26 (F := Ideal) x1 (ix2 i j) = 1#1 ↔ ¬ Cert.Spec.isMatch (labOf x1) i j := by
  rw [val_main_v26_apply, IntOp.not_eq_one, matches_iff]

/-! ## Semi-hard negatives -/

theorem ofBool_eq_one_iff (p : Prop) [Decidable p] : BitVec.ofBool (decide p) = 1#1 ↔ p := by
  by_cases h : p
  · rw [decide_eq_true h]; exact ⟨fun _ => h, fun _ => rfl⟩
  · rw [decide_eq_false h]; exact ⟨fun hc => absurd hc (by decide), fun hp => absurd hp h⟩

theorem cmp_olt_iff (s t : EReal) : Ideal.cmp .olt s t = 1#1 ↔ s < t := ofBool_eq_one_iff (s < t)
theorem cmp_ogt_iff (s t : EReal) : Ideal.cmp .ogt s t = 1#1 ↔ t < s := ofBool_eq_one_iff (t < s)
theorem cmp_ole_iff (s t : EReal) : Ideal.cmp .ole s t = 1#1 ↔ s ≤ t := ofBool_eq_one_iff (s ≤ t)

/-- The mask of semi-hard negatives: `k` is no positive of `i`, and its distance lies strictly between the
    positive's and the positive's plus the margin. -/
theorem semiHard_iff (i j k : Fin 512) :
    val_main_v43 (F := Ideal) x0 x1 (ix3 i j k) = 1#1 ↔ Cert.Spec.semiHard (Cert.Spec.distR (embOf x0)) (labOf x1) i j k := by
  have ek : idx_main_v32 (idx_main_v38 (ix3 i j k)) = ix2 i k :=
    funext fun a => Fin.ext (by match a with | ⟨0, _⟩ => rfl | ⟨1, _⟩ => rfl)
  have e35 : idx_main_v31 (idx_main_v35 (ix3 i j k)) = ix2 i k :=
    funext fun a => Fin.ext (by match a with | ⟨0, _⟩ => rfl | ⟨1, _⟩ => rfl)
  have e36 : idx_main_v30 (idx_main_v36 (ix3 i j k)) = ix2 i j :=
    funext fun a => Fin.ext (by match a with | ⟨0, _⟩ => rfl | ⟨1, _⟩ => rfl)
  have e40 : idx_main_v31 (idx_main_v40 (ix3 i j k)) = ix2 i k :=
    funext fun a => Fin.ext (by match a with | ⟨0, _⟩ => rfl | ⟨1, _⟩ => rfl)
  have e41 : idx_main_v30 (idx_main_v41 (ix3 i j k)) = ix2 i j :=
    funext fun a => Fin.ext (by match a with | ⟨0, _⟩ => rfl | ⟨1, _⟩ => rfl)
  rw [val_main_v43_apply, IntOp.andi_eq_one, val_main_v39_apply, IntOp.andi_eq_one, val_main_v38_apply,
    val_main_v32_apply, ek, nonmatch_iff, val_main_v37_apply, val_main_v35_apply, val_main_v31_apply, e35, dist_apply,
    val_main_v36_apply, val_main_v34_apply, val_main_v30_apply, e36, dist_apply, val_main_v33_apply,
    val_main_cst_7_apply, val_main_v42_apply, val_main_v40_apply, val_main_v31_apply, e40, dist_apply,
    val_main_v41_apply, val_main_v30_apply, e41, dist_apply]
  simp only [Ideal.ofBits_def, Ideal.cmpf_def, Ideal.addf_def, cmp_olt_iff, cmp_ogt_iff]
  unfold Cert.Spec.semiHard Cert.Spec.margin
  exact and_assoc

/-! ## The summed hinge terms -/

/-- The hinge terms of a pair summed over its semi-hard negatives. -/
theorem sh_apply (i j : Fin 512) :
    val_main_v53 (F := Ideal) x0 x1 (ix2 i j) = Cert.Spec.shR (Cert.Spec.distR (embOf x0)) (labOf x1) i j := by
  rw [val_main_v53_apply, val_main_cst_11_apply]
  simp only [Ideal.ofBits_def, Ideal.ofBits_zero_f32, zero_add]
  unfold Cert.Spec.shR
  refine Finset.sum_congr rfl fun k _ => ?_
  have ek : idx_main_v53 (ix2 i j) k = ix3 i j k :=
    funext fun a => Fin.ext (by match a with | ⟨0, _⟩ => rfl | ⟨1, _⟩ => rfl | ⟨2, _⟩ => rfl)
  have e46 : idx_main_v30 (idx_main_v46 (ix3 i j k)) = ix2 i j :=
    funext fun a => Fin.ext (by match a with | ⟨0, _⟩ => rfl | ⟨1, _⟩ => rfl)
  have e47 : idx_main_v31 (idx_main_v47 (ix3 i j k)) = ix2 i k :=
    funext fun a => Fin.ext (by match a with | ⟨0, _⟩ => rfl | ⟨1, _⟩ => rfl)
  rw [ek, val_main_v52_apply, select_of_iff (semiHard_iff x0 x1 i j k), val_main_v51_apply, val_main_v50_apply,
    val_main_v48_apply, val_main_v46_apply, val_main_v30_apply, e46, dist_apply, val_main_v47_apply, val_main_v31_apply,
    e47, dist_apply, val_main_v49_apply, val_main_cst_9_apply, val_main_call3_v0_apply, val_main_call3_cst_apply,
    val_main_call4_v1_apply, val_main_call4_v0_apply, val_main_cst_10_apply]
  simp only [Ideal.ofBits_def, Ideal.ofBits_zero_f32, Ideal.maximumf_def, Ideal.addf_def, Ideal.subf_def]
  rfl

end Cert.ReferenceIdeal.RefVal

end
-- ==== Proof.Val.RefRed.lean ====
/-
  The reference's four reductions read at an index, over variable operands at the reference's shapes: the
  or-reduction of a bit matrix along its rows ("some entry of the row is set"), the minimum-reduction of a
  matrix along its rows from +∞ (the row's infimum), the add-reduction of a cube of widened bits along its last
  axis (the number of set bits) and the add-reduction of a matrix of 32-bit words over both axes (the sum of
  the words, which stays far below 2^31 when every word is at most 512). Each is a fold of a commutative,
  associative operation over the set of indices that reduce into the result index, and that set is named here
  by coordinates.
-/
import proofs.«108628_j44933947851025_1_alg».proof.ReferenceIdeal
import proofs.«108628_j44933947851025_1_alg».proof.Proof.LibReduceAny
import Idealize.ShloMosaic.PureOps.Reduce
import Idealize.ShloMosaic.PureOps.Ideal.Laws
import Idealize.ShloMosaic.Lib.IndicatorCount
import Idealize.ShloMosaic.Lib.ValueIdx

noncomputable section

open scoped BigOperators

namespace Cert.ReferenceIdeal.RefVal

open Idealize.ShloMosaic Idealize.ShloMosaic.ValueIdx

/-! ## The reduced shapes, named by coordinates

A row index with a column inserted is the pair; a pair with a third coordinate inserted is the triple; and an index
of the matrix reduces into row `i` exactly when its first coordinate is `i`. -/

theorem red_row : S512x512.Reduces [1] S512 := by decide
theorem red_cnt : S512x512x512.Reduces [2] S512x512 := by decide

theorem lift_row (h : S512x512.Reduces [1] S512) (i k : Fin 512) : h.lift (ix1 i) k = ix2 i k := by
  funext c
  match c with
  | ⟨0, _⟩ => rfl
  | ⟨1, _⟩ => rfl

theorem lift_cnt (h : S512x512x512.Reduces [2] S512x512) (i j k : Fin 512) : h.lift (ix2 i j) k = ix3 i j k := by
  funext c
  match c with
  | ⟨0, _⟩ => rfl
  | ⟨1, _⟩ => rfl
  | ⟨2, _⟩ => rfl

theorem drop_row_iff (h : S512x512.ReducesTo [1] S512) (idx : S512x512.Idx) (i : Fin 512) :
    h.drop idx = ix1 i ↔ idx 0 = i := by
  constructor
  · intro e
    have e0 : (h.drop idx 0 : Nat) = (ix1 i 0 : Nat) := by rw [e]
    rw [h.drop_apply_val_of_eq idx 0 0] at e0
    exact Fin.ext e0
  · intro e
    funext b
    match b with
    | ⟨0, _⟩ =>
      apply Fin.ext
      show (h.drop idx 0 : Nat) = _
      rw [h.drop_apply_val_of_eq idx 0 0, e]

/-! ## Small words: a natural number below 2^31 as a 32-bit word -/

theorem toNat_ofNat_small (n : ℕ) (hn : n < 2 ^ 31) : (BitVec.ofNat 32 n).toNat = n := by
  rw [BitVec.toNat_ofNat]
  exact Nat.mod_eq_of_lt (by omega)

/-- Read signed, it is itself. -/
theorem toInt_ofNat_small (n : ℕ) (hn : n < 2 ^ 31) : (BitVec.ofNat 32 n).toInt = (n : ℤ) := by
  rw [BitVec.toInt_eq_toNat_cond, toNat_ofNat_small n hn, if_pos (by omega)]

/-- It is greater than zero, signed, exactly when the number is positive. -/
theorem sgt_ofNat_zero_iff (n : ℕ) (hn : n < 2 ^ 31) : IntOp.cmpi .sgt (BitVec.ofNat 32 n) 0#32 = 1#1 ↔ 0 < n := by
  unfold IntOp.cmpi
  simp only [BitVec.slt, toInt_ofNat_small n hn]
  by_cases h : 0 < n <;> simp [h]

/-- Converted to a float at the extended reals, it is the number. -/
theorem sitofp_ofNat_small (n : ℕ) (hn : n < 2 ^ 31) :
    FloatOps.sitofp (F := Ideal) .f32 (BitVec.ofNat 32 n) = (((n : ℕ) : ℝ) : EReal) := by
  show (((BitVec.ofNat 32 n).toInt : ℝ) : EReal) = _
  rw [toInt_ofNat_small n hn, Int.cast_natCast]

/-! ## (1) "any" along a row: the or-reduction from 0 is 1 exactly when some entry of the row is 1 -/

theorem reduce_ori_row (x : IVec S512x512 1) (h : S512x512.ReducesTo [1] S512) (hu : 0 < S_.numel) (i : Fin 512) :
    Host.reduce IntOp.ori x (constantI S_ 1 0#1) h hu (ix1 i) = 1#1 ↔ ∃ j : Fin 512, x (ix2 i j) = 1#1 := by
  rw [Host.reduce_ori_eq_one_iff]
  constructor
  · rintro (h0 | ⟨idx, hd, hx⟩)
    · have hc : constantI S_ 1 0#1 (Shape.Idx.first hu) = 0#1 := rfl
      rw [hc] at h0
      exact absurd h0 (by decide)
    · refine ⟨idx 1, ?_⟩
      rw [eq_ix2 idx, (drop_row_iff h idx i).mp hd] at hx
      exact hx
  · rintro ⟨j, hj⟩
    exact Or.inr ⟨ix2 i j, (drop_row_iff h _ i).mpr rfl, hj⟩

/-! ## (2) the minimum along a row: the min-reduction from +∞ is the infimum of the row -/

/-- The pattern 0x7F800000 is +∞. -/
theorem ofBits_inf : Ideal.ofBits .f32 0x7F800000#32 = ⊤ := by
  simp [Ideal.ofBits, Ideal.ieee]

/-- A fold by the minimum from ⊤ is the infimum: ⊤ is the minimum's unit and the order of folding is immaterial. -/
theorem fold_min_top {ι : Type} (S : Finset ι) (f : ι → EReal) :
    S.fold (FloatOps.minimumf (F := Ideal) (φ := .f32)) ⊤ f = S.inf f := by
  classical
  refine Finset.induction_on S ?_ ?_
  · rfl
  · intro a S ha ih
    rw [Finset.fold_insert ha, Finset.inf_insert, ih]
    rfl

theorem reduce_min_row (x : FVec Ideal S512x512 .f32) (h : S512x512.ReducesTo [1] S512) (hu : 0 < S_.numel)
    (i : Fin 512) :
    Host.reduce FloatOps.minimumf x (constant (F := Ideal) S_ .f32 0x7F800000#32) h hu (ix1 i)
      = Finset.univ.inf fun k : Fin 512 => x (ix2 i k) := by
  rw [Host.reduce_eq_fold_single FloatOps.minimumf x _ h red_row hu]
  have hc : constant (F := Ideal) S_ .f32 0x7F800000#32 (Shape.Idx.first hu) = ⊤ := ofBits_inf
  have hf : (x ∘ red_row.lift (ix1 i)) = fun k : Fin 512 => x (ix2 i k) :=
    funext fun k : Fin 512 => congrArg x (lift_row red_row i k)
  rw [hc, hf]
  exact fold_min_top _ _

/-! ## (3) the number of ones along the last axis: the add-reduction from 0 of the widened bits is the count -/

theorem reduce_add_count (b : IVec S512x512x512 1) (hlt : 1 < 32) (h : S512x512x512.ReducesTo [2] S512x512)
    (hu : 0 < S_.numel) (i j : Fin 512) :
    Host.reduce IntOp.addi (extui 32 b hlt) (constantI S_ 32 0#32) h hu (ix2 i j)
      = BitVec.ofNat 32 (Finset.univ.filter fun k : Fin 512 => b (ix3 i j k) = 1#1).card := by
  rw [Host.reduce_eq_fold_single IntOp.addi _ _ h red_cnt hu]
  have hf : (extui 32 b hlt ∘ red_cnt.lift (ix2 i j)) = fun k : Fin 512 => (b (ix3 i j k)).setWidth 32 :=
    funext fun k : Fin 512 => congrArg (fun idx => (b idx).setWidth 32) (lift_cnt red_cnt i j k)
  have hc : constantI S_ 32 0#32 (Shape.Idx.first hu) = 0#32 := rfl
  rw [hf, hc]
  exact IndicatorCount.fold_addi_setWidth_eq_card (fun k : Fin 512 => b (ix3 i j k)) Finset.univ

/-- A count over 512 places is at most 512. -/
theorem count_le (b : IVec S512x512x512 1) (i j : Fin 512) :
    (Finset.univ.filter fun k : Fin 512 => b (ix3 i j k) = 1#1).card ≤ 512 :=
  (Finset.card_filter_le _ _).trans (by simp)

theorem reduce_add_count_toNat (b : IVec S512x512x512 1) (hlt : 1 < 32) (h : S512x512x512.ReducesTo [2] S512x512)
    (hu : 0 < S_.numel) (i j : Fin 512) :
    (Host.reduce IntOp.addi (extui 32 b hlt) (constantI S_ 32 0#32) h hu (ix2 i j)).toNat
      = (Finset.univ.filter fun k : Fin 512 => b (ix3 i j k) = 1#1).card := by
  rw [reduce_add_count, toNat_ofNat_small _ (by have := count_le b i j; omega)]

theorem reduce_add_count_toInt (b : IVec S512x512x512 1) (hlt : 1 < 32) (h : S512x512x512.ReducesTo [2] S512x512)
    (hu : 0 < S_.numel) (i j : Fin 512) :
    (Host.reduce IntOp.addi (extui 32 b hlt) (constantI S_ 32 0#32) h hu (ix2 i j)).toInt
      = ((Finset.univ.filter fun k : Fin 512 => b (ix3 i j k) = 1#1).card : ℤ) := by
  rw [reduce_add_count, toInt_ofNat_small _ (by have := count_le b i j; omega)]

theorem reduce_add_count_sgt_iff (b : IVec S512x512x512 1) (hlt : 1 < 32) (h : S512x512x512.ReducesTo [2] S512x512)
    (hu : 0 < S_.numel) (i j : Fin 512) :
    IntOp.cmpi .sgt (Host.reduce IntOp.addi (extui 32 b hlt) (constantI S_ 32 0#32) h hu (ix2 i j)) 0#32 = 1#1
      ↔ 0 < (Finset.univ.filter fun k : Fin 512 => b (ix3 i j k) = 1#1).card := by
  rw [reduce_add_count, sgt_ofNat_zero_iff _ (by have := count_le b i j; omega)]

/-! ## (4) the total of a matrix of words: the add-reduction from 0 over both axes is the sum, modulo 2^32 -/

/-- A fold by addition from zero is the word of the sum of the values. -/
theorem fold_addi_eq_ofNat_sum {ι : Type} {w : ℕ} (y : ι → BitVec w) (S : Finset ι) :
    S.fold IntOp.addi (0#w) y = BitVec.ofNat w (∑ k ∈ S, (y k).toNat) := by
  classical
  refine Finset.induction_on S ?_ ?_
  · rfl
  · intro a S ha ih
    rw [Finset.fold_insert ha, ih, Finset.sum_insert ha, BitVec.ofNat_add, BitVec.ofNat_toNat, BitVec.setWidth_eq]
    rfl

theorem reduce_add_total (y : IVec S512x512 32) (h : S512x512.ReducesTo [0, 1] S_) (hu : 0 < S_.numel) :
    Host.reduce IntOp.addi y (constantI S_ 32 0#32) h hu ix0
      = BitVec.ofNat 32 (∑ i : Fin 512, ∑ j : Fin 512, (y (ix2 i j)).toNat) := by
  rw [Host.reduce_eq_fold]
  have hs : (Finset.univ.filter fun idx : S512x512.Idx => h.drop idx = ix0) = Finset.univ :=
    Finset.filter_true_of_mem fun idx _ => eq_ix0 _
  have hc : constantI S_ 32 0#32 (Shape.Idx.first hu) = 0#32 := rfl
  rw [hs, hc, fold_addi_eq_ofNat_sum, sum_idx2]

/-- 512 · 512 entries of at most 512 each sum to at most 2^27. -/
theorem sum_toNat_lt (y : IVec S512x512 32) (hy : ∀ i j : Fin 512, (y (ix2 i j)).toNat ≤ 512) :
    (∑ i : Fin 512, ∑ j : Fin 512, (y (ix2 i j)).toNat) < 2 ^ 31 := by
  have h1 : ∀ i : Fin 512, (∑ j : Fin 512, (y (ix2 i j)).toNat) ≤ 512 * 512 := fun i => by
    have h := Finset.sum_le_card_nsmul Finset.univ (fun j : Fin 512 => (y (ix2 i j)).toNat) 512 (fun j _ => hy i j)
    simpa using h
  have h2 := Finset.sum_le_card_nsmul Finset.univ (fun i : Fin 512 => ∑ j : Fin 512, (y (ix2 i j)).toNat)
    (512 * 512) (fun i _ => h1 i)
  simp only [Finset.card_univ, Fintype.card_fin, smul_eq_mul] at h2
  omega

theorem reduce_add_total_sgt_iff (y : IVec S512x512 32) (h : S512x512.ReducesTo [0, 1] S_) (hu : 0 < S_.numel)
    (hy : ∀ i j : Fin 512, (y (ix2 i j)).toNat ≤ 512) :
    IntOp.cmpi .sgt (Host.reduce IntOp.addi y (constantI S_ 32 0#32) h hu ix0) 0#32 = 1#1
      ↔ 0 < ∑ i : Fin 512, ∑ j : Fin 512, (y (ix2 i j)).toNat := by
  rw [reduce_add_total, sgt_ofNat_zero_iff _ (sum_toNat_lt y hy)]

theorem reduce_add_total_sitofp (y : IVec S512x512 32) (h : S512x512.ReducesTo [0, 1] S_) (hu : 0 < S_.numel)
    (hy : ∀ i j : Fin 512, (y (ix2 i j)).toNat ≤ 512) :
    FloatOps.sitofp (F := Ideal) .f32 (Host.reduce IntOp.addi y (constantI S_ 32 0#32) h hu ix0)
      = (((∑ i : Fin 512, ∑ j : Fin 512, (y (ix2 i j)).toNat : ℕ) : ℝ) : EReal) := by
  rw [reduce_add_total, sitofp_ofNat_small _ (sum_toNat_lt y hy)]

end Cert.ReferenceIdeal.RefVal

end
-- ==== Proof.Val.RefSpec.lean ====
import proofs.«108628_j44933947851025_1_alg».proof.Proof.Val.RefSpec1
import proofs.«108628_j44933947851025_1_alg».proof.Proof.Val.RefRed

/-! # The reference's result is the specification's loss

The remaining arrays of the reference, read at explicit coordinates on top of the distances, positives, semi-hard
mask and summed hinge terms: the three reductions along a row (has a positive; the hardest negative's distance; the
number of semi-hard negatives, an integer sum that cannot wrap since a row has 512 entries), the fallback hinge, the
pair's loss and triplet count, the mask of the pairs that count, the two totals (the count below 2^27, so again no
wrap-around and its signed reading is the number), and the final guarded quotient. -/

noncomputable section

open scoped BigOperators
open Classical

namespace Cert.ReferenceIdeal.RefVal

open Cert.ReferenceIdeal Cert.ReferenceIdeal.Gen Cert.ReferenceIdeal.ReadP Idealize.ShloMosaic Idealize.ShloMosaic.StableHlo
open Idealize.ShloMosaic.ValueIdx

variable (x0 : (⟨S512x256, .f32⟩ : BufTy).Contents (Elt Ideal)) (x1 : (⟨S512, .i32⟩ : BufTy).Contents (Elt Ideal))

/-- The reference's distance matrix. -/
abbrev distOf : Cert.Spec.Mat := Cert.Spec.distR (embOf x0)

/-! ## The three row reductions -/

/-- An anchor has a positive exactly when the or-reduction of its row of the positives' mask is one. -/
theorem hasPos_iff (i : Fin 512) :
    val_main_v27 (F := Ideal) x1 (ix1 i) = 1#1 ↔ Cert.Spec.hasPos (labOf x1) i := by
  unfold val_main_v27 val_main_c_4 Cert.Spec.hasPos
  exact (reduce_ori_row _ _ _ i).trans (exists_congr fun j => matches_iff x1 i j)

/-- The positives replaced by +∞, the others kept. -/
theorem masked_dist_apply (i k : Fin 512) :
    val_main_v28 (F := Ideal) x0 x1 (ix2 i k)
      = if Cert.Spec.isMatch (labOf x1) i k then (⊤ : EReal) else distOf x0 i k := by
  rw [val_main_v28_apply, select_of_iff (nonmatch_iff x1 i k), dist_apply, val_main_call2_v1_apply,
    val_main_call2_v0_apply, val_main_cst_5_apply, Ideal.ofBits_def, ofBits_inf_f32, ite_not]

/-- The hardest negative's distance: the least masked distance of the row. -/
theorem minNeg_apply (i : Fin 512) :
    val_main_v29 (F := Ideal) x0 x1 (ix1 i) = Cert.Spec.minNeg (distOf x0) (labOf x1) i := by
  unfold val_main_v29 val_main_cst_6 Cert.Spec.minNeg
  rw [reduce_min_row]
  exact congrArg (Finset.inf Finset.univ) (funext fun k => masked_dist_apply x0 x1 i k)

/-- The count of semi-hard negatives, as the 32-bit word of the count. -/
theorem cnt_apply (i j : Fin 512) :
    val_main_v45 (F := Ideal) x0 x1 (ix2 i j) = BitVec.ofNat 32 (Cert.Spec.cntN (distOf x0) (labOf x1) i j) := by
  unfold val_main_v45 val_main_v44 val_main_c_8 Cert.Spec.cntN
  rw [reduce_add_count]
  exact congrArg (fun S : Finset (Fin 512) => BitVec.ofNat 32 S.card)
    (Finset.filter_congr fun k _ => semiHard_iff x0 x1 i j k)

/-! ## The fallback hinge and the pair's loss -/

/-- The hinge against the hardest negative. -/
theorem fb_apply (i j : Fin 512) :
    val_main_v59 (F := Ideal) x0 x1 (ix2 i j) = Cert.Spec.fbR (distOf x0) (labOf x1) i j := by
  have e : idx_main_v54 (idx_main_v55 (ix2 i j)) = ix1 i :=
    funext fun a => Fin.ext (by match a with | ⟨0, _⟩ => rfl)
  rw [val_main_v59_apply, val_main_v58_apply, val_main_v56_apply, dist_apply, val_main_v55_apply, val_main_v54_apply, e,
    minNeg_apply, val_main_v57_apply, val_main_cst_12_apply, val_main_call5_v0_apply, val_main_call5_cst_apply]
  simp only [Ideal.ofBits_def, Ideal.ofBits_zero_f32, Ideal.maximumf_def, Ideal.addf_def, Ideal.subf_def]
  rfl

/-- A pair has at most 512 semi-hard negatives. -/
theorem cntN_le (D : Cert.Spec.Mat) (lab : Cert.Spec.Lab) (i j : Fin 512) : Cert.Spec.cntN D lab i j ≤ 512 := by
  unfold Cert.Spec.cntN
  exact (Finset.card_filter_le _ _).trans (by rw [Finset.card_univ, Fintype.card_fin])

/-- The count word tests positive exactly when the count is. -/
theorem cnt_pos_iff (i j : Fin 512) :
    IntOp.cmpi .sgt (val_main_v45 (F := Ideal) x0 x1 (ix2 i j)) 0#32 = 1#1 ↔ 0 < Cert.Spec.cntN (distOf x0) (labOf x1) i j := by
  rw [cnt_apply]
  exact sgt_ofNat_zero_iff _ (by have := cntN_le (distOf x0) (labOf x1) i j; omega)

/-- The fallback's positivity bit. -/
theorem fb_pos_iff (i j : Fin 512) :
    Ideal.cmp .ogt (val_main_v59 (F := Ideal) x0 x1 (ix2 i j)) (0 : EReal) = 1#1 ↔ Cert.Spec.fbR (distOf x0) (labOf x1) i j > 0 := by
  rw [fb_apply]
  exact cmp_ogt_iff _ _

/-- The pair's loss: the semi-hard sum if there is a semi-hard negative, else the positive part of the fallback. -/
theorem pairLoss_apply (i j : Fin 512) :
    val_main_v65 (F := Ideal) x0 x1 (ix2 i j) = Cert.Spec.pairLossR (distOf x0) (labOf x1) i j := by
  rw [val_main_v65_apply, val_main_v61_apply, val_main_v60_apply, val_main_c_13_apply,
    select_of_iff (cnt_pos_iff x0 x1 i j), sh_apply, val_main_v64_apply, val_main_v63_apply, val_main_v62_apply,
    val_main_cst_14_apply, Ideal.ofBits_def, Ideal.ofBits_zero_f32, Ideal.cmpf_def, select_of_iff (fb_pos_iff x0 x1 i j), fb_apply,
    val_main_call6_v1_apply, val_main_call6_v0_apply, val_main_cst_15_apply, Ideal.ofBits_def, Ideal.ofBits_zero_f32]
  rfl

/-- A comparison bit widened to a word is the word of 0 or 1. -/
theorem setWidth_ofBool (p : Prop) [Decidable p] :
    (BitVec.ofBool (decide p)).setWidth 32 = BitVec.ofNat 32 (if p then 1 else 0) := by
  by_cases h : p
  · rw [decide_eq_true h, if_pos h]; decide
  · rw [decide_eq_false h, if_neg h]; decide

/-- The pair's triplet count, as a word. -/
theorem pairCnt_apply (i j : Fin 512) :
    val_main_v71 (F := Ideal) x0 x1 (ix2 i j) = BitVec.ofNat 32 (Cert.Spec.pairCntN (distOf x0) (labOf x1) i j) := by
  rw [val_main_v71_apply, val_main_v67_apply, val_main_v66_apply, val_main_c_16_apply,
    select_of_iff (cnt_pos_iff x0 x1 i j), cnt_apply, val_main_v70_apply, val_main_v69_apply, val_main_v68_apply,
    val_main_cst_17_apply, fb_apply, Ideal.ofBits_def, Ideal.ofBits_zero_f32, Ideal.cmpf_def]
  unfold Cert.Spec.pairCntN
  split
  · rfl
  · exact setWidth_ofBool _

/-- A pair has at most 512 triplets counted. -/
theorem pairCntN_le (D : Cert.Spec.Mat) (lab : Cert.Spec.Lab) (i j : Fin 512) : Cert.Spec.pairCntN D lab i j ≤ 512 := by
  unfold Cert.Spec.pairCntN
  split
  · exact cntN_le D lab i j
  · split <;> omega

/-! ## The pairs the loss runs over, and the two totals -/

/-- The mask of the pairs summed: a positive of an anchor that has one. -/
theorem valid_iff (i j : Fin 512) :
    val_main_v74 (F := Ideal) x1 (ix2 i j) = 1#1 ↔ Cert.Spec.valid (labOf x1) i j := by
  have e : idx_main_v72 (idx_main_v73 (ix2 i j)) = ix1 i :=
    funext fun a => Fin.ext (by match a with | ⟨0, _⟩ => rfl)
  rw [val_main_v74_apply, IntOp.andi_eq_one, matches_iff, val_main_v73_apply, val_main_v72_apply, e, hasPos_iff]
  rfl

/-- The pair's loss where the pair counts, zero elsewhere. -/
theorem maskedLoss_apply (i j : Fin 512) :
    val_main_v75 (F := Ideal) x0 x1 (ix2 i j)
      = if Cert.Spec.valid (labOf x1) i j then Cert.Spec.pairLossR (distOf x0) (labOf x1) i j else 0 := by
  rw [val_main_v75_apply, select_of_iff (valid_iff x1 i j), pairLoss_apply, val_main_call9_v1_apply,
    val_main_call9_v0_apply, val_main_cst_18_apply, Ideal.ofBits_def, Ideal.ofBits_zero_f32]

/-- The summed loss. -/
theorem total_apply : val_main_v76 (F := Ideal) x0 x1 ix0 = Cert.Spec.totalR (distOf x0) (labOf x1) := by
  rw [val_main_v76_apply, val_main_cst_19_apply, Ideal.ofBits_def, Ideal.ofBits_zero_f32, zero_add]
  unfold Cert.Spec.totalR
  exact (sum_idx2 (n0 := 512) (n1 := 512) _).trans
    (Finset.sum_congr rfl fun i _ => Finset.sum_congr rfl fun j _ => maskedLoss_apply x0 x1 i j)

/-- The pair's triplet count where the pair counts, the zero word elsewhere. -/
theorem maskedCnt_apply (i j : Fin 512) :
    val_main_v77 (F := Ideal) x0 x1 (ix2 i j)
      = BitVec.ofNat 32 (if Cert.Spec.valid (labOf x1) i j then Cert.Spec.pairCntN (distOf x0) (labOf x1) i j else 0) := by
  rw [val_main_v77_apply, select_of_iff (valid_iff x1 i j), pairCnt_apply, val_main_call10_v1_apply,
    val_main_call10_v0_apply, val_main_c_20_apply]
  split <;> rfl

/-- Its value as a natural number: no wrap-around below 512. -/
theorem maskedCnt_toNat (i j : Fin 512) :
    (val_main_v77 (F := Ideal) x0 x1 (ix2 i j)).toNat
      = if Cert.Spec.valid (labOf x1) i j then Cert.Spec.pairCntN (distOf x0) (labOf x1) i j else 0 := by
  rw [maskedCnt_apply]
  refine toNat_ofNat_small _ ?_
  have := pairCntN_le (distOf x0) (labOf x1) i j
  split <;> omega

theorem maskedCnt_le (i j : Fin 512) : (val_main_v77 (F := Ideal) x0 x1 (ix2 i j)).toNat ≤ 512 := by
  rw [maskedCnt_toNat]
  have := pairCntN_le (distOf x0) (labOf x1) i j
  split <;> omega

/-- The number of triplets as the sum of the words' values. -/
theorem ntrip_sum :
    (∑ i : Fin 512, ∑ j : Fin 512, (val_main_v77 (F := Ideal) x0 x1 (ix2 i j)).toNat)
      = Cert.Spec.ntripN (distOf x0) (labOf x1) := by
  unfold Cert.Spec.ntripN
  exact Finset.sum_congr rfl fun i _ => Finset.sum_congr rfl fun j _ => maskedCnt_toNat x0 x1 i j

/-- The triplet count tests positive exactly when there is a triplet. -/
theorem ntrip_pos_iff :
    IntOp.cmpi .sgt (val_main_v78 (F := Ideal) x0 x1 ix0) 0#32 = 1#1 ↔ 0 < Cert.Spec.ntripN (distOf x0) (labOf x1) := by
  unfold val_main_v78 val_main_c_21
  rw [reduce_add_total_sgt_iff _ _ _ (maskedCnt_le x0 x1), ntrip_sum]

/-- The triplet count as a float is the count. -/
theorem ntrip_float :
    FloatOps.sitofp (F := Ideal) .f32 (val_main_v78 (F := Ideal) x0 x1 ix0)
      = (((Cert.Spec.ntripN (distOf x0) (labOf x1) : ℕ) : ℝ) : EReal) := by
  unfold val_main_v78 val_main_c_21
  rw [reduce_add_total_sitofp _ _ _ (maskedCnt_le x0 x1), ntrip_sum]

/-! ## The loss -/

/-- The reference's result is the specification's loss of the embeddings and labels. -/
theorem ref_result :
    val_main_v82 (F := Ideal) x0 x1 ix0
      = Cert.Spec.lossR (fun i d => x0 (ix2 i d)) (fun i => x1 (ix1 i)) := by
  rw [val_main_v82_apply, val_main_v79_apply, val_main_c_22_apply, select_of_iff (ntrip_pos_iff x0 x1),
    val_main_v81_apply, total_apply, val_main_v80_apply, ntrip_float, val_main_call11_v0_apply, val_main_cst_23_apply,
    Ideal.ofBits_def, Ideal.ofBits_zero_f32, Ideal.hostDivf_def]
  rfl

end Cert.ReferenceIdeal.RefVal

end
-- ==== Proof.Bridge.Dist.lean ====
/-
  The two squared distances agree on real embeddings: |a|² + |b|² − 2⟨a, b⟩ = Σ (a_d − b_d)², an identity of
  finite real sums once every coordinate is a real number. The zero-safe square root then gives one distance
  matrix, which is non-negative, zero on the diagonal and finite.
-/
import proofs.«108628_j44933947851025_1_alg».proof.Proof.Spec

noncomputable section

open scoped BigOperators
open Classical

namespace Cert.Spec

open Idealize.ShloMosaic

/-- A finite sum of real numbers, taken in the extended reals, is the real sum. -/
theorem coe_sum {ι : Type} (s : Finset ι) (f : ι → ℝ) :
    (∑ a ∈ s, ((f a : ℝ) : EReal)) = ((∑ a ∈ s, f a : ℝ) : EReal) := by
  refine Finset.induction_on s ?_ ?_
  · simp
  · intro a s ha ih
    rw [Finset.sum_insert ha, Finset.sum_insert ha, ih, EReal.coe_add]

/-- On real embeddings the sum of squared differences is a real number. -/
theorem sqR_coe (x : Emb) (hx : Finite x) (i j : Fin 512) : ∃ s : ℝ, sqR x i j = (s : EReal) := by
  choose r hr using hx
  refine ⟨∑ d, (r i d - r j d) * (r i d - r j d), ?_⟩
  unfold sqR
  simp only [hr, ← EReal.coe_sub, ← EReal.coe_mul, coe_sum]

/-- The Gram-matrix form of the squared distance is the sum of squared differences. -/
theorem sq_eq (x : Emb) (hx : Finite x) (i j : Fin 512) : sqK x i j = sqR x i j := by
  choose r hr using hx
  unfold sqK sqR
  have h2 : (2 : EReal) = ((2 : ℝ) : EReal) := rfl
  simp only [hr, h2, ← EReal.coe_sub, ← EReal.coe_mul, coe_sum, ← EReal.coe_add]
  congr 1
  rw [Finset.mul_sum, ← Finset.sum_add_distrib, ← Finset.sum_sub_distrib]
  refine Finset.sum_congr rfl fun d _ => ?_
  ring

/-- The zero-safe root of a real number: zero below or at zero, the real square root above. -/
theorem distOf_coe (s : ℝ) : distOf (s : EReal) = ((if s ≤ 0 then 0 else Real.sqrt s : ℝ) : EReal) := by
  unfold distOf
  by_cases h : s ≤ 0
  · have h' : ((s : ℝ) : EReal) ≤ 0 := by exact_mod_cast h
    rw [if_pos h', if_pos h, EReal.coe_zero]
  · have h' : ¬ ((s : ℝ) : EReal) ≤ 0 := by exact_mod_cast h
    rw [if_neg h', if_neg h', Ideal.sqrt_coe, if_neg (not_lt.mpr (le_of_lt (not_le.mp h))), if_neg h]

/-- The zero-safe root is never negative, at the infinities either. -/
theorem distOf_nonneg (sq : EReal) : 0 ≤ distOf sq := by
  unfold distOf
  by_cases h : sq ≤ 0
  · rw [if_pos h]
  · rw [if_neg h, if_neg h]
    induction sq using EReal.rec with
    | bot => exact absurd bot_le h
    | coe r =>
      have hr : 0 < r := by exact_mod_cast not_le.mp h
      rw [Ideal.sqrt_coe, if_neg (not_lt.mpr hr.le)]
      exact_mod_cast Real.sqrt_nonneg r
    | top => rw [Ideal.sqrt_top]; exact le_top

theorem dist_eq (x : Emb) (hx : Finite x) : distK x = distR x := by
  funext i j
  unfold distK distR
  rw [sq_eq x hx]

theorem dist_nonneg (x : Emb) (i j : Fin 512) : 0 ≤ distR x i j := distOf_nonneg _

/-- A row is at distance zero from itself. -/
theorem dist_self (x : Emb) (hx : Finite x) (i : Fin 512) : distR x i i = 0 := by
  choose r hr using hx
  unfold distR sqR distOf
  have h0 : (∑ d, (x i d - x i d) * (x i d - x i d)) = 0 := by
    simp only [hr, ← EReal.coe_sub, sub_self, EReal.coe_zero, mul_zero, Finset.sum_const_zero]
  rw [h0, if_pos le_rfl]

theorem dist_ne_top (x : Emb) (hx : Finite x) (i j : Fin 512) : distR x i j ≠ ⊤ := by
  obtain ⟨s, hs⟩ := sqR_coe x hx i j
  unfold distR
  rw [hs, distOf_coe]
  exact EReal.coe_ne_top _

theorem dist_ne_bot (x : Emb) (hx : Finite x) (i j : Fin 512) : distR x i j ≠ ⊥ := by
  obtain ⟨s, hs⟩ := sqR_coe x hx i j
  unfold distR
  rw [hs, distOf_coe]
  exact EReal.coe_ne_bot _

end Cert.Spec

end
-- ==== Proof.Bridge.Margin.lean ====
/-
  The one float literal of the claim, read once: the single-precision word 0x3E99999A denotes the rational
  10066330 / 2^25 (sign 0, exponent 125, significand 2^23 + 0x19999A), a positive real a little above 0.3.
  Nothing downstream needs more than its sign and its finiteness.
-/
import proofs.«108628_j44933947851025_1_alg».proof.Proof.Spec

noncomputable section

open scoped BigOperators
open Classical

namespace Cert.Spec

open Idealize.ShloMosaic

/-- The margin's pattern as a rational: (2^23 + 1677722) · 2^(125 − 127 − 23). -/
theorem margin_eq : margin = ((10066330 / 33554432 : ℝ) : EReal) := by
  unfold margin
  simp [Ideal.ofBits, Ideal.ieee, -EReal.coe_mul]
  norm_num

theorem margin_pos : (0 : EReal) < margin := by
  rw [margin_eq]
  exact_mod_cast (by norm_num : (0 : ℝ) < 10066330 / 33554432)

theorem margin_ne_top : margin ≠ ⊤ := by
  rw [margin_eq]
  exact EReal.coe_ne_top _

theorem margin_ne_bot : margin ≠ ⊥ := by
  rw [margin_eq]
  exact EReal.coe_ne_bot _

end Cert.Spec

end
-- ==== Proof.Bridge.Mask.lean ====
/-
  The kernel's mask is a product of three 0/1 factors, so it is the indicator of the conjunction: the float
  count of semi-hard negatives is the integer count, and the mask-weighted hinge sum is the hinge sum over the
  semi-hard negatives. Only 0·a = 0 and 1·a = a are used, which hold in the extended reals at the infinities too.
-/
import proofs.«108628_j44933947851025_1_alg».proof.Proof.Spec

noncomputable section

open scoped BigOperators
open Classical

namespace Cert.Spec

open Idealize.ShloMosaic

/-- The product of the three indicators is the indicator of "semi-hard". -/
theorem maskv_eq (D : Mat) (lab : Lab) (i j k : Fin 512) :
    maskv (nonmf lab i k) (D i k) (D i j) = if semiHard D lab i j k then 1 else 0 := by
  unfold maskv nonmf semiHard
  by_cases h1 : isMatch lab i k <;> by_cases h2 : D i k < D i j + margin <;>
    by_cases h3 : D i k > D i j <;> simp [h1, h2, h3]

/-- The float count is the cast of the integer count. -/
theorem cntK_eq (D : Mat) (lab : Lab) (i j : Fin 512) : cntK D lab i j = ((cntN D lab i j : ℕ) : EReal) := by
  unfold cntK cntN
  simp only [maskv_eq]
  rw [Finset.card_filter, Nat.cast_sum]
  refine Finset.sum_congr rfl fun k _ => ?_
  split_ifs <;> simp

theorem cntK_pos_iff (D : Mat) (lab : Lab) (i j : Fin 512) : cntK D lab i j > 0 ↔ 0 < cntN D lab i j := by
  rw [cntK_eq, gt_iff_lt, ← Nat.cast_zero (R := EReal), EReal.natCast_lt_iff]

/-- The mask-weighted hinge sum is the hinge sum over the semi-hard negatives. -/
theorem shK_eq (D : Mat) (lab : Lab) : shK D lab = shR D lab := by
  funext i j
  unfold shK shR
  refine Finset.sum_congr rfl fun k _ => ?_
  rw [maskv_eq]
  split_ifs
  · rw [one_mul]
  · rw [zero_mul]

end Cert.Spec

end
-- ==== Proof.Bridge.Tail.lean ====
/-
  The two host tails agree on a distance matrix that is non-negative with a zero diagonal. The anchor is itself
  a non-positive of its own row at distance 0 and no distance is negative, so the hardest negative sits at
  distance 0; the reference's fallback hinge max(D − 0 + margin, 0) is then D + margin, which is positive, and
  its fallback count is one. What is left is the float sum of integer counts against the integer sum.
-/
import proofs.«108628_j44933947851025_1_alg».proof.Proof.Spec
import proofs.«108628_j44933947851025_1_alg».proof.Proof.Bridge.Margin
import proofs.«108628_j44933947851025_1_alg».proof.Proof.Bridge.Mask

noncomputable section

open scoped BigOperators
open Classical

namespace Cert.Spec

open Idealize.ShloMosaic

/-- The hardest negative of every anchor is at distance zero: the anchor itself. -/
theorem minNeg_eq_zero (D : Mat) (h0 : ∀ i j, 0 ≤ D i j) (hd : ∀ i, D i i = 0) (lab : Lab) (i : Fin 512) :
    minNeg D lab i = 0 := by
  unfold minNeg
  apply le_antisymm
  · have h := Finset.inf_le (f := fun k : Fin 512 => if isMatch lab i k then (⊤ : EReal) else D i k)
      (Finset.mem_univ i)
    have hi : ¬ isMatch lab i i := fun h => h.2 rfl
    rw [if_neg hi, hd] at h
    exact h
  · apply Finset.le_inf
    intro k _
    split_ifs
    · exact le_top
    · exact h0 i k

/-- A non-negative distance plus the margin is positive. -/
theorem add_margin_pos (a : EReal) (ha : 0 ≤ a) : 0 < a + margin := by
  have h : (0 : EReal) + margin ≤ a + margin := add_le_add ha le_rfl
  rw [zero_add] at h
  exact lt_of_lt_of_le margin_pos h

/-- The reference's fallback hinge is the distance plus the margin. -/
theorem fbR_eq (D : Mat) (h0 : ∀ i j, 0 ≤ D i j) (hd : ∀ i, D i i = 0) (lab : Lab) (i j : Fin 512) :
    fbR D lab i j = D i j + margin := by
  unfold fbR
  rw [minNeg_eq_zero D h0 hd, sub_zero]
  exact max_eq_left (le_of_lt (add_margin_pos _ (h0 i j)))

theorem fbR_pos (D : Mat) (h0 : ∀ i j, 0 ≤ D i j) (hd : ∀ i, D i i = 0) (lab : Lab) (i j : Fin 512) :
    fbR D lab i j > 0 := by
  rw [fbR_eq D h0 hd]
  exact add_margin_pos _ (h0 i j)

/-- One pair's loss, the reference's way, is the kernel's selection. -/
theorem pairLossR_eq (D : Mat) (h0 : ∀ i j, 0 ≤ D i j) (hd : ∀ i, D i i = 0) (lab : Lab) (i j : Fin 512) :
    pairLossR D lab i j = if cntK D lab i j > 0 then shK D lab i j else D i j + margin := by
  unfold pairLossR
  rw [if_pos (fbR_pos D h0 hd lab i j), fbR_eq D h0 hd, shK_eq]
  by_cases h : 0 < cntN D lab i j
  · rw [if_pos h, if_pos ((cntK_pos_iff D lab i j).mpr h)]
  · rw [if_neg h, if_neg (fun h' => h ((cntK_pos_iff D lab i j).mp h'))]

/-- One pair's count, the reference's way, cast to a float, is the kernel's selection. -/
theorem pairCntN_eq (D : Mat) (h0 : ∀ i j, 0 ≤ D i j) (hd : ∀ i, D i i = 0) (lab : Lab) (i j : Fin 512) :
    ((pairCntN D lab i j : ℕ) : EReal) = if cntK D lab i j > 0 then cntK D lab i j else 1 := by
  unfold pairCntN
  rw [if_pos (fbR_pos D h0 hd lab i j)]
  by_cases h : 0 < cntN D lab i j
  · rw [if_pos h, if_pos ((cntK_pos_iff D lab i j).mpr h), cntK_eq]
  · rw [if_neg h, if_neg (fun h' => h ((cntK_pos_iff D lab i j).mp h')), Nat.cast_one]

/-- The kernel's summed loss is the reference's. -/
theorem total_eq (D : Mat) (h0 : ∀ i j, 0 ≤ D i j) (hd : ∀ i, D i i = 0) (lab : Lab) :
    (∑ i, ∑ j, if valid lab i j then (if cntK D lab i j > 0 then shK D lab i j else D i j + margin) else 0)
      = totalR D lab := by
  unfold totalR
  refine Finset.sum_congr rfl fun i _ => Finset.sum_congr rfl fun j _ => ?_
  rw [pairLossR_eq D h0 hd]

/-- The kernel's float triplet count is the cast of the reference's integer count. -/
theorem ntrip_eq (D : Mat) (h0 : ∀ i j, 0 ≤ D i j) (hd : ∀ i, D i i = 0) (lab : Lab) :
    (∑ i, ∑ j, if valid lab i j then (if cntK D lab i j > 0 then cntK D lab i j else 1) else (0 : EReal))
      = (((ntripN D lab : ℕ) : ℝ) : EReal) := by
  rw [EReal.coe_natCast]
  unfold ntripN
  rw [Nat.cast_sum]
  refine Finset.sum_congr rfl fun i _ => ?_
  rw [Nat.cast_sum]
  refine Finset.sum_congr rfl fun j _ => ?_
  by_cases hv : valid lab i j
  · rw [if_pos hv, if_pos hv]
    exact (pairCntN_eq D h0 hd lab i j).symm
  · rw [if_neg hv, if_neg hv, Nat.cast_zero]

/-- The kernel's tail with its `let`s read out. -/
theorem tailK_def (D cnt sh : Mat) (lab : Lab) : tailK D cnt sh lab =
    if (∑ i, ∑ j, if valid lab i j then (if cnt i j > 0 then cnt i j else 1) else (0 : EReal)) > 0
    then Ideal.div (∑ i, ∑ j, if valid lab i j then (if cnt i j > 0 then sh i j else D i j + margin) else 0)
      (∑ i, ∑ j, if valid lab i j then (if cnt i j > 0 then cnt i j else 1) else (0 : EReal))
    else 0 := rfl

theorem tail_eq (D : Mat) (h0 : ∀ i j, 0 ≤ D i j) (hd : ∀ i, D i i = 0) (hf : ∀ i j, D i j ≠ ⊤) (lab : Lab) :
    tailK D (cntK D lab) (shK D lab) lab = tailR D lab := by
  rw [tailK_def, total_eq D h0 hd, ntrip_eq D h0 hd]
  unfold tailR
  have hpos : ((((ntripN D lab : ℕ) : ℝ) : EReal) > 0) ↔ 0 < ntripN D lab := by
    rw [EReal.coe_natCast, gt_iff_lt, ← Nat.cast_zero (R := EReal), EReal.natCast_lt_iff]
  by_cases h : 0 < ntripN D lab
  · rw [if_pos h, if_pos (hpos.mpr h)]
  · rw [if_neg h, if_neg (fun h' => h (hpos.mp h'))]

end Cert.Spec

end
-- ==== Proof.Bridge.Main.lean ====
/-
  The whole claim: on real embeddings the two distance matrices are one matrix, non-negative, zero on the
  diagonal and finite, and on such a matrix the two tails agree.
-/
import proofs.«108628_j44933947851025_1_alg».proof.Proof.Spec
import proofs.«108628_j44933947851025_1_alg».proof.Proof.Bridge.Dist
import proofs.«108628_j44933947851025_1_alg».proof.Proof.Bridge.Tail

noncomputable section

open scoped BigOperators
open Classical

namespace Cert.Spec

open Idealize.ShloMosaic

theorem loss_eq (x : Emb) (hx : Finite x) (lab : Lab) : lossK x lab = lossR x lab := by
  unfold lossK lossR
  rw [dist_eq x hx]
  exact tail_eq (distR x) (dist_nonneg x) (dist_self x hx) (dist_ne_top x hx) lab

end Cert.Spec

end
-- ==== Proof.PreFin.lean ====
/-
  From the precondition to real numbers: the precondition says that the conjunction, over every coordinate of the
  embeddings, of "the absolute value is below +∞" is true; an extended real whose absolute value is below +∞ is
  neither infinity, so it is a real number.
-/
import proofs.«108628_j44933947851025_1_alg».proof.Pre_finite_inputs
import proofs.«108628_j44933947851025_1_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.PreFin

open Idealize.ShloMosaic Idealize.ShloMosaic.ValueIdx

instance : Subsingleton Cert.Pre_finite_inputs.S_.Idx := ⟨fun a b => funext fun d => d.elim0⟩

/-- An extended real with |x| < +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

theorem finite_of_pre [Cert.Pre_finite_inputs.Facts] (x : FVec Ideal Cert.Pre_finite_inputs.S512x256 .f32)
    (l : IVec Cert.Pre_finite_inputs.S512 32)
    (h : Cert.Pre_finite_inputs.fn (F := Ideal) x l = fun _ => 1#1) : Cert.Spec.Finite (fun i d => x (ix2 i d)) := by
  intro i d
  have h0 := congrFun h ix0
  dsimp only [Cert.Pre_finite_inputs.fn] at h0
  have h1 := Host.reduce_andi_all _ _ _ _ _ h0 (ix2 i d)
  rw [cmpf_apply, broadcastInDim_apply _ _ _ _ ix0 (fun a => a.elim0), constant_apply] at h1
  have htop : Ideal.ofBits .f32 0x7F800000#32 = (⊤ : EReal) := by simp [Ideal.ofBits, Ideal.ieee]
  have h2 : Ideal.cmp .olt (max (x (ix2 i d)) (-(x (ix2 i d)))) ⊤ = 1#1 := by
    rw [← htop]; exact h1
  have h3 : max (x (ix2 i d)) (-(x (ix2 i d))) < ⊤ := by
    by_contra hn
    simp [Ideal.cmp, hn] at h2
  exact real_of_abs_lt_top _ h3

end Cert.PreFin

end
-- ==== Proof.lean ====
/-
  The certificate's five claims for the triplet-mining loss.

  The kernel's program is two pallas_calls among host operations: the first computes the matrix of pairwise distances
  through the Gram matrix; the host then forms the positive-pair mask and re-lays the distances; the second walks
  anchor tiles × column tiles and accumulates, per pair, the count of semi-hard negatives and their summed hinge
  terms; the host tail selects between the mined sum and the fallback `D + margin`, sums over the valid pairs and
  divides. Both frames (the word-level program and its reading over the extended reals) come from one run of that
  program, stated once for every float instance: each region's body is run symbolically on its staging buffers, the
  accumulating region point by point with its two output blocks carried across the column tiles, and the host
  stretches are read between them. The reference is a host program; its frame is its run with the result dropped.

  For the value claim both results are brought to one specification over the extended reals (Spec): the kernel's
  result is `lossK` of the argument arrays, the reference's is `lossR`, and the two agree when every embedding
  coordinate is a real number — which is what the precondition says: the squared distance through the Gram matrix is the
  sum of squared differences (distributivity, which needs finiteness); a row's own distance is zero and is a
  non-positive, so the hardest negative is at distance zero and the fallback hinge is `D + margin` with count one;
  a product of 0/1 factors is the indicator of the conjunction, and a float sum of indicators is the integer count.
  Nothing was rewritten by the idealization, so `preserves` is trivial.
-/
import proofs.«108628_j44933947851025_1_alg».proof.Defs
import proofs.«108628_j44933947851025_1_alg».proof.Proof.Gen.Kernel
import proofs.«108628_j44933947851025_1_alg».proof.Proof.Gen.KernelIdeal
import proofs.«108628_j44933947851025_1_alg».proof.Proof.Gen.ReferenceIdeal
import proofs.«108628_j44933947851025_1_alg».proof.Proof.Gen.Pre_finite_inputs
import proofs.«108628_j44933947851025_1_alg».proof.Proof.K.Run
import proofs.«108628_j44933947851025_1_alg».proof.Proof.KI.Run
import proofs.«108628_j44933947851025_1_alg».proof.Proof.Ref.RunS
import proofs.«108628_j44933947851025_1_alg».proof.Proof.Val.KernelLoss
import proofs.«108628_j44933947851025_1_alg».proof.Proof.Val.RefSpec
import proofs.«108628_j44933947851025_1_alg».proof.Proof.Bridge.Main
import proofs.«108628_j44933947851025_1_alg».proof.Proof.PreFin
import Idealize.ShloMosaic.Adequacy
import Idealize.ShloMosaic.Init

noncomputable section

namespace Cert.Proof

open Idealize.ShloMosaic Idealize.SL.Sem Idealize.ShloMosaic.ValueIdx

/-- The word-level program runs to the end, faults nowhere and leaves its arguments as launched. -/
theorem frame_k : Cert.frame_Kernel := fun m ρ _ => Cert.Kernel.Hand.frame m ρ

/-- So does its reading over the extended reals: the same run at the other float instance. -/
theorem frame_ki : Cert.frame_KernelIdeal := fun m ρ _ => Cert.KernelIdeal.Hand.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.ValueS.run (F := Ideal) m ρ)

/-- Both programs end with the loss of the specification at the argument arrays: the kernel's arrangement on one side,
    the reference's on the other, equal because the precondition makes every embedding coordinate a real number. -/
theorem algebraic : Cert.algebraic_KernelIdeal_ReferenceIdeal := by
  intro m ρ m' ρ' hpre hagree
  refine ⟨fun c => fun _ => Cert.Spec.lossK
      (fun i d => (m ((c.tc : Thread Cert.KernelIdeal.nD Cert.KernelIdeal.τ).loc Cert.KernelIdeal.main_arg0) : Cert.KernelIdeal.S512x256.Idx → EReal) (ix2 i d))
      (fun i => (m ((c.tc : Thread Cert.KernelIdeal.nD Cert.KernelIdeal.τ).loc Cert.KernelIdeal.main_arg1) : Cert.KernelIdeal.S512.Idx → BitVec 32) (ix1 i)), ?_, ?_⟩
  · exact (θ_run Cert.KernelIdeal.defs _ _).mono
      (fun _ h c => ⟨(h c).1.trans (Cert.KernelIdeal.LossVal.kernel_result_buf m c), (h c).2.1, (h c).2.2⟩)
      (Cert.KernelIdeal.Hand.run (F := Ideal) m ρ)
  · refine (θ_run Cert.ReferenceIdeal.defs _ _).mono (fun _ h c => ⟨(h c).1.trans ?_, (h c).2.1, (h c).2.2⟩)
      (Cert.ReferenceIdeal.ValueS.run (F := Ideal) m' ρ')
    funext j
    rw [eq_ix0 j, Cert.ReferenceIdeal.RefVal.ref_result, (hagree c).1, (hagree c).2]
    exact (Cert.Spec.loss_eq _ (Cert.PreFin.finite_of_pre _ _ (hpre c)) _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
